-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1 : Shape := ⟨2, ![1, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S1 .f32) (main_arg16 : FVec F S1 .f32) (main_arg17 : FVec F S1x1 .f32) (main_arg18 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S1x1 .f32 := Host.absf main_arg17
  let main_cst_30 : FVec F S_ .f32 := constant S_ .f32 0x7F800000#32
  let main_v80 : FVec F S1x1 .f32 := broadcastInDim S1x1 ![] bcast_S_S1x1 main_cst_30
  let main_v81 : IVec S1x1 1 := cmpf .olt main_v79 main_v80
  let main_c_31 : IVec S_ 1 := constantI S_ 1 1#1
  let main_v82 : IVec S_ 1 := (fun x v => Host.reduce IntOp.andi x v reducesTo_S1x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S1 .f32) (main_arg13 : FVec F S1x1 .f32) (main_arg14 : FVec F S1 .f32) (main_arg15 : FVec F S1 .f32) (main_arg16 : FVec F S1 .f32) (main_arg17 : FVec F S1x1 .f32) (main_arg18 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1x1 .f32 := Host.absf main_arg13
  let main_cst_22 : FVec F S_ .f32 := constant S_ .f32 0x7F800000#32
  let main_v60 : FVec F S1x1 .f32 := broadcastInDim S1x1 ![] bcast_S_S1x1 main_cst_22
  let main_v61 : IVec S1x1 1 := cmpf .olt main_v59 main_v60
  let main_c_23 : IVec S_ 1 := constantI S_ 1 1#1
  let main_v62 : IVec S_ 1 := (fun x v => Host.reduce IntOp.andi x v reducesTo_S1x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg15 main_arg16 main_arg17 main_arg18 main_v63 main_v67

def fn_part2 {F : FTy → Type} [FloatOps F] (main_arg8 : FVec F S32 .f32) (main_arg9 : FVec F S32 .f32) (main_arg10 : FVec F S32 .f32) (main_arg11 : FVec F S32x1 .f32) (main_arg12 : FVec F S1 .f32) (main_arg13 : FVec F S1x1 .f32) (main_arg14 : FVec F S1 .f32) (main_arg15 : FVec F S1 .f32) (main_arg16 : FVec F S1 .f32) (main_arg17 : FVec F S1x1 .f32) (main_arg18 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_arg13 main_arg14 main_arg15 main_arg16 main_arg17 main_arg18 main_v48 main_v49 main_v50

def fn_part1 {F : FTy → Type} [FloatOps F] (main_arg5 : FVec F S64 .f32) (main_arg6 : FVec F S64 .f32) (main_arg7 : FVec F S64x32 .f32) (main_arg8 : FVec F S32 .f32) (main_arg9 : FVec F S32 .f32) (main_arg10 : FVec F S32 .f32) (main_arg11 : FVec F S32x1 .f32) (main_arg12 : FVec F S1 .f32) (main_arg13 : FVec F S1x1 .f32) (main_arg14 : FVec F S1 .f32) (main_arg15 : FVec F S1 .f32) (main_arg16 : FVec F S1 .f32) (main_arg17 : FVec F S1x1 .f32) (main_arg18 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64 .f32) (main_arg6 : FVec F S64 .f32) (main_arg7 : FVec F S64x32 .f32) (main_arg8 : FVec F S32 .f32) (main_arg9 : FVec F S32 .f32) (main_arg10 : FVec F S32 .f32) (main_arg11 : FVec F S32x1 .f32) (main_arg12 : FVec F S1 .f32) (main_arg13 : FVec F S1x1 .f32) (main_arg14 : FVec F S1 .f32) (main_arg15 : FVec F S1 .f32) (main_arg16 : FVec F S1 .f32) (main_arg17 : FVec F S1x1 .f32) (main_arg18 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1 : Shape := ⟨2, ![1, 1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩
abbrev S5000x1 : Shape := ⟨2, ![5000, 1]⟩

abbrev nBuf : Space → Nat
  | .hbm => 191
  | .vmem => 41
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64, .f32⟩
  | 6 => ⟨S64, .f32⟩
  | 7 => ⟨S64x32, .f32⟩
  | 8 => ⟨S32, .f32⟩
  | 9 => ⟨S32, .f32⟩
  | 10 => ⟨S32, .f32⟩
  | 11 => ⟨S32x1, .f32⟩
  | 12 => ⟨S1, .f32⟩
  | 13 => ⟨S1x1, .f32⟩
  | 14 => ⟨S1, .f32⟩
  | 15 => ⟨S1, .f32⟩
  | 16 => ⟨S1, .f32⟩
  | 17 => ⟨S1x1, .f32⟩
  | 18 => ⟨S1, .f32⟩
  | 19 => ⟨S1x1600000, .i32⟩
  | 20 => ⟨S1600000, .i32⟩
  | 21 => ⟨S1x1600000, .i32⟩
  | 22 => ⟨S1600000, .i32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S_, .f32⟩
  | 59 => ⟨S100000, .f32⟩
  | 60 => ⟨S100000, .f32⟩
  | 61 => ⟨S100000, .f32⟩
  | 62 => ⟨S100000x64, .f32⟩
  | 63 => ⟨S1600000x1, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S1600000x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S100000x1, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S1x64, .f32⟩
  | 87 => ⟨S1x64, .f32⟩
  | 88 => ⟨S64, .f32⟩
  | 89 => ⟨S_, .f32⟩
  | 90 => ⟨S64, .f32⟩
  | 91 => ⟨S64, .f32⟩
  | 92 => ⟨S64, .f32⟩
  | 93 => ⟨S_, .f32⟩
  | 94 => ⟨S64, .f32⟩
  | 95 => ⟨S64, .f32⟩
  | 96 => ⟨S64, .f32⟩
  | 97 => ⟨S64, .f32⟩
  | 98 => ⟨S1x64, .f32⟩
  | 99 => ⟨S1x64, .f32⟩
  | 100 => ⟨S1x64, .f32⟩
  | 101 => ⟨S1x64, .f32⟩
  | 102 => ⟨S100000x64, .f32⟩
  | 103 => ⟨S100000x32, .f32⟩
  | 104 => ⟨S1600000x1, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x32, .f32⟩
  | 114 => ⟨S1600000x32, .f32⟩
  | 115 => ⟨S1600000x32, .f32⟩
  | 116 => ⟨S_, .f32⟩
  | 117 => ⟨S100000x32, .f32⟩
  | 118 => ⟨S1600000x1, .i32⟩
  | 119 => ⟨S100000x32, .f32⟩
  | 120 => ⟨S100000x1, .f32⟩
  | 121 => ⟨S100000x32, .f32⟩
  | 122 => ⟨S100000x32, .f32⟩
  | 123 => ⟨S100000x32, .f32⟩
  | 124 => ⟨S1x32, .f32⟩
  | 125 => ⟨S100000x32, .f32⟩
  | 126 => ⟨S100000x32, .f32⟩
  | 127 => ⟨S1x32, .f32⟩
  | _ => ⟨S100000x64, .f32⟩

abbrev hbmTy0_1 (i : Nat) : BufTy := match i % 128 with
  | 0 => ⟨S1x32, .f32⟩
  | 1 => ⟨S32, .f32⟩
  | 2 => ⟨S_, .f32⟩
  | 3 => ⟨S32, .f32⟩
  | 4 => ⟨S32, .f32⟩
  | 5 => ⟨S32, .f32⟩
  | 6 => ⟨S_, .f32⟩
  | 7 => ⟨S32, .f32⟩
  | 8 => ⟨S32, .f32⟩
  | 9 => ⟨S32, .f32⟩
  | 10 => ⟨S32, .f32⟩
  | 11 => ⟨S1x32, .f32⟩
  | 12 => ⟨S1x32, .f32⟩
  | 13 => ⟨S1x32, .f32⟩
  | 14 => ⟨S1x32, .f32⟩
  | 15 => ⟨S100000x32, .f32⟩
  | 16 => ⟨S100000x1, .f32⟩
  | 17 => ⟨S1600000x1, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x1, .f32⟩
  | 27 => ⟨S1600000x1, .f32⟩
  | 28 => ⟨S_, .f32⟩
  | 29 => ⟨S100000x1, .f32⟩
  | 30 => ⟨S1600000x1, .i32⟩
  | 31 => ⟨S100000x1, .f32⟩
  | 32 => ⟨S100000x1, .f32⟩
  | 33 => ⟨S100000x1, .f32⟩
  | 34 => ⟨S100000x1, .f32⟩
  | 35 => ⟨S1x1, .f32⟩
  | 36 => ⟨S100000x1, .f32⟩
  | 37 => ⟨S100000x1, .f32⟩
  | 38 => ⟨S_, .f32⟩
  | 39 => ⟨S1, .f32⟩
  | 40 => ⟨S1x1, .f32⟩
  | 41 => ⟨S_, .f32⟩
  | 42 => ⟨S1x1, .f32⟩
  | 43 => ⟨S1x1, .f32⟩
  | 44 => ⟨S1x1, .f32⟩
  | 45 => ⟨S1x1, .f32⟩
  | 46 => ⟨S1x1, .f32⟩
  | 47 => ⟨S_, .f32⟩
  | 48 => ⟨S_, .f32⟩
  | 49 => ⟨S_, .f32⟩
  | 50 => ⟨S_, .f32⟩
  | 51 => ⟨S1x1, .f32⟩
  | 52 => ⟨S1x1, .f32⟩
  | 53 => ⟨S1x1, .f32⟩
  | 54 => ⟨S1x1, .f32⟩
  | 55 => ⟨S1x1, .f32⟩
  | 56 => ⟨S1x1, .f32⟩
  | 57 => ⟨S_, .f32⟩
  | 58 => ⟨S1x1, .f32⟩
  | 59 => ⟨S1x1, .f32⟩
  | 60 => ⟨S1x1, .f32⟩
  | 61 => ⟨S1x1, .f32⟩
  | 62 => ⟨S1x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S1x32, .f32⟩
  | .local _ .vmem, ⟨27, _⟩ => ⟨S1x32, .f32⟩
  | .local _ .vmem, ⟨28, _⟩ => ⟨S5000x32, .f32⟩
  | .local _ .vmem, ⟨29, _⟩ => ⟨S5000x32, .f32⟩
  | .local _ .vmem, ⟨30, _⟩ => ⟨S1x32, .f32⟩
  | .local _ .vmem, ⟨31, _⟩ => ⟨S1x32, .f32⟩
  | .local _ .vmem, ⟨32, _⟩ => ⟨S1x32, .f32⟩
  | .local _ .vmem, ⟨33, _⟩ => ⟨S1x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | .local _ .vmem, ⟨38, _⟩ => ⟨S32x1, .f32⟩
  | .local _ .vmem, ⟨39, _⟩ => ⟨S5000x1, .f32⟩
  | .local _ .vmem, ⟨40, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_c : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_4 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_7 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53_0 : Ref sig .tc := ⟨.hbm, 86, rfl⟩
abbrev main_v53_1 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_12 : Ref sig .tc := ⟨.hbm, 105, rfl⟩
abbrev main_v69 : Ref sig .tc := ⟨.hbm, 106, rfl⟩
abbrev main_v70 : Ref sig .tc := ⟨.hbm, 107, rfl⟩
abbrev main_c_13 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_14 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88_0 : Ref sig .tc := ⟨.hbm, 127, rfl⟩
abbrev main_v88_1 : Ref sig .tc := ⟨.hbm, 128, rfl⟩
abbrev main_v89 : Ref sig .tc := ⟨.hbm, 129, rfl⟩
abbrev main_cst_15 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_17 : Ref sig .tc := ⟨.hbm, 146, rfl⟩
abbrev main_v104 : Ref sig .tc := ⟨.hbm, 147, rfl⟩
abbrev main_v105 : Ref sig .tc := ⟨.hbm, 148, rfl⟩
abbrev main_c_18 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_19 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_20 : Ref sig .tc := ⟨.hbm, 166, rfl⟩
abbrev main_v121 : Ref sig .tc := ⟨.hbm, 167, rfl⟩
abbrev main_v122 : Ref sig .tc := ⟨.hbm, 168, rfl⟩
abbrev main_cst_21 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_22 : Ref sig .tc := ⟨.hbm, 175, rfl⟩
abbrev main_cst_23 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_call1_cst : Ref sig .tc := ⟨.hbm, 185, rfl⟩
abbrev main_call1_v0 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  inb_S1x32_S1x32_0_0 : ∀ a, (![0, 0] : Fin 2 → Nat) a + S1x32.size a ≤ S1x32.size a
  h_S1x32 : 0 < S1x32.numel
  shapeCasts_S5000x32_S5000x32 : S5000x32.ShapeCasts S5000x32
  shapeCasts_S1x32_S1x32 : S1x32.ShapeCasts S1x32
  reduces_S5000x32_S32 : S5000x32.Reduces [0] S32
  shapeCasts_S32_S1x32 : S32.ShapeCasts S1x32
  shapeCasts_S1x32_S32 : S1x32.ShapeCasts S32
  bcast_S_S32 : S_.BroadcastsInDim S32 (![] : Fin 0 → Fin S32.rank)
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  bcast_S_S1x1 : S_.BroadcastsInDim S1x1 (![] : Fin 0 → Fin S1x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x1_S5000x1_1_0_0_1_n_n_wf : DotDims.WF S5000x32 S32x1 S5000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S1x1_S1x1_S1x1_1_0_0_1_n_n_wf : DotDims.WF S1x1 S1x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x32.size a ≤ S100000x32.size a
  hwx5_5 : ∀ i : grid5.Coords, EltTy.bits .f32 = 32 ∨ (Rect.block (s := S100000x32) S5000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x1.size a ≤ S32x1.size a
  hwx6_1 : ∀ i : grid6.Coords, EltTy.bits .f32 = 32 ∨ (Rect.block (s := S32x1) S32x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S1x1_S1x1_S1x1_1_0_0_1_n_n : DotDims S1x1 S1x1 S1x1 where
  lhsContracting := [1]
  rhsContracting := [0]
  lhsNonContracting := [0]
  rhsNonContracting := [1]
  lhsBatch := []
  rhsBatch := []
  wf := dot_S1x1_S1x1_S1x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S5000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v66) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88_0) S1x32.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88_1) S1x32.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v87) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v101) S5000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v101) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S32x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v102) S5000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1 : Shape := ⟨2, ![1, 1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 302
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64, .f32⟩
  | 6 => ⟨S64, .f32⟩
  | 7 => ⟨S64x32, .f32⟩
  | 8 => ⟨S32, .f32⟩
  | 9 => ⟨S32, .f32⟩
  | 10 => ⟨S32, .f32⟩
  | 11 => ⟨S32x1, .f32⟩
  | 12 => ⟨S1, .f32⟩
  | 13 => ⟨S1x1, .f32⟩
  | 14 => ⟨S1, .f32⟩
  | 15 => ⟨S1, .f32⟩
  | 16 => ⟨S1, .f32⟩
  | 17 => ⟨S1x1, .f32⟩
  | 18 => ⟨S1, .f32⟩
  | 19 => ⟨S1x1600000, .i32⟩
  | 20 => ⟨S1600000, .i32⟩
  | 21 => ⟨S1x1600000, .i32⟩
  | 22 => ⟨S1600000, .i32⟩
  | 23 => ⟨S100000x64, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S1600000x1, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S1600000x64, .f32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S_, .f32⟩
  | 76 => ⟨S100000, .f32⟩
  | 77 => ⟨S100000, .f32⟩
  | 78 => ⟨S100000, .f32⟩
  | 79 => ⟨S100000x1, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S100000x64, .f32⟩
  | 95 => ⟨S_, .f32⟩
  | 96 => ⟨S64, .f32⟩
  | 97 => ⟨S_, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S100000x32, .f32⟩
  | 121 => ⟨S_, .f32⟩
  | 122 => ⟨S100000, .f32⟩
  | 123 => ⟨S1600000x1, .i32⟩
  | 124 => ⟨S100000, .f32⟩
  | 125 => ⟨S_, .f32⟩
  | 126 => ⟨S100000, .f32⟩
  | 127 => ⟨S100000, .f32⟩
  | _ => ⟨S100000x64, .f32⟩

abbrev hbmTy0_1 (i : Nat) : BufTy := match i % 128 with
  | 0 => ⟨S_, .f32⟩
  | 1 => ⟨S100000, .f32⟩
  | 2 => ⟨S100000, .i1⟩
  | 3 => ⟨S100000, .f32⟩
  | 4 => ⟨S_, .f32⟩
  | 5 => ⟨S_, .f32⟩
  | 6 => ⟨S100000, .f32⟩
  | 7 => ⟨S100000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000, .f32⟩
  | 17 => ⟨S1600000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000, .f32⟩
  | 27 => ⟨S1600000, .f32⟩
  | 28 => ⟨S1600000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x32, .f32⟩
  | 38 => ⟨S1600000x32, .f32⟩
  | 39 => ⟨S1600000x32, .f32⟩
  | 40 => ⟨S_, .f32⟩
  | 41 => ⟨S100000x32, .f32⟩
  | 42 => ⟨S1600000x1, .i32⟩
  | 43 => ⟨S100000x32, .f32⟩
  | 44 => ⟨S_, .f32⟩
  | 45 => ⟨S100000, .f32⟩
  | 46 => ⟨S100000, .f32⟩
  | 47 => ⟨S100000, .f32⟩
  | 48 => ⟨S100000x1, .f32⟩
  | 49 => ⟨S100000x32, .f32⟩
  | 50 => ⟨S100000x32, .f32⟩
  | 51 => ⟨S100000x32, .f32⟩
  | 52 => ⟨S1x32, .f32⟩
  | 53 => ⟨S100000x32, .f32⟩
  | 54 => ⟨S100000x32, .f32⟩
  | 55 => ⟨S_, .f32⟩
  | 56 => ⟨S32, .f32⟩
  | 57 => ⟨S_, .f32⟩
  | 58 => ⟨S32, .f32⟩
  | 59 => ⟨S32, .f32⟩
  | 60 => ⟨S1x32, .f32⟩
  | 61 => ⟨S100000x32, .f32⟩
  | 62 => ⟨S100000x32, .f32⟩
  | 63 => ⟨S100000x32, .f32⟩
  | 64 => ⟨S_, .f32⟩
  | 65 => ⟨S32, .f32⟩
  | 66 => ⟨S_, .f32⟩
  | 67 => ⟨S32, .f32⟩
  | 68 => ⟨S32, .f32⟩
  | 69 => ⟨S1x32, .f32⟩
  | 70 => ⟨S100000x32, .f32⟩
  | 71 => ⟨S100000x32, .f32⟩
  | 72 => ⟨S_, .f32⟩
  | 73 => ⟨S32, .f32⟩
  | 74 => ⟨S32, .f32⟩
  | 75 => ⟨S32, .f32⟩
  | 76 => ⟨S1x32, .f32⟩
  | 77 => ⟨S100000x32, .f32⟩
  | 78 => ⟨S100000x32, .f32⟩
  | 79 => ⟨S1x32, .f32⟩
  | 80 => ⟨S100000x32, .f32⟩
  | 81 => ⟨S100000x32, .f32⟩
  | 82 => ⟨S1x32, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S100000x1, .f32⟩
  | 89 => ⟨S_, .f32⟩
  | 90 => ⟨S100000, .f32⟩
  | 91 => ⟨S1600000x1, .i32⟩
  | 92 => ⟨S100000, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S1600000, .f32⟩
  | 124 => ⟨S1600000x1, .f32⟩
  | 125 => ⟨S_, .i32⟩
  | 126 => ⟨S1600000, .i32⟩
  | 127 => ⟨S1600000, .i1⟩
  | _ => ⟨S100000x64, .f32⟩

abbrev hbmTy0_2 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x1, .f32⟩
  | 6 => ⟨S1600000x1, .f32⟩
  | 7 => ⟨S_, .f32⟩
  | 8 => ⟨S100000x1, .f32⟩
  | 9 => ⟨S1600000x1, .i32⟩
  | 10 => ⟨S100000x1, .f32⟩
  | 11 => ⟨S_, .f32⟩
  | 12 => ⟨S100000, .f32⟩
  | 13 => ⟨S100000, .f32⟩
  | 14 => ⟨S100000, .f32⟩
  | 15 => ⟨S100000x1, .f32⟩
  | 16 => ⟨S100000x1, .f32⟩
  | 17 => ⟨S100000x1, .f32⟩
  | 18 => ⟨S1x1, .f32⟩
  | 19 => ⟨S100000x1, .f32⟩
  | 20 => ⟨S100000x1, .f32⟩
  | 21 => ⟨S_, .f32⟩
  | 22 => ⟨S1, .f32⟩
  | 23 => ⟨S1x1, .f32⟩
  | 24 => ⟨S_, .f32⟩
  | 25 => ⟨S1x1, .f32⟩
  | 26 => ⟨S1x1, .f32⟩
  | 27 => ⟨S1x1, .f32⟩
  | 28 => ⟨S1x1, .f32⟩
  | 29 => ⟨S1x1, .f32⟩
  | 30 => ⟨S_, .f32⟩
  | 31 => ⟨S_, .f32⟩
  | 32 => ⟨S_, .f32⟩
  | 33 => ⟨S_, .f32⟩
  | 34 => ⟨S1x1, .f32⟩
  | 35 => ⟨S1x1, .f32⟩
  | 36 => ⟨S1x1, .f32⟩
  | 37 => ⟨S1x1, .f32⟩
  | 38 => ⟨S1x1, .f32⟩
  | 39 => ⟨S1x1, .f32⟩
  | 40 => ⟨S_, .f32⟩
  | 41 => ⟨S1x1, .f32⟩
  | 42 => ⟨S1x1, .f32⟩
  | 43 => ⟨S1x1, .f32⟩
  | 44 => ⟨S1x1, .f32⟩
  | 45 => ⟨S1x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_3 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_call1_cst : Ref sig .tc := ⟨.hbm, 116, rfl⟩
abbrev main_call1_v0 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_16 : Ref sig .tc := ⟨.hbm, 125, rfl⟩
abbrev main_v84 : Ref sig .tc := ⟨.hbm, 126, rfl⟩
abbrev main_v85 : Ref sig .tc := ⟨.hbm, 127, rfl⟩
abbrev main_cst_17 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_18 : Ref sig .tc := ⟨.hbm, 132, rfl⟩
abbrev main_call2_v0 : Ref sig .tc := ⟨.hbm, 133, rfl⟩
abbrev main_call2_v1 : Ref sig .tc := ⟨.hbm, 134, rfl⟩
abbrev main_v89 : Ref sig .tc := ⟨.hbm, 135, rfl⟩
abbrev main_c_19 : Ref sig .tc := ⟨.hbm, 136, rfl⟩
abbrev main_v90 : Ref sig .tc := ⟨.hbm, 137, rfl⟩
abbrev main_v91 : Ref sig .tc := ⟨.hbm, 138, rfl⟩
abbrev main_c_20 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_c_21 : Ref sig .tc := ⟨.hbm, 146, rfl⟩
abbrev main_v98 : Ref sig .tc := ⟨.hbm, 147, rfl⟩
abbrev main_v99 : Ref sig .tc := ⟨.hbm, 148, rfl⟩
abbrev main_c_22 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_23 : Ref sig .tc := ⟨.hbm, 157, rfl⟩
abbrev main_v107 : Ref sig .tc := ⟨.hbm, 158, rfl⟩
abbrev main_v108 : Ref sig .tc := ⟨.hbm, 159, rfl⟩
abbrev main_c_24 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_25 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_26 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_27 : Ref sig .tc := ⟨.hbm, 183, rfl⟩
abbrev main_v129 : Ref sig .tc := ⟨.hbm, 184, rfl⟩
abbrev main_cst_28 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_29 : Ref sig .tc := ⟨.hbm, 192, rfl⟩
abbrev main_v136 : Ref sig .tc := ⟨.hbm, 193, rfl⟩
abbrev main_cst_30 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_31 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_call3_cst : Ref sig .tc := ⟨.hbm, 213, rfl⟩
abbrev main_call3_v0 : Ref sig .tc := ⟨.hbm, 214, rfl⟩
abbrev main_v154 : Ref sig .tc := ⟨.hbm, 215, rfl⟩
abbrev main_v155 : Ref sig .tc := ⟨.hbm, 216, rfl⟩
abbrev main_cst_32 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_33 : Ref sig .tc := ⟨.hbm, 221, rfl⟩
abbrev main_v159 : Ref sig .tc := ⟨.hbm, 222, rfl⟩
abbrev main_v160 : Ref sig .tc := ⟨.hbm, 223, rfl⟩
abbrev main_cst_34 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_cst_35 : Ref sig .tc := ⟨.hbm, 228, rfl⟩
abbrev main_call4_v0 : Ref sig .tc := ⟨.hbm, 229, rfl⟩
abbrev main_call4_v1 : Ref sig .tc := ⟨.hbm, 230, rfl⟩
abbrev main_v164 : Ref sig .tc := ⟨.hbm, 231, rfl⟩
abbrev main_c_36 : Ref sig .tc := ⟨.hbm, 232, rfl⟩
abbrev main_v165 : Ref sig .tc := ⟨.hbm, 233, rfl⟩
abbrev main_v166 : Ref sig .tc := ⟨.hbm, 234, rfl⟩
abbrev main_c_37 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_c_38 : Ref sig .tc := ⟨.hbm, 242, rfl⟩
abbrev main_v173 : Ref sig .tc := ⟨.hbm, 243, rfl⟩
abbrev main_v174 : Ref sig .tc := ⟨.hbm, 244, rfl⟩
abbrev main_c_39 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_c_40 : Ref sig .tc := ⟨.hbm, 253, rfl⟩
abbrev main_v182 : Ref sig .tc := ⟨.hbm, 254, rfl⟩
abbrev main_v183 : Ref sig .tc := ⟨.hbm, 255, rfl⟩
abbrev main_c_41 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_cst_42 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_cst_43 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_cst_44 : Ref sig .tc := ⟨.hbm, 277, rfl⟩
abbrev main_v202 : Ref sig .tc := ⟨.hbm, 278, rfl⟩
abbrev main_v203 : Ref sig .tc := ⟨.hbm, 279, rfl⟩
abbrev main_cst_45 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_cst_46 : Ref sig .tc := ⟨.hbm, 286, rfl⟩
abbrev main_cst_47 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_call5_cst : Ref sig .tc := ⟨.hbm, 296, rfl⟩
abbrev main_call5_v0 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  bcast_S_S32 : S_.BroadcastsInDim S32 (![] : Fin 0 → Fin S32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  bcast_S_S1x1 : S_.BroadcastsInDim S1x1 (![] : Fin 0 → Fin S1x1.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x1_S100000x1_1_0_0_1_n_n_wf : DotDims.WF S100000x32 S32x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S1x1_S1x1_S1x1_1_0_0_1_n_n_wf : DotDims.WF S1x1 S1x1 S1x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S1x1_S1x1_S1x1_1_0_0_1_n_n : DotDims S1x1 S1x1 S1x1 where
  lhsContracting := [1]
  rhsContracting := [0]
  lhsNonContracting := [0]
  rhsNonContracting := [1]
  lhsBatch := []
  rhsBatch := []
  wf := dot_S1x1_S1x1_S1x1_1_0_0_1_n_n_wf

class Facts : Prop extends Facts₀ where

variable [Facts]
-- ==== Proof.KernelRun.lean ====
/-
  The idealized kernel's run with its result named.

  @main is seventeen segments: ten stretches of host operations and seven pipelined regions.  The buffer contents at
  every segment boundary are a fold from the launch memory: a host stretch applies its operations, a region replaces
  each of its output arrays by what its write-backs leave and keeps every other buffer.  Every weakly fair execution
  terminates in a state whose unscoped buffers hold the last boundary's contents; so the result array holds the fold's
  value at the result buffer, and the nineteen argument arrays end as launched.
-/
import proofs.«178879_j29317446762855_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result array then holds the last segment
    boundary's contents at the result buffer, and every argument array is as launched. -/
theorem run_result : θ_run defs (onTc (τ := τ) (main (F := F))) ⟨m, fun _ => 0, ρ⟩ (fun r => ∀ c : Dev nD,
      r.2.mem ((c.tc : Thread nD τ).loc main_v139) = W17 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v139 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c)⟩)

end Cert.KernelIdeal.RunValue

end
-- ==== Proof.RefResult.lean ====
/-
  The reference's result after its run is its last stage applied to the launch contents of its arguments.

  The run leaves the result buffer at the fold of the 283 operations' results over the launch contents.  Each operation
  writes one buffer, as its function of the buffers it reads; reading the fold back from the result buffer through the
  operations that wrote each operand gives the stages' composition, which is the last stage by definition of the stages.
-/
import proofs.«178879_j29317446762855_1_alg».proof.Proof.RefRun
import proofs.«178879_j29317446762855_1_alg».proof.Proof.RefRead

noncomputable section

namespace Cert.Gcn.RefResult

open Cert.ReferenceIdeal Cert.ReferenceIdeal.Gen Idealize.ShloMosaic Idealize.ShloMosaic.TcCoe Idealize.SL.Sem
open Idealize.ShloMosaic.StableHlo

variable {F : FTy → Type} [FloatOps F]

set_option maxRecDepth 8192 in
set_option maxHeartbeats 113200000 in
/-- The fold at the result buffer is the last stage of the arguments' launch contents. -/
theorem res_eq (m : (ℓ : Loc nD τ sig) → Buf (Elt F) ℓ) (c : Dev nD) :
    Cert.ReferenceIdeal.ValueP.res_main_v220 m c
      = Cert.ReferenceIdeal.Read.val_main_v220 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  unfold Cert.ReferenceIdeal.ValueP.res_main_v220
  after_results_simp
  rfl

end Cert.Gcn.RefResult

end
-- ==== Proof.PreReal.lean ====
/- The precondition decoded. The printed predicate is the conjunction, over the eighteen float arguments, of
   "every entry x satisfies |x| < +infinity", each conjunct an and-reduction over all axes of the entrywise
   comparison of max x (-x) against the pattern of +infinity. On the extended reals max x (-x) < +infinity
   rules out both infinities, so every entry of every float argument is a real number. (The second argument is
   the integer edge list; the predicate says nothing of it.) -/
import proofs.«178879_j29317446762855_1_alg».proof.Defs
import Idealize.ShloMosaic.Lib.ReduceAll
import Idealize.ShloMosaic.PureOps.Ideal.Laws
import Idealize.ShloMosaic.Lib.ValueIdx
import Idealize.ShloMosaic.Lib.IdealHost

noncomputable section

namespace Cert.Gcn.PreReal

open Idealize.ShloMosaic Idealize.ShloMosaic.ValueIdx Idealize.SL.Sem Cert.Pre_finite_inputs

/-- The scalar shape has one index. -/
instance : Subsingleton S_.Idx := ⟨fun a b => funext fun d => d.elim0⟩

/-- The pattern 0x7F800000 denotes +infinity. -/
theorem ofBits_inf : (Ideal.ofBits .f32 0x7F800000#32 : EReal) = ⊤ := by simp [Ideal.ofBits, Ideal.ieee]

/-- An extended real whose absolute value max x (-x) is below +infinity is a real: x = +infinity fails the
    first half of the maximum, x = -infinity the second. -/
theorem real_of_abs_lt_top (x : EReal) (h : Ideal.cmp .olt (max x (-x)) ⊤ = 1#1) : ∃ r : ℝ, x = (r : EReal) := by
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- One conjunct of the predicate: if the and-reduction over all axes of |x| < +infinity is 1, every entry of x
    is a real. -/
theorem real_of_all {S : Shape} {axes : List (Fin S.rank)} (x : FVec Ideal S .f32)
    (hb : S_.BroadcastsInDim S (![] : Fin 0 → Fin S.rank)) (hr : S.ReducesTo axes S_) (h0 : 0 < S_.numel)
    (e : Host.reduce IntOp.andi (cmpf .olt (Host.absf x) (broadcastInDim S ![] hb (constant (F := Ideal) S_ .f32 0x7F800000#32)))
          (constantI S_ 1 1#1) hr h0 ix0 = 1#1) :
    ∀ i, ∃ r : ℝ, x i = (r : EReal) := by
  intro i
  have h := Host.reduce_andi_all _ _ hr h0 ix0 e i
  rw [cmpf_apply, broadcastInDim_scalar_apply, constant_apply, ofBits_inf] at h
  exact real_of_abs_lt_top (x i) h

/-- A conjunction of two scalar bits is 1 exactly when both are. -/
theorem andi_ix0 (a b : IVec S_ 1) : andi a b ix0 = 1#1 ↔ a ix0 = 1#1 ∧ b ix0 = 1#1 := IntOp.andi_eq_one

variable [Cert.Pre_finite_inputs.Facts]

/-- The predicate all ones: every entry of every float argument is a real. -/
theorem real_of_pre (x0 : FVec Ideal S100000x64 .f32) (x1 : IVec S2x1600000 32) (x2 : FVec Ideal S1600000 .f32) (x3 : FVec Ideal S64x64 .f32) (x4 : FVec Ideal S64 .f32) (x5 : FVec Ideal S64 .f32) (x6 : FVec Ideal S64 .f32) (x7 : FVec Ideal S64x32 .f32) (x8 : FVec Ideal S32 .f32) (x9 : FVec Ideal S32 .f32) (x10 : FVec Ideal S32 .f32) (x11 : FVec Ideal S32x1 .f32) (x12 : FVec Ideal S1 .f32) (x13 : FVec Ideal S1x1 .f32) (x14 : FVec Ideal S1 .f32) (x15 : FVec Ideal S1 .f32) (x16 : FVec Ideal S1 .f32) (x17 : FVec Ideal S1x1 .f32) (x18 : FVec Ideal S1 .f32)
    (h : Cert.Pre_finite_inputs.fn (F := Ideal) x0 x1 x2 x3 x4 x5 x6 x7 x8 x9 x10 x11 x12 x13 x14 x15 x16 x17 x18 = (fun _ => 1#1)) :
    (∀ i, ∃ r : ℝ, x0 i = (r : EReal))
      ∧ (∀ i, ∃ r : ℝ, x2 i = (r : EReal))
      ∧ (∀ i, ∃ r : ℝ, x3 i = (r : EReal))
      ∧ (∀ i, ∃ r : ℝ, x4 i = (r : EReal))
      ∧ (∀ i, ∃ r : ℝ, x5 i = (r : EReal))
      ∧ (∀ i, ∃ r : ℝ, x6 i = (r : EReal))
      ∧ (∀ i, ∃ r : ℝ, x7 i = (r : EReal))
      ∧ (∀ i, ∃ r : ℝ, x8 i = (r : EReal))
      ∧ (∀ i, ∃ r : ℝ, x9 i = (r : EReal))
      ∧ (∀ i, ∃ r : ℝ, x10 i = (r : EReal))
      ∧ (∀ i, ∃ r : ℝ, x11 i = (r : EReal))
      ∧ (∀ i, ∃ r : ℝ, x12 i = (r : EReal))
      ∧ (∀ i, ∃ r : ℝ, x13 i = (r : EReal))
      ∧ (∀ i, ∃ r : ℝ, x14 i = (r : EReal))
      ∧ (∀ i, ∃ r : ℝ, x15 i = (r : EReal))
      ∧ (∀ i, ∃ r : ℝ, x16 i = (r : EReal))
      ∧ (∀ i, ∃ r : ℝ, x17 i = (r : EReal))
      ∧ (∀ i, ∃ r : ℝ, x18 i = (r : EReal)) := by
  have h0 := congrFun h ix0
  dsimp only [fn, fn_part1, fn_part2, fn_part3, fn_part4, fn_part5] at h0
  simp only [andi_ix0] at h0
  obtain ⟨⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩, e18⟩ := h0
  exact ⟨real_of_all x0 _ _ _ e0,
    real_of_all x2 _ _ _ e2,
    real_of_all x3 _ _ _ e3,
    real_of_all x4 _ _ _ e4,
    real_of_all x5 _ _ _ e5,
    real_of_all x6 _ _ _ e6,
    real_of_all x7 _ _ _ e7,
    real_of_all x8 _ _ _ e8,
    real_of_all x9 _ _ _ e9,
    real_of_all x10 _ _ _ e10,
    real_of_all x11 _ _ _ e11,
    real_of_all x12 _ _ _ e12,
    real_of_all x13 _ _ _ e13,
    real_of_all x14 _ _ _ e14,
    real_of_all x15 _ _ _ e15,
    real_of_all x16 _ _ _ e16,
    real_of_all x17 _ _ _ e17,
    real_of_all x18 _ _ _ e18⟩

/-- The same over a memory of which the idealized kernel's precondition holds, at a device. -/
theorem real_of_preKernelIdeal (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal))
      ∧ (∀ i, ∃ r : ℝ, m ((c.tc : Thread Cert.KernelIdeal.nD Cert.KernelIdeal.τ).loc Cert.KernelIdeal.main_arg14) i = (r : EReal))
      ∧ (∀ i, ∃ r : ℝ, m ((c.tc : Thread Cert.KernelIdeal.nD Cert.KernelIdeal.τ).loc Cert.KernelIdeal.main_arg15) i = (r : EReal))
      ∧ (∀ i, ∃ r : ℝ, m ((c.tc : Thread Cert.KernelIdeal.nD Cert.KernelIdeal.τ).loc Cert.KernelIdeal.main_arg16) i = (r : EReal))
      ∧ (∀ i, ∃ r : ℝ, m ((c.tc : Thread Cert.KernelIdeal.nD Cert.KernelIdeal.τ).loc Cert.KernelIdeal.main_arg17) i = (r : EReal))
      ∧ (∀ i, ∃ r : ℝ, m ((c.tc : Thread Cert.KernelIdeal.nD Cert.KernelIdeal.τ).loc Cert.KernelIdeal.main_arg18) i = (r : EReal)) :=
  real_of_pre _ _ _ _ _ _ _ _ _ _ _ _ _ _ _ _ _ _ _ (hm c)

end Cert.Gcn.PreReal

end
-- ==== Proof.FoldCarry.lean ====
/-
  Reading a buffer through the segments that do not write it.

  The contents at a segment boundary are a fold from the launch memory: a stretch of host operations rewrites the
  buffers it writes and keeps the rest; a pipelined region replaces its output arrays and keeps every other buffer, its
  input arrays included.  So a buffer's contents at a boundary are its contents at the last boundary after it was
  written — for an argument of the program, the launch contents.
-/
import proofs.«178879_j29317446762855_1_alg».proof.Proof.Gen.KernelIdeal.Frame
import Idealize.ShloMosaic.Lib.StableHlo.Run
import Idealize.ShloMosaic.PureOps.Ideal

set_option maxRecDepth 16384

noncomputable section

namespace Cert.Gcn.Fold

open Cert.KernelIdeal Cert.KernelIdeal.Gen Idealize.ShloMosaic Idealize.ShloMosaic.TcCoe Idealize.SL.Sem
open Idealize.ShloMosaic.StableHlo

/-- No operation of the named literal stretch of host operations writes the buffer: each operation's written set is a
    singleton, and the references differ. -/
macro "not_written " ops:ident : tactic =>
  `(tactic| (simp only [$ops:ident, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-- The launch contents of a buffer of core `c`. -/
abbrev A (b : Ref sig .tc) : Buf (Elt Ideal) ((c.tc : Thread nD τ).loc b) := m ((c.tc : Thread nD τ).loc b)

/-! ## Arguments of the program, as the segments that read them find them -/

theorem W3_arg0 : W3 m ρ c (Proc.devRef .tc main_arg0) = A m c main_arg0 := by
  refine Eq.trans (StableHlo.after_of_forall_not_mem (b := Proc.devRef .tc main_arg0) (hostOps0_2 (F := Ideal)) (W2 m ρ c)
    (List.forall_iff_forall_mem.mp (by not_written hostOps0_2))) ?_
  refine Eq.trans (StableHlo.after_of_forall_not_mem (b := Proc.devRef .tc main_arg0) (hostOps0_1 (F := Ideal)) (W1 m ρ c)
    (List.forall_iff_forall_mem.mp (by not_written hostOps0_1))) ?_
  refine Eq.trans (StableHlo.after_of_forall_not_mem (b := Proc.devRef .tc main_arg0) (hostOps0 (F := Ideal)) (W0 m ρ c)
    (List.forall_iff_forall_mem.mp (by not_written hostOps0))) ?_
  rfl
theorem W3_arg3 : W3 m ρ c (Proc.devRef .tc main_arg3) = A m c main_arg3 := by
  refine Eq.trans (StableHlo.after_of_forall_not_mem (b := Proc.devRef .tc main_arg3) (hostOps0_2 (F := Ideal)) (W2 m ρ c)
    (List.forall_iff_forall_mem.mp (by not_written hostOps0_2))) ?_
  refine Eq.trans (StableHlo.after_of_forall_not_mem (b := Proc.devRef .tc main_arg3) (hostOps0_1 (F := Ideal)) (W1 m ρ c)
    (List.forall_iff_forall_mem.mp (by not_written hostOps0_1))) ?_
  refine Eq.trans (StableHlo.after_of_forall_not_mem (b := Proc.devRef .tc main_arg3) (hostOps0 (F := Ideal)) (W0 m ρ c)
    (List.forall_iff_forall_mem.mp (by not_written hostOps0))) ?_
  rfl
theorem W4_arg4 : W4 m ρ c (Proc.devRef .tc main_arg4) = A m c main_arg4 := by
  refine Eq.trans (W4_of_ne m ρ c main_arg4 (by decide)) ?_
  refine Eq.trans (StableHlo.after_of_forall_not_mem (b := Proc.devRef .tc main_arg4) (hostOps0_2 (F := Ideal)) (W2 m ρ c)
    (List.forall_iff_forall_mem.mp (by not_written hostOps0_2))) ?_
  refine Eq.trans (StableHlo.after_of_forall_not_mem (b := Proc.devRef .tc main_arg4) (hostOps0_1 (F := Ideal)) (W1 m ρ c)
    (List.forall_iff_forall_mem.mp (by not_written hostOps0_1))) ?_
  refine Eq.trans (StableHlo.after_of_forall_not_mem (b := Proc.devRef .tc main_arg4) (hostOps0 (F := Ideal)) (W0 m ρ c)
    (List.forall_iff_forall_mem.mp (by not_written hostOps0))) ?_
  rfl
theorem W6_arg5 : W6 m ρ c (Proc.devRef .tc main_arg5) = A m c main_arg5 := by
  refine Eq.trans (W6_of_ne m ρ c main_arg5 (by decide)) ?_
  refine Eq.trans (StableHlo.after_of_forall_not_mem (b := Proc.devRef .tc main_arg5) (hostOps1 (F := Ideal)) (W4 m ρ c)
    (List.forall_iff_forall_mem.mp (by not_written hostOps1))) ?_
  refine Eq.trans (W4_of_ne m ρ c main_arg5 (by decide)) ?_
  refine Eq.trans (StableHlo.after_of_forall_not_mem (b := Proc.devRef .tc main_arg5) (hostOps0_2 (F := Ideal)) (W2 m ρ c)
    (List.forall_iff_forall_mem.mp (by not_written hostOps0_2))) ?_
  refine Eq.trans (StableHlo.after_of_forall_not_mem (b := Proc.devRef .tc main_arg5) (hostOps0_1 (F := Ideal)) (W1 m ρ c)
    (List.forall_iff_forall_mem.mp (by not_written hostOps0_1))) ?_
  refine Eq.trans (StableHlo.after_of_forall_not_mem (b := Proc.devRef .tc main_arg5) (hostOps0 (F := Ideal)) (W0 m ρ c)
    (List.forall_iff_forall_mem.mp (by not_written hostOps0))) ?_
  rfl
theorem W6_arg6 : W6 m ρ c (Proc.devRef .tc main_arg6) = A m c main_arg6 := by
  refine Eq.trans (W6_of_ne m ρ c main_arg6 (by decide)) ?_
  refine Eq.trans (StableHlo.after_of_forall_not_mem (b := Proc.devRef .tc main_arg6) (hostOps1 (F := Ideal)) (W4 m ρ c)
    (List.forall_iff_forall_mem.mp (by not_written hostOps1))) ?_
  refine Eq.trans (W4_of_ne m ρ c main_arg6 (by decide)) ?_
  refine Eq.trans (StableHlo.after_of_forall_not_mem (b := Proc.devRef .tc main_arg6) (hostOps0_2 (F := Ideal)) (W2 m ρ c)
    (List.forall_iff_forall_mem.mp (by not_written hostOps0_2))) ?_
  refine Eq.trans (StableHlo.after_of_forall_not_mem (b := Proc.devRef .tc main_arg6) (hostOps0_1 (F := Ideal)) (W1 m ρ c)
    (List.forall_iff_forall_mem.mp (by not_written hostOps0_1))) ?_
  refine Eq.trans (StableHlo.after_of_forall_not_mem (b := Proc.devRef .tc main_arg6) (hostOps0 (F := Ideal)) (W0 m ρ c)
    (List.forall_iff_forall_mem.mp (by not_written hostOps0))) ?_
  rfl
theorem W8_arg7 : W8 m ρ c (Proc.devRef .tc main_arg7) = A m c main_arg7 := by
  refine Eq.trans (W8_of_ne m ρ c main_arg7 (by decide)) ?_
  refine Eq.trans (StableHlo.after_of_forall_not_mem (b := Proc.devRef .tc main_arg7) (hostOps2 (F := Ideal)) (W6 m ρ c)
    (List.forall_iff_forall_mem.mp (by not_written hostOps2))) ?_
  refine Eq.trans (W6_of_ne m ρ c main_arg7 (by decide)) ?_
  refine Eq.trans (StableHlo.after_of_forall_not_mem (b := Proc.devRef .tc main_arg7) (hostOps1 (F := Ideal)) (W4 m ρ c)
    (List.forall_iff_forall_mem.mp (by not_written hostOps1))) ?_
  refine Eq.trans (W4_of_ne m ρ c main_arg7 (by decide)) ?_
  refine Eq.trans (StableHlo.after_of_forall_not_mem (b := Proc.devRef .tc main_arg7) (hostOps0_2 (F := Ideal)) (W2 m ρ c)
    (List.forall_iff_forall_mem.mp (by not_written hostOps0_2))) ?_
  refine Eq.trans (StableHlo.after_of_forall_not_mem (b := Proc.devRef .tc main_arg7) (hostOps0_1 (F := Ideal)) (W1 m ρ c)
    (List.forall_iff_forall_mem.mp (by not_written hostOps0_1))) ?_
  refine Eq.trans (StableHlo.after_of_forall_not_mem (b := Proc.devRef .tc main_arg7) (hostOps0 (F := Ideal)) (W0 m ρ c)
    (List.forall_iff_forall_mem.mp (by not_written hostOps0))) ?_
  rfl
theorem W9_arg8 : W9 m ρ c (Proc.devRef .tc main_arg8) = A m c main_arg8 := by
  refine Eq.trans (W9_of_ne m ρ c main_arg8 (by decide)) ?_
  refine Eq.trans (W8_of_ne m ρ c main_arg8 (by decide)) ?_
  refine Eq.trans (StableHlo.after_of_forall_not_mem (b := Proc.devRef .tc main_arg8) (hostOps2 (F := Ideal)) (W6 m ρ c)
    (List.forall_iff_forall_mem.mp (by not_written hostOps2))) ?_
  refine Eq.trans (W6_of_ne m ρ c main_arg8 (by decide)) ?_
  refine Eq.trans (StableHlo.after_of_forall_not_mem (b := Proc.devRef .tc main_arg8) (hostOps1 (F := Ideal)) (W4 m ρ c)
    (List.forall_iff_forall_mem.mp (by not_written hostOps1))) ?_
  refine Eq.trans (W4_of_ne m ρ c main_arg8 (by decide)) ?_
  refine Eq.trans (StableHlo.after_of_forall_not_mem (b := Proc.devRef .tc main_arg8) (hostOps0_2 (F := Ideal)) (W2 m ρ c)
    (List.forall_iff_forall_mem.mp (by not_written hostOps0_2))) ?_
  refine Eq.trans (StableHlo.after_of_forall_not_mem (b := Proc.devRef .tc main_arg8) (hostOps0_1 (F := Ideal)) (W1 m ρ c)
    (List.forall_iff_forall_mem.mp (by not_written hostOps0_1))) ?_
  refine Eq.trans (StableHlo.after_of_forall_not_mem (b := Proc.devRef .tc main_arg8) (hostOps0 (F := Ideal)) (W0 m ρ c)
    (List.forall_iff_forall_mem.mp (by not_written hostOps0))) ?_
  rfl
theorem W11_arg9 : W11 m ρ c (Proc.devRef .tc main_arg9) = A m c main_arg9 := by
  refine Eq.trans (W11_of_ne m ρ c main_arg9 (by decide)) ?_
  refine Eq.trans (StableHlo.after_of_forall_not_mem (b := Proc.devRef .tc main_arg9) (hostOps4 (F := Ideal)) (W9 m ρ c)
    (List.forall_iff_forall_mem.mp (by not_written hostOps4))) ?_
  refine Eq.trans (W9_of_ne m ρ c main_arg9 (by decide)) ?_
  refine Eq.trans (W8_of_ne m ρ c main_arg9 (by decide)) ?_
  refine Eq.trans (StableHlo.after_of_forall_not_mem (b := Proc.devRef .tc main_arg9) (hostOps2 (F := Ideal)) (W6 m ρ c)
    (List.forall_iff_forall_mem.mp (by not_written hostOps2))) ?_
  refine Eq.trans (W6_of_ne m ρ c main_arg9 (by decide)) ?_
  refine Eq.trans (StableHlo.after_of_forall_not_mem (b := Proc.devRef .tc main_arg9) (hostOps1 (F := Ideal)) (W4 m ρ c)
    (List.forall_iff_forall_mem.mp (by not_written hostOps1))) ?_
  refine Eq.trans (W4_of_ne m ρ c main_arg9 (by decide)) ?_
  refine Eq.trans (StableHlo.after_of_forall_not_mem (b := Proc.devRef .tc main_arg9) (hostOps0_2 (F := Ideal)) (W2 m ρ c)
    (List.forall_iff_forall_mem.mp (by not_written hostOps0_2))) ?_
  refine Eq.trans (StableHlo.after_of_forall_not_mem (b := Proc.devRef .tc main_arg9) (hostOps0_1 (F := Ideal)) (W1 m ρ c)
    (List.forall_iff_forall_mem.mp (by not_written hostOps0_1))) ?_
  refine Eq.trans (StableHlo.after_of_forall_not_mem (b := Proc.devRef .tc main_arg9) (hostOps0 (F := Ideal)) (W0 m ρ c)
    (List.forall_iff_forall_mem.mp (by not_written hostOps0))) ?_
  rfl
theorem W11_arg10 : W11 m ρ c (Proc.devRef .tc main_arg10) = A m c main_arg10 := by
  refine Eq.trans (W11_of_ne m ρ c main_arg10 (by decide)) ?_
  refine Eq.trans (StableHlo.after_of_forall_not_mem (b := Proc.devRef .tc main_arg10) (hostOps4 (F := Ideal)) (W9 m ρ c)
    (List.forall_iff_forall_mem.mp (by not_written hostOps4))) ?_
  refine Eq.trans (W9_of_ne m ρ c main_arg10 (by decide)) ?_
  refine Eq.trans (W8_of_ne m ρ c main_arg10 (by decide)) ?_
  refine Eq.trans (StableHlo.after_of_forall_not_mem (b := Proc.devRef .tc main_arg10) (hostOps2 (F := Ideal)) (W6 m ρ c)
    (List.forall_iff_forall_mem.mp (by not_written hostOps2))) ?_
  refine Eq.trans (W6_of_ne m ρ c main_arg10 (by decide)) ?_
  refine Eq.trans (StableHlo.after_of_forall_not_mem (b := Proc.devRef .tc main_arg10) (hostOps1 (F := Ideal)) (W4 m ρ c)
    (List.forall_iff_forall_mem.mp (by not_written hostOps1))) ?_
  refine Eq.trans (W4_of_ne m ρ c main_arg10 (by decide)) ?_
  refine Eq.trans (StableHlo.after_of_forall_not_mem (b := Proc.devRef .tc main_arg10) (hostOps0_2 (F := Ideal)) (W2 m ρ c)
    (List.forall_iff_forall_mem.mp (by not_written hostOps0_2))) ?_
  refine Eq.trans (StableHlo.after_of_forall_not_mem (b := Proc.devRef .tc main_arg10) (hostOps0_1 (F := Ideal)) (W1 m ρ c)
    (List.forall_iff_forall_mem.mp (by not_written hostOps0_1))) ?_
  refine Eq.trans (StableHlo.after_of_forall_not_mem (b := Proc.devRef .tc main_arg10) (hostOps0 (F := Ideal)) (W0 m ρ c)
    (List.forall_iff_forall_mem.mp (by not_written hostOps0))) ?_
  rfl
theorem W13_arg11 : W13 m ρ c (Proc.devRef .tc main_arg11) = A m c main_arg11 := by
  refine Eq.trans (W13_of_ne m ρ c main_arg11 (by decide)) ?_
  refine Eq.trans (StableHlo.after_of_forall_not_mem (b := Proc.devRef .tc main_arg11) (hostOps5 (F := Ideal)) (W11 m ρ c)
    (List.forall_iff_forall_mem.mp (by not_written hostOps5))) ?_
  refine Eq.trans (W11_of_ne m ρ c main_arg11 (by decide)) ?_
  refine Eq.trans (StableHlo.after_of_forall_not_mem (b := Proc.devRef .tc main_arg11) (hostOps4 (F := Ideal)) (W9 m ρ c)
    (List.forall_iff_forall_mem.mp (by not_written hostOps4))) ?_
  refine Eq.trans (W9_of_ne m ρ c main_arg11 (by decide)) ?_
  refine Eq.trans (W8_of_ne m ρ c main_arg11 (by decide)) ?_
  refine Eq.trans (StableHlo.after_of_forall_not_mem (b := Proc.devRef .tc main_arg11) (hostOps2 (F := Ideal)) (W6 m ρ c)
    (List.forall_iff_forall_mem.mp (by not_written hostOps2))) ?_
  refine Eq.trans (W6_of_ne m ρ c main_arg11 (by decide)) ?_
  refine Eq.trans (StableHlo.after_of_forall_not_mem (b := Proc.devRef .tc main_arg11) (hostOps1 (F := Ideal)) (W4 m ρ c)
    (List.forall_iff_forall_mem.mp (by not_written hostOps1))) ?_
  refine Eq.trans (W4_of_ne m ρ c main_arg11 (by decide)) ?_
  refine Eq.trans (StableHlo.after_of_forall_not_mem (b := Proc.devRef .tc main_arg11) (hostOps0_2 (F := Ideal)) (W2 m ρ c)
    (List.forall_iff_forall_mem.mp (by not_written hostOps0_2))) ?_
  refine Eq.trans (StableHlo.after_of_forall_not_mem (b := Proc.devRef .tc main_arg11) (hostOps0_1 (F := Ideal)) (W1 m ρ c)
    (List.forall_iff_forall_mem.mp (by not_written hostOps0_1))) ?_
  refine Eq.trans (StableHlo.after_of_forall_not_mem (b := Proc.devRef .tc main_arg11) (hostOps0 (F := Ideal)) (W0 m ρ c)
    (List.forall_iff_forall_mem.mp (by not_written hostOps0))) ?_
  rfl
theorem W14_arg12 : W14 m ρ c (Proc.devRef .tc main_arg12) = A m c main_arg12 := by
  refine Eq.trans (W14_of_ne m ρ c main_arg12 (by decide)) ?_
  refine Eq.trans (W13_of_ne m ρ c main_arg12 (by decide)) ?_
  refine Eq.trans (StableHlo.after_of_forall_not_mem (b := Proc.devRef .tc main_arg12) (hostOps5 (F := Ideal)) (W11 m ρ c)
    (List.forall_iff_forall_mem.mp (by not_written hostOps5))) ?_
  refine Eq.trans (W11_of_ne m ρ c main_arg12 (by decide)) ?_
  refine Eq.trans (StableHlo.after_of_forall_not_mem (b := Proc.devRef .tc main_arg12) (hostOps4 (F := Ideal)) (W9 m ρ c)
    (List.forall_iff_forall_mem.mp (by not_written hostOps4))) ?_
  refine Eq.trans (W9_of_ne m ρ c main_arg12 (by decide)) ?_
  refine Eq.trans (W8_of_ne m ρ c main_arg12 (by decide)) ?_
  refine Eq.trans (StableHlo.after_of_forall_not_mem (b := Proc.devRef .tc main_arg12) (hostOps2 (F := Ideal)) (W6 m ρ c)
    (List.forall_iff_forall_mem.mp (by not_written hostOps2))) ?_
  refine Eq.trans (W6_of_ne m ρ c main_arg12 (by decide)) ?_
  refine Eq.trans (StableHlo.after_of_forall_not_mem (b := Proc.devRef .tc main_arg12) (hostOps1 (F := Ideal)) (W4 m ρ c)
    (List.forall_iff_forall_mem.mp (by not_written hostOps1))) ?_
  refine Eq.trans (W4_of_ne m ρ c main_arg12 (by decide)) ?_
  refine Eq.trans (StableHlo.after_of_forall_not_mem (b := Proc.devRef .tc main_arg12) (hostOps0_2 (F := Ideal)) (W2 m ρ c)
    (List.forall_iff_forall_mem.mp (by not_written hostOps0_2))) ?_
  refine Eq.trans (StableHlo.after_of_forall_not_mem (b := Proc.devRef .tc main_arg12) (hostOps0_1 (F := Ideal)) (W1 m ρ c)
    (List.forall_iff_forall_mem.mp (by not_written hostOps0_1))) ?_
  refine Eq.trans (StableHlo.after_of_forall_not_mem (b := Proc.devRef .tc main_arg12) (hostOps0 (F := Ideal)) (W0 m ρ c)
    (List.forall_iff_forall_mem.mp (by not_written hostOps0))) ?_
  rfl
theorem W14_arg13 : W14 m ρ c (Proc.devRef .tc main_arg13) = A m c main_arg13 := by
  refine Eq.trans (W14_of_ne m ρ c main_arg13 (by decide)) ?_
  refine Eq.trans (W13_of_ne m ρ c main_arg13 (by decide)) ?_
  refine Eq.trans (StableHlo.after_of_forall_not_mem (b := Proc.devRef .tc main_arg13) (hostOps5 (F := Ideal)) (W11 m ρ c)
    (List.forall_iff_forall_mem.mp (by not_written hostOps5))) ?_
  refine Eq.trans (W11_of_ne m ρ c main_arg13 (by decide)) ?_
  refine Eq.trans (StableHlo.after_of_forall_not_mem (b := Proc.devRef .tc main_arg13) (hostOps4 (F := Ideal)) (W9 m ρ c)
    (List.forall_iff_forall_mem.mp (by not_written hostOps4))) ?_
  refine Eq.trans (W9_of_ne m ρ c main_arg13 (by decide)) ?_
  refine Eq.trans (W8_of_ne m ρ c main_arg13 (by decide)) ?_
  refine Eq.trans (StableHlo.after_of_forall_not_mem (b := Proc.devRef .tc main_arg13) (hostOps2 (F := Ideal)) (W6 m ρ c)
    (List.forall_iff_forall_mem.mp (by not_written hostOps2))) ?_
  refine Eq.trans (W6_of_ne m ρ c main_arg13 (by decide)) ?_
  refine Eq.trans (StableHlo.after_of_forall_not_mem (b := Proc.devRef .tc main_arg13) (hostOps1 (F := Ideal)) (W4 m ρ c)
    (List.forall_iff_forall_mem.mp (by not_written hostOps1))) ?_
  refine Eq.trans (W4_of_ne m ρ c main_arg13 (by decide)) ?_
  refine Eq.trans (StableHlo.after_of_forall_not_mem (b := Proc.devRef .tc main_arg13) (hostOps0_2 (F := Ideal)) (W2 m ρ c)
    (List.forall_iff_forall_mem.mp (by not_written hostOps0_2))) ?_
  refine Eq.trans (StableHlo.after_of_forall_not_mem (b := Proc.devRef .tc main_arg13) (hostOps0_1 (F := Ideal)) (W1 m ρ c)
    (List.forall_iff_forall_mem.mp (by not_written hostOps0_1))) ?_
  refine Eq.trans (StableHlo.after_of_forall_not_mem (b := Proc.devRef .tc main_arg13) (hostOps0 (F := Ideal)) (W0 m ρ c)
    (List.forall_iff_forall_mem.mp (by not_written hostOps0))) ?_
  rfl
theorem W14_arg14 : W14 m ρ c (Proc.devRef .tc main_arg14) = A m c main_arg14 := by
  refine Eq.trans (W14_of_ne m ρ c main_arg14 (by decide)) ?_
  refine Eq.trans (W13_of_ne m ρ c main_arg14 (by decide)) ?_
  refine Eq.trans (StableHlo.after_of_forall_not_mem (b := Proc.devRef .tc main_arg14) (hostOps5 (F := Ideal)) (W11 m ρ c)
    (List.forall_iff_forall_mem.mp (by not_written hostOps5))) ?_
  refine Eq.trans (W11_of_ne m ρ c main_arg14 (by decide)) ?_
  refine Eq.trans (StableHlo.after_of_forall_not_mem (b := Proc.devRef .tc main_arg14) (hostOps4 (F := Ideal)) (W9 m ρ c)
    (List.forall_iff_forall_mem.mp (by not_written hostOps4))) ?_
  refine Eq.trans (W9_of_ne m ρ c main_arg14 (by decide)) ?_
  refine Eq.trans (W8_of_ne m ρ c main_arg14 (by decide)) ?_
  refine Eq.trans (StableHlo.after_of_forall_not_mem (b := Proc.devRef .tc main_arg14) (hostOps2 (F := Ideal)) (W6 m ρ c)
    (List.forall_iff_forall_mem.mp (by not_written hostOps2))) ?_
  refine Eq.trans (W6_of_ne m ρ c main_arg14 (by decide)) ?_
  refine Eq.trans (StableHlo.after_of_forall_not_mem (b := Proc.devRef .tc main_arg14) (hostOps1 (F := Ideal)) (W4 m ρ c)
    (List.forall_iff_forall_mem.mp (by not_written hostOps1))) ?_
  refine Eq.trans (W4_of_ne m ρ c main_arg14 (by decide)) ?_
  refine Eq.trans (StableHlo.after_of_forall_not_mem (b := Proc.devRef .tc main_arg14) (hostOps0_2 (F := Ideal)) (W2 m ρ c)
    (List.forall_iff_forall_mem.mp (by not_written hostOps0_2))) ?_
  refine Eq.trans (StableHlo.after_of_forall_not_mem (b := Proc.devRef .tc main_arg14) (hostOps0_1 (F := Ideal)) (W1 m ρ c)
    (List.forall_iff_forall_mem.mp (by not_written hostOps0_1))) ?_
  refine Eq.trans (StableHlo.after_of_forall_not_mem (b := Proc.devRef .tc main_arg14) (hostOps0 (F := Ideal)) (W0 m ρ c)
    (List.forall_iff_forall_mem.mp (by not_written hostOps0))) ?_
  rfl
theorem W14_arg15 : W14 m ρ c (Proc.devRef .tc main_arg15) = A m c main_arg15 := by
  refine Eq.trans (W14_of_ne m ρ c main_arg15 (by decide)) ?_
  refine Eq.trans (W13_of_ne m ρ c main_arg15 (by decide)) ?_
  refine Eq.trans (StableHlo.after_of_forall_not_mem (b := Proc.devRef .tc main_arg15) (hostOps5 (F := Ideal)) (W11 m ρ c)
    (List.forall_iff_forall_mem.mp (by not_written hostOps5))) ?_
  refine Eq.trans (W11_of_ne m ρ c main_arg15 (by decide)) ?_
  refine Eq.trans (StableHlo.after_of_forall_not_mem (b := Proc.devRef .tc main_arg15) (hostOps4 (F := Ideal)) (W9 m ρ c)
    (List.forall_iff_forall_mem.mp (by not_written hostOps4))) ?_
  refine Eq.trans (W9_of_ne m ρ c main_arg15 (by decide)) ?_
  refine Eq.trans (W8_of_ne m ρ c main_arg15 (by decide)) ?_
  refine Eq.trans (StableHlo.after_of_forall_not_mem (b := Proc.devRef .tc main_arg15) (hostOps2 (F := Ideal)) (W6 m ρ c)
    (List.forall_iff_forall_mem.mp (by not_written hostOps2))) ?_
  refine Eq.trans (W6_of_ne m ρ c main_arg15 (by decide)) ?_
  refine Eq.trans (StableHlo.after_of_forall_not_mem (b := Proc.devRef .tc main_arg15) (hostOps1 (F := Ideal)) (W4 m ρ c)
    (List.forall_iff_forall_mem.mp (by not_written hostOps1))) ?_
  refine Eq.trans (W4_of_ne m ρ c main_arg15 (by decide)) ?_
  refine Eq.trans (StableHlo.after_of_forall_not_mem (b := Proc.devRef .tc main_arg15) (hostOps0_2 (F := Ideal)) (W2 m ρ c)
    (List.forall_iff_forall_mem.mp (by not_written hostOps0_2))) ?_
  refine Eq.trans (StableHlo.after_of_forall_not_mem (b := Proc.devRef .tc main_arg15) (hostOps0_1 (F := Ideal)) (W1 m ρ c)
    (List.forall_iff_forall_mem.mp (by not_written hostOps0_1))) ?_
  refine Eq.trans (StableHlo.after_of_forall_not_mem (b := Proc.devRef .tc main_arg15) (hostOps0 (F := Ideal)) (W0 m ρ c)
    (List.forall_iff_forall_mem.mp (by not_written hostOps0))) ?_
  rfl
theorem W14_arg16 : W14 m ρ c (Proc.devRef .tc main_arg16) = A m c main_arg16 := by
  refine Eq.trans (W14_of_ne m ρ c main_arg16 (by decide)) ?_
  refine Eq.trans (W13_of_ne m ρ c main_arg16 (by decide)) ?_
  refine Eq.trans (StableHlo.after_of_forall_not_mem (b := Proc.devRef .tc main_arg16) (hostOps5 (F := Ideal)) (W11 m ρ c)
    (List.forall_iff_forall_mem.mp (by not_written hostOps5))) ?_
  refine Eq.trans (W11_of_ne m ρ c main_arg16 (by decide)) ?_
  refine Eq.trans (StableHlo.after_of_forall_not_mem (b := Proc.devRef .tc main_arg16) (hostOps4 (F := Ideal)) (W9 m ρ c)
    (List.forall_iff_forall_mem.mp (by not_written hostOps4))) ?_
  refine Eq.trans (W9_of_ne m ρ c main_arg16 (by decide)) ?_
  refine Eq.trans (W8_of_ne m ρ c main_arg16 (by decide)) ?_
  refine Eq.trans (StableHlo.after_of_forall_not_mem (b := Proc.devRef .tc main_arg16) (hostOps2 (F := Ideal)) (W6 m ρ c)
    (List.forall_iff_forall_mem.mp (by not_written hostOps2))) ?_
  refine Eq.trans (W6_of_ne m ρ c main_arg16 (by decide)) ?_
  refine Eq.trans (StableHlo.after_of_forall_not_mem (b := Proc.devRef .tc main_arg16) (hostOps1 (F := Ideal)) (W4 m ρ c)
    (List.forall_iff_forall_mem.mp (by not_written hostOps1))) ?_
  refine Eq.trans (W4_of_ne m ρ c main_arg16 (by decide)) ?_
  refine Eq.trans (StableHlo.after_of_forall_not_mem (b := Proc.devRef .tc main_arg16) (hostOps0_2 (F := Ideal)) (W2 m ρ c)
    (List.forall_iff_forall_mem.mp (by not_written hostOps0_2))) ?_
  refine Eq.trans (StableHlo.after_of_forall_not_mem (b := Proc.devRef .tc main_arg16) (hostOps0_1 (F := Ideal)) (W1 m ρ c)
    (List.forall_iff_forall_mem.mp (by not_written hostOps0_1))) ?_
  refine Eq.trans (StableHlo.after_of_forall_not_mem (b := Proc.devRef .tc main_arg16) (hostOps0 (F := Ideal)) (W0 m ρ c)
    (List.forall_iff_forall_mem.mp (by not_written hostOps0))) ?_
  rfl
theorem W14_arg17 : W14 m ρ c (Proc.devRef .tc main_arg17) = A m c main_arg17 := by
  refine Eq.trans (W14_of_ne m ρ c main_arg17 (by decide)) ?_
  refine Eq.trans (W13_of_ne m ρ c main_arg17 (by decide)) ?_
  refine Eq.trans (StableHlo.after_of_forall_not_mem (b := Proc.devRef .tc main_arg17) (hostOps5 (F := Ideal)) (W11 m ρ c)
    (List.forall_iff_forall_mem.mp (by not_written hostOps5))) ?_
  refine Eq.trans (W11_of_ne m ρ c main_arg17 (by decide)) ?_
  refine Eq.trans (StableHlo.after_of_forall_not_mem (b := Proc.devRef .tc main_arg17) (hostOps4 (F := Ideal)) (W9 m ρ c)
    (List.forall_iff_forall_mem.mp (by not_written hostOps4))) ?_
  refine Eq.trans (W9_of_ne m ρ c main_arg17 (by decide)) ?_
  refine Eq.trans (W8_of_ne m ρ c main_arg17 (by decide)) ?_
  refine Eq.trans (StableHlo.after_of_forall_not_mem (b := Proc.devRef .tc main_arg17) (hostOps2 (F := Ideal)) (W6 m ρ c)
    (List.forall_iff_forall_mem.mp (by not_written hostOps2))) ?_
  refine Eq.trans (W6_of_ne m ρ c main_arg17 (by decide)) ?_
  refine Eq.trans (StableHlo.after_of_forall_not_mem (b := Proc.devRef .tc main_arg17) (hostOps1 (F := Ideal)) (W4 m ρ c)
    (List.forall_iff_forall_mem.mp (by not_written hostOps1))) ?_
  refine Eq.trans (W4_of_ne m ρ c main_arg17 (by decide)) ?_
  refine Eq.trans (StableHlo.after_of_forall_not_mem (b := Proc.devRef .tc main_arg17) (hostOps0_2 (F := Ideal)) (W2 m ρ c)
    (List.forall_iff_forall_mem.mp (by not_written hostOps0_2))) ?_
  refine Eq.trans (StableHlo.after_of_forall_not_mem (b := Proc.devRef .tc main_arg17) (hostOps0_1 (F := Ideal)) (W1 m ρ c)
    (List.forall_iff_forall_mem.mp (by not_written hostOps0_1))) ?_
  refine Eq.trans (StableHlo.after_of_forall_not_mem (b := Proc.devRef .tc main_arg17) (hostOps0 (F := Ideal)) (W0 m ρ c)
    (List.forall_iff_forall_mem.mp (by not_written hostOps0))) ?_
  rfl
theorem W14_arg18 : W14 m ρ c (Proc.devRef .tc main_arg18) = A m c main_arg18 := by
  refine Eq.trans (W14_of_ne m ρ c main_arg18 (by decide)) ?_
  refine Eq.trans (W13_of_ne m ρ c main_arg18 (by decide)) ?_
  refine Eq.trans (StableHlo.after_of_forall_not_mem (b := Proc.devRef .tc main_arg18) (hostOps5 (F := Ideal)) (W11 m ρ c)
    (List.forall_iff_forall_mem.mp (by not_written hostOps5))) ?_
  refine Eq.trans (W11_of_ne m ρ c main_arg18 (by decide)) ?_
  refine Eq.trans (StableHlo.after_of_forall_not_mem (b := Proc.devRef .tc main_arg18) (hostOps4 (F := Ideal)) (W9 m ρ c)
    (List.forall_iff_forall_mem.mp (by not_written hostOps4))) ?_
  refine Eq.trans (W9_of_ne m ρ c main_arg18 (by decide)) ?_
  refine Eq.trans (W8_of_ne m ρ c main_arg18 (by decide)) ?_
  refine Eq.trans (StableHlo.after_of_forall_not_mem (b := Proc.devRef .tc main_arg18) (hostOps2 (F := Ideal)) (W6 m ρ c)
    (List.forall_iff_forall_mem.mp (by not_written hostOps2))) ?_
  refine Eq.trans (W6_of_ne m ρ c main_arg18 (by decide)) ?_
  refine Eq.trans (StableHlo.after_of_forall_not_mem (b := Proc.devRef .tc main_arg18) (hostOps1 (F := Ideal)) (W4 m ρ c)
    (List.forall_iff_forall_mem.mp (by not_written hostOps1))) ?_
  refine Eq.trans (W4_of_ne m ρ c main_arg18 (by decide)) ?_
  refine Eq.trans (StableHlo.after_of_forall_not_mem (b := Proc.devRef .tc main_arg18) (hostOps0_2 (F := Ideal)) (W2 m ρ c)
    (List.forall_iff_forall_mem.mp (by not_written hostOps0_2))) ?_
  refine Eq.trans (StableHlo.after_of_forall_not_mem (b := Proc.devRef .tc main_arg18) (hostOps0_1 (F := Ideal)) (W1 m ρ c)
    (List.forall_iff_forall_mem.mp (by not_written hostOps0_1))) ?_
  refine Eq.trans (StableHlo.after_of_forall_not_mem (b := Proc.devRef .tc main_arg18) (hostOps0 (F := Ideal)) (W0 m ρ c)
    (List.forall_iff_forall_mem.mp (by not_written hostOps0))) ?_
  rfl

/-- The node features at the first normalisation region's entry: the first matmul region read them through an input
    window and left them. -/
theorem W7_arg0 : W7 m ρ c (Proc.devRef .tc main_arg0) = A m c main_arg0 := by
  refine Eq.trans (StableHlo.after_of_forall_not_mem (b := Proc.devRef .tc main_arg0) (hostOps2 (F := Ideal)) (W6 m ρ c)
    (List.forall_iff_forall_mem.mp (by not_written hostOps2))) ?_
  refine Eq.trans (W6_of_ne m ρ c main_arg0 (by decide)) ?_
  refine Eq.trans (StableHlo.after_of_forall_not_mem (b := Proc.devRef .tc main_arg0) (hostOps1 (F := Ideal)) (W4 m ρ c)
    (List.forall_iff_forall_mem.mp (by not_written hostOps1))) ?_
  refine Eq.trans ((W4_arr m ρ c 0).trans (((dat0 (V3 m ρ) c).arrAt_in 0 rfl _).trans (A_eq0 (V3 m ρ) c 0))) ?_
  exact W3_arg0 m ρ c

/-! ## The edge list's rows, the edge norm and the self coefficient, at the later convolutions -/

theorem W4_v1_eq : W4 m ρ c (Proc.devRef .tc main_v1) = W3 m ρ c (Proc.devRef .tc main_v1) := by
  refine Eq.trans (W4_of_ne m ρ c main_v1 (by decide)) ?_
  rfl
theorem W4_v3_eq : W4 m ρ c (Proc.devRef .tc main_v3) = W3 m ρ c (Proc.devRef .tc main_v3) := by
  refine Eq.trans (W4_of_ne m ρ c main_v3 (by decide)) ?_
  rfl
theorem W4_v28_eq : W4 m ρ c (Proc.devRef .tc main_v28) = W3 m ρ c (Proc.devRef .tc main_v28) := by
  refine Eq.trans (W4_of_ne m ρ c main_v28 (by decide)) ?_
  rfl
theorem W4_v31_eq : W4 m ρ c (Proc.devRef .tc main_v31) = W3 m ρ c (Proc.devRef .tc main_v31) := by
  refine Eq.trans (W4_of_ne m ρ c main_v31 (by decide)) ?_
  rfl
theorem W9_v1_eq : W9 m ρ c (Proc.devRef .tc main_v1) = W3 m ρ c (Proc.devRef .tc main_v1) := by
  refine Eq.trans (W9_of_ne m ρ c main_v1 (by decide)) ?_
  refine Eq.trans (W8_of_ne m ρ c main_v1 (by decide)) ?_
  refine Eq.trans (StableHlo.after_of_forall_not_mem (b := Proc.devRef .tc main_v1) (hostOps2 (F := Ideal)) (W6 m ρ c)
    (List.forall_iff_forall_mem.mp (by not_written hostOps2))) ?_
  refine Eq.trans (W6_of_ne m ρ c main_v1 (by decide)) ?_
  refine Eq.trans (StableHlo.after_of_forall_not_mem (b := Proc.devRef .tc main_v1) (hostOps1 (F := Ideal)) (W4 m ρ c)
    (List.forall_iff_forall_mem.mp (by not_written hostOps1))) ?_
  refine Eq.trans (W4_of_ne m ρ c main_v1 (by decide)) ?_
  rfl
theorem W9_v3_eq : W9 m ρ c (Proc.devRef .tc main_v3) = W3 m ρ c (Proc.devRef .tc main_v3) := by
  refine Eq.trans (W9_of_ne m ρ c main_v3 (by decide)) ?_
  refine Eq.trans (W8_of_ne m ρ c main_v3 (by decide)) ?_
  refine Eq.trans (StableHlo.after_of_forall_not_mem (b := Proc.devRef .tc main_v3) (hostOps2 (F := Ideal)) (W6 m ρ c)
    (List.forall_iff_forall_mem.mp (by not_written hostOps2))) ?_
  refine Eq.trans (W6_of_ne m ρ c main_v3 (by decide)) ?_
  refine Eq.trans (StableHlo.after_of_forall_not_mem (b := Proc.devRef .tc main_v3) (hostOps1 (F := Ideal)) (W4 m ρ c)
    (List.forall_iff_forall_mem.mp (by not_written hostOps1))) ?_
  refine Eq.trans (W4_of_ne m ρ c main_v3 (by decide)) ?_
  rfl
theorem W9_v28_eq : W9 m ρ c (Proc.devRef .tc main_v28) = W3 m ρ c (Proc.devRef .tc main_v28) := by
  refine Eq.trans (W9_of_ne m ρ c main_v28 (by decide)) ?_
  refine Eq.trans (W8_of_ne m ρ c main_v28 (by decide)) ?_
  refine Eq.trans (StableHlo.after_of_forall_not_mem (b := Proc.devRef .tc main_v28) (hostOps2 (F := Ideal)) (W6 m ρ c)
    (List.forall_iff_forall_mem.mp (by not_written hostOps2))) ?_
  refine Eq.trans (W6_of_ne m ρ c main_v28 (by decide)) ?_
  refine Eq.trans (StableHlo.after_of_forall_not_mem (b := Proc.devRef .tc main_v28) (hostOps1 (F := Ideal)) (W4 m ρ c)
    (List.forall_iff_forall_mem.mp (by not_written hostOps1))) ?_
  refine Eq.trans (W4_of_ne m ρ c main_v28 (by decide)) ?_
  rfl
theorem W9_v31_eq : W9 m ρ c (Proc.devRef .tc main_v31) = W3 m ρ c (Proc.devRef .tc main_v31) := by
  refine Eq.trans (W9_of_ne m ρ c main_v31 (by decide)) ?_
  refine Eq.trans (W8_of_ne m ρ c main_v31 (by decide)) ?_
  refine Eq.trans (StableHlo.after_of_forall_not_mem (b := Proc.devRef .tc main_v31) (hostOps2 (F := Ideal)) (W6 m ρ c)
    (List.forall_iff_forall_mem.mp (by not_written hostOps2))) ?_
  refine Eq.trans (W6_of_ne m ρ c main_v31 (by decide)) ?_
  refine Eq.trans (StableHlo.after_of_forall_not_mem (b := Proc.devRef .tc main_v31) (hostOps1 (F := Ideal)) (W4 m ρ c)
    (List.forall_iff_forall_mem.mp (by not_written hostOps1))) ?_
  refine Eq.trans (W4_of_ne m ρ c main_v31 (by decide)) ?_
  rfl
theorem W14_v1_eq : W14 m ρ c (Proc.devRef .tc main_v1) = W3 m ρ c (Proc.devRef .tc main_v1) := by
  refine Eq.trans (W14_of_ne m ρ c main_v1 (by decide)) ?_
  refine Eq.trans (W13_of_ne m ρ c main_v1 (by decide)) ?_
  refine Eq.trans (StableHlo.after_of_forall_not_mem (b := Proc.devRef .tc main_v1) (hostOps5 (F := Ideal)) (W11 m ρ c)
    (List.forall_iff_forall_mem.mp (by not_written hostOps5))) ?_
  refine Eq.trans (W11_of_ne m ρ c main_v1 (by decide)) ?_
  refine Eq.trans (StableHlo.after_of_forall_not_mem (b := Proc.devRef .tc main_v1) (hostOps4 (F := Ideal)) (W9 m ρ c)
    (List.forall_iff_forall_mem.mp (by not_written hostOps4))) ?_
  refine Eq.trans (W9_of_ne m ρ c main_v1 (by decide)) ?_
  refine Eq.trans (W8_of_ne m ρ c main_v1 (by decide)) ?_
  refine Eq.trans (StableHlo.after_of_forall_not_mem (b := Proc.devRef .tc main_v1) (hostOps2 (F := Ideal)) (W6 m ρ c)
    (List.forall_iff_forall_mem.mp (by not_written hostOps2))) ?_
  refine Eq.trans (W6_of_ne m ρ c main_v1 (by decide)) ?_
  refine Eq.trans (StableHlo.after_of_forall_not_mem (b := Proc.devRef .tc main_v1) (hostOps1 (F := Ideal)) (W4 m ρ c)
    (List.forall_iff_forall_mem.mp (by not_written hostOps1))) ?_
  refine Eq.trans (W4_of_ne m ρ c main_v1 (by decide)) ?_
  rfl
theorem W14_v3_eq : W14 m ρ c (Proc.devRef .tc main_v3) = W3 m ρ c (Proc.devRef .tc main_v3) := by
  refine Eq.trans (W14_of_ne m ρ c main_v3 (by decide)) ?_
  refine Eq.trans (W13_of_ne m ρ c main_v3 (by decide)) ?_
  refine Eq.trans (StableHlo.after_of_forall_not_mem (b := Proc.devRef .tc main_v3) (hostOps5 (F := Ideal)) (W11 m ρ c)
    (List.forall_iff_forall_mem.mp (by not_written hostOps5))) ?_
  refine Eq.trans (W11_of_ne m ρ c main_v3 (by decide)) ?_
  refine Eq.trans (StableHlo.after_of_forall_not_mem (b := Proc.devRef .tc main_v3) (hostOps4 (F := Ideal)) (W9 m ρ c)
    (List.forall_iff_forall_mem.mp (by not_written hostOps4))) ?_
  refine Eq.trans (W9_of_ne m ρ c main_v3 (by decide)) ?_
  refine Eq.trans (W8_of_ne m ρ c main_v3 (by decide)) ?_
  refine Eq.trans (StableHlo.after_of_forall_not_mem (b := Proc.devRef .tc main_v3) (hostOps2 (F := Ideal)) (W6 m ρ c)
    (List.forall_iff_forall_mem.mp (by not_written hostOps2))) ?_
  refine Eq.trans (W6_of_ne m ρ c main_v3 (by decide)) ?_
  refine Eq.trans (StableHlo.after_of_forall_not_mem (b := Proc.devRef .tc main_v3) (hostOps1 (F := Ideal)) (W4 m ρ c)
    (List.forall_iff_forall_mem.mp (by not_written hostOps1))) ?_
  refine Eq.trans (W4_of_ne m ρ c main_v3 (by decide)) ?_
  rfl
theorem W14_v28_eq : W14 m ρ c (Proc.devRef .tc main_v28) = W3 m ρ c (Proc.devRef .tc main_v28) := by
  refine Eq.trans (W14_of_ne m ρ c main_v28 (by decide)) ?_
  refine Eq.trans (W13_of_ne m ρ c main_v28 (by decide)) ?_
  refine Eq.trans (StableHlo.after_of_forall_not_mem (b := Proc.devRef .tc main_v28) (hostOps5 (F := Ideal)) (W11 m ρ c)
    (List.forall_iff_forall_mem.mp (by not_written hostOps5))) ?_
  refine Eq.trans (W11_of_ne m ρ c main_v28 (by decide)) ?_
  refine Eq.trans (StableHlo.after_of_forall_not_mem (b := Proc.devRef .tc main_v28) (hostOps4 (F := Ideal)) (W9 m ρ c)
    (List.forall_iff_forall_mem.mp (by not_written hostOps4))) ?_
  refine Eq.trans (W9_of_ne m ρ c main_v28 (by decide)) ?_
  refine Eq.trans (W8_of_ne m ρ c main_v28 (by decide)) ?_
  refine Eq.trans (StableHlo.after_of_forall_not_mem (b := Proc.devRef .tc main_v28) (hostOps2 (F := Ideal)) (W6 m ρ c)
    (List.forall_iff_forall_mem.mp (by not_written hostOps2))) ?_
  refine Eq.trans (W6_of_ne m ρ c main_v28 (by decide)) ?_
  refine Eq.trans (StableHlo.after_of_forall_not_mem (b := Proc.devRef .tc main_v28) (hostOps1 (F := Ideal)) (W4 m ρ c)
    (List.forall_iff_forall_mem.mp (by not_written hostOps1))) ?_
  refine Eq.trans (W4_of_ne m ρ c main_v28 (by decide)) ?_
  rfl
theorem W14_v31_eq : W14 m ρ c (Proc.devRef .tc main_v31) = W3 m ρ c (Proc.devRef .tc main_v31) := by
  refine Eq.trans (W14_of_ne m ρ c main_v31 (by decide)) ?_
  refine Eq.trans (W13_of_ne m ρ c main_v31 (by decide)) ?_
  refine Eq.trans (StableHlo.after_of_forall_not_mem (b := Proc.devRef .tc main_v31) (hostOps5 (F := Ideal)) (W11 m ρ c)
    (List.forall_iff_forall_mem.mp (by not_written hostOps5))) ?_
  refine Eq.trans (W11_of_ne m ρ c main_v31 (by decide)) ?_
  refine Eq.trans (StableHlo.after_of_forall_not_mem (b := Proc.devRef .tc main_v31) (hostOps4 (F := Ideal)) (W9 m ρ c)
    (List.forall_iff_forall_mem.mp (by not_written hostOps4))) ?_
  refine Eq.trans (W9_of_ne m ρ c main_v31 (by decide)) ?_
  refine Eq.trans (W8_of_ne m ρ c main_v31 (by decide)) ?_
  refine Eq.trans (StableHlo.after_of_forall_not_mem (b := Proc.devRef .tc main_v31) (hostOps2 (F := Ideal)) (W6 m ρ c)
    (List.forall_iff_forall_mem.mp (by not_written hostOps2))) ?_
  refine Eq.trans (W6_of_ne m ρ c main_v31 (by decide)) ?_
  refine Eq.trans (StableHlo.after_of_forall_not_mem (b := Proc.devRef .tc main_v31) (hostOps1 (F := Ideal)) (W4 m ρ c)
    (List.forall_iff_forall_mem.mp (by not_written hostOps1))) ?_
  refine Eq.trans (W4_of_ne m ρ c main_v31 (by decide)) ?_
  rfl

/-! ## The graph convolutions' outputs at the normalisation regions: the column-sum region read them and left them -/

theorem W7_v52 : W7 m ρ c (Proc.devRef .tc main_v52) = W5 m ρ c (Proc.devRef .tc main_v52) := by
  refine Eq.trans (StableHlo.after_of_forall_not_mem (b := Proc.devRef .tc main_v52) (hostOps2 (F := Ideal)) (W6 m ρ c)
    (List.forall_iff_forall_mem.mp (by not_written hostOps2))) ?_
  exact (W6_arr m ρ c 0).trans (((dat1 (V5 m ρ) c).arrAt_in 0 rfl _).trans (A_eq1 (V5 m ρ) c 0))

theorem W12_v87 : W12 m ρ c (Proc.devRef .tc main_v87) = W10 m ρ c (Proc.devRef .tc main_v87) := by
  refine Eq.trans (StableHlo.after_of_forall_not_mem (b := Proc.devRef .tc main_v87) (hostOps5 (F := Ideal)) (W11 m ρ c)
    (List.forall_iff_forall_mem.mp (by not_written hostOps5))) ?_
  exact (W11_arr m ρ c 0).trans (((dat4 (V10 m ρ) c).arrAt_in 0 rfl _).trans (A_eq4 (V10 m ρ) c 0))

end Cert.Gcn.Fold

end
-- ==== Proof.RefStages.lean ====
/- The reference program's operations as stages of its arguments, one import for the modules that read them. -/
import proofs.«178879_j29317446762855_1_alg».proof.Proof.RefRead
-- ==== Proof.FoldPre.lean ====
/-
  The host operations before the first region: the edge list's source and target rows, the edge norm and the self
  coefficient.

  From the edge index `e : i32[2, E]` and the edge weights `w : f32[E]` the program computes, once, the source nodes
  `e[0]`, the target nodes `e[1]`, the degree `deg = scatter-add of w at the targets + 2`, its guarded inverse square root
  `dinv = (deg > 0 ? rsqrt deg : 0)`, the edge norm `dinv[source] · w · dinv[target]` and the self coefficient
  `2 · dinv · dinv`.  The reference computes the same operations in the same order, so each of these buffers, as the first
  region finds it, is the reference's stage of the same name applied to the launch contents of the two arguments.
-/
import proofs.«178879_j29317446762855_1_alg».proof.Proof.FoldCarry
import proofs.«178879_j29317446762855_1_alg».proof.Proof.RefStages
import Idealize.ShloMosaic.Lib.StableHlo.Run

set_option maxRecDepth 16384

noncomputable section

namespace Cert.Gcn.Fold

open Cert.KernelIdeal Cert.KernelIdeal.Gen Idealize.ShloMosaic Idealize.ShloMosaic.TcCoe Idealize.SL.Sem
open Idealize.ShloMosaic.StableHlo
open Cert.ReferenceIdeal.Read

/-! ## Each stretch of host operations, from ANY contents `V`, in terms of what it reads -/

section Stretches

/-- The source nodes: row 0 of the edge index. -/
theorem h0_v1 (V : Valuation τ sig (Elt Ideal)) :
    StableHlo.after (hostOps0 (F := Ideal)) V (Proc.devRef .tc main_v1) = val_main_v1 (F := Ideal) (V (Proc.devRef .tc main_arg1)) := by
  dsimp only [hostOps0]
  after_results_simp
  rfl

/-- The target nodes: row 1 of the edge index. -/
theorem h0_v3 (V : Valuation τ sig (Elt Ideal)) :
    StableHlo.after (hostOps0 (F := Ideal)) V (Proc.devRef .tc main_v3) = val_main_v3 (F := Ideal) (V (Proc.devRef .tc main_arg1)) := by
  dsimp only [hostOps0]
  after_results_simp
  rfl

/-- Where the degree is positive. -/
theorem h0_v10 (V : Valuation τ sig (Elt Ideal)) :
    StableHlo.after (hostOps0 (F := Ideal)) V (Proc.devRef .tc main_v10) = val_main_v11 (F := Ideal) (V (Proc.devRef .tc main_arg1)) (V (Proc.devRef .tc main_arg2)) := by
  dsimp only [hostOps0]
  after_results_simp
  rfl

/-- The degree's reciprocal square root. -/
theorem h0_v11 (V : Valuation τ sig (Elt Ideal)) :
    StableHlo.after (hostOps0 (F := Ideal)) V (Proc.devRef .tc main_v11) = val_main_v12 (F := Ideal) (V (Proc.devRef .tc main_arg1)) (V (Proc.devRef .tc main_arg2)) := by
  dsimp only [hostOps0]
  after_results_simp
  rfl

/-- The zero the guard selects where the degree is not positive. -/
theorem h0_cst_2 (V : Valuation τ sig (Elt Ideal)) :
    StableHlo.after (hostOps0 (F := Ideal)) V (Proc.devRef .tc main_cst_2) = val_main_cst_2 (F := Ideal) := by
  dsimp only [hostOps0]
  after_results_simp
  rfl

/-- The guarded inverse square-root degree: the select of the outlined `where`, from any contents that hold its three
    operands. -/
theorem h01_v12 (V : Valuation τ sig (Elt Ideal)) (x1 : (⟨S2x1600000, .i32⟩ : BufTy).Contents (Elt Ideal)) (x2 : (⟨S1600000, .f32⟩ : BufTy).Contents (Elt Ideal))
    (h10 : V (Proc.devRef .tc main_v10) = val_main_v11 (F := Ideal) x1 x2)
    (h11 : V (Proc.devRef .tc main_v11) = val_main_v12 (F := Ideal) x1 x2)
    (hc : V (Proc.devRef .tc main_cst_2) = val_main_cst_2 (F := Ideal)) :
    StableHlo.after (hostOps0_1 (F := Ideal)) V (Proc.devRef .tc main_v12) = val_main_v13 (F := Ideal) x1 x2 := by
  have e : StableHlo.after (hostOps0_1 (F := Ideal)) V (Proc.devRef .tc main_v12)
      = select (V (Proc.devRef .tc main_v10)) (V (Proc.devRef .tc main_v11))
          (broadcastInDim S100000 ![] bcast_S_S100000 (id (V (Proc.devRef .tc main_cst_2)))) := by
    dsimp only [hostOps0_1]
    after_results_simp
    rfl
  rw [e, h10, h11, hc]
  rfl

/-- The edge norm, from any contents that hold the two index rows, the inverse square-root degree and the weights. -/
theorem h02_v28 (V : Valuation τ sig (Elt Ideal)) (x1 : (⟨S2x1600000, .i32⟩ : BufTy).Contents (Elt Ideal)) (x2 : (⟨S1600000, .f32⟩ : BufTy).Contents (Elt Ideal))
    (h1 : V (Proc.devRef .tc main_v1) = val_main_v1 (F := Ideal) x1)
    (h3 : V (Proc.devRef .tc main_v3) = val_main_v3 (F := Ideal) x1)
    (h12 : V (Proc.devRef .tc main_v12) = val_main_v13 (F := Ideal) x1 x2)
    (h2 : V (Proc.devRef .tc main_arg2) = x2) :
    StableHlo.after (hostOps0_2 (F := Ideal)) V (Proc.devRef .tc main_v28) = val_main_v29 (F := Ideal) x1 x2 := by
  dsimp only [hostOps0_2]
  after_results_simp
  rw [h1, h3, h12, h2]
  rfl

/-- The self coefficient, from any contents that hold the inverse square-root degree. -/
theorem h02_v31 (V : Valuation τ sig (Elt Ideal)) (x1 : (⟨S2x1600000, .i32⟩ : BufTy).Contents (Elt Ideal)) (x2 : (⟨S1600000, .f32⟩ : BufTy).Contents (Elt Ideal))
    (h12 : V (Proc.devRef .tc main_v12) = val_main_v13 (F := Ideal) x1 x2) :
    StableHlo.after (hostOps0_2 (F := Ideal)) V (Proc.devRef .tc main_v31) = val_main_v45 (F := Ideal) x1 x2 := by
  dsimp only [hostOps0_2]
  after_results_simp
  rw [h12]
  rfl

end Stretches

variable (m : (ℓ : Loc nD τ sig) → Buf (Elt Ideal) ℓ) (ρ : Dev nD → PrngReg) (c : Dev nD)

/-! ## At the first region's entry -/

/-- The source nodes. -/
theorem W3_v1 : W3 m ρ c (Proc.devRef .tc main_v1) = val_main_v1 (F := Ideal) (A m c main_arg1) := by
  refine Eq.trans (StableHlo.after_of_forall_not_mem (b := Proc.devRef .tc main_v1) (hostOps0_2 (F := Ideal)) (W2 m ρ c)
    (List.forall_iff_forall_mem.mp (by not_written hostOps0_2))) ?_
  refine Eq.trans (StableHlo.after_of_forall_not_mem (b := Proc.devRef .tc main_v1) (hostOps0_1 (F := Ideal)) (W1 m ρ c)
    (List.forall_iff_forall_mem.mp (by not_written hostOps0_1))) ?_
  exact h0_v1 (W0 m ρ c)

/-- The target nodes. -/
theorem W3_v3 : W3 m ρ c (Proc.devRef .tc main_v3) = val_main_v3 (F := Ideal) (A m c main_arg1) := by
  refine Eq.trans (StableHlo.after_of_forall_not_mem (b := Proc.devRef .tc main_v3) (hostOps0_2 (F := Ideal)) (W2 m ρ c)
    (List.forall_iff_forall_mem.mp (by not_written hostOps0_2))) ?_
  refine Eq.trans (StableHlo.after_of_forall_not_mem (b := Proc.devRef .tc main_v3) (hostOps0_1 (F := Ideal)) (W1 m ρ c)
    (List.forall_iff_forall_mem.mp (by not_written hostOps0_1))) ?_
  exact h0_v3 (W0 m ρ c)

/-- The guarded inverse square-root degree, after the outlined `where`. -/
theorem W2_v12 : W2 m ρ c (Proc.devRef .tc main_v12) = val_main_v13 (F := Ideal) (A m c main_arg1) (A m c main_arg2) :=
  h01_v12 (W1 m ρ c) _ _ (h0_v10 (W0 m ρ c)) (h0_v11 (W0 m ρ c)) (h0_cst_2 (W0 m ρ c))

theorem W2_v1 : W2 m ρ c (Proc.devRef .tc main_v1) = val_main_v1 (F := Ideal) (A m c main_arg1) := by
  refine Eq.trans (StableHlo.after_of_forall_not_mem (b := Proc.devRef .tc main_v1) (hostOps0_1 (F := Ideal)) (W1 m ρ c)
    (List.forall_iff_forall_mem.mp (by not_written hostOps0_1))) ?_
  exact h0_v1 (W0 m ρ c)
theorem W2_v3 : W2 m ρ c (Proc.devRef .tc main_v3) = val_main_v3 (F := Ideal) (A m c main_arg1) := by
  refine Eq.trans (StableHlo.after_of_forall_not_mem (b := Proc.devRef .tc main_v3) (hostOps0_1 (F := Ideal)) (W1 m ρ c)
    (List.forall_iff_forall_mem.mp (by not_written hostOps0_1))) ?_
  exact h0_v3 (W0 m ρ c)
theorem W2_arg2 : W2 m ρ c (Proc.devRef .tc main_arg2) = A m c main_arg2 := by
  refine Eq.trans (StableHlo.after_of_forall_not_mem (b := Proc.devRef .tc main_arg2) (hostOps0_1 (F := Ideal)) (W1 m ρ c)
    (List.forall_iff_forall_mem.mp (by not_written hostOps0_1))) ?_
  refine Eq.trans (StableHlo.after_of_forall_not_mem (b := Proc.devRef .tc main_arg2) (hostOps0 (F := Ideal)) (W0 m ρ c)
    (List.forall_iff_forall_mem.mp (by not_written hostOps0))) ?_
  rfl

/-- The edge norm: the inverse square-root degree at the source, times the weight, times that at the target. -/
theorem W3_v28 : W3 m ρ c (Proc.devRef .tc main_v28)
    = val_main_v29 (F := Ideal) (A m c main_arg1) (A m c main_arg2) :=
  h02_v28 (W2 m ρ c) _ _ (W2_v1 m ρ c) (W2_v3 m ρ c) (W2_v12 m ρ c) (W2_arg2 m ρ c)

/-- The self coefficient: twice the squared inverse square-root degree. -/
theorem W3_v31 : W3 m ρ c (Proc.devRef .tc main_v31)
    = val_main_v45 (F := Ideal) (A m c main_arg1) (A m c main_arg2) :=
  h02_v31 (W2 m ρ c) _ _ (W2_v12 m ρ c)

end Cert.Gcn.Fold

end
-- ==== Proof.FoldConv1.lean ====
/-
  The first graph convolution's output, as the first column-sum region finds it.

  After the first matmul region has written `xw = x · W1`, the host gathers its rows at the edges' source nodes, scales
  them by the edge norm, scatter-adds them at the target nodes, adds the self term `self · xw` and the bias.  These are
  the reference's operations on the reference's `x · W1`, in the same order; so once the region's array is the
  reference's product, the convolution's output is the reference's stage.
-/
import proofs.«178879_j29317446762855_1_alg».proof.Proof.FoldPre

set_option maxRecDepth 16384

noncomputable section

namespace Cert.Gcn.Fold

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-! ## What the first region keeps -/

theorem W4_v1 : W4 m ρ c (Proc.devRef .tc main_v1) = val_main_v1 (F := Ideal) (A m c main_arg1) :=
  (W4_v1_eq m ρ c).trans (W3_v1 m ρ c)
theorem W4_v3 : W4 m ρ c (Proc.devRef .tc main_v3) = val_main_v3 (F := Ideal) (A m c main_arg1) :=
  (W4_v3_eq m ρ c).trans (W3_v3 m ρ c)
theorem W4_v28 : W4 m ρ c (Proc.devRef .tc main_v28) = val_main_v29 (F := Ideal) (A m c main_arg1) (A m c main_arg2) :=
  (W4_v28_eq m ρ c).trans (W3_v28 m ρ c)
theorem W4_v31 : W4 m ρ c (Proc.devRef .tc main_v31) = val_main_v45 (F := Ideal) (A m c main_arg1) (A m c main_arg2) :=
  (W4_v31_eq m ρ c).trans (W3_v31 m ρ c)
/-! ## The convolution -/

/-- The first graph convolution's output is the reference's, given the first region's product. -/
theorem W5_v52
    (h32 : W4 m ρ c (Proc.devRef .tc main_v32) = val_main_v4 (F := Ideal) (A m c main_arg0) (A m c main_arg3)) :
    W5 m ρ c (Proc.devRef .tc main_v52)
      = val_main_v52 (F := Ideal) (A m c main_arg0) (A m c main_arg1) (A m c main_arg2) (A m c main_arg3) (A m c main_arg4) := by
  show StableHlo.after hostOps1 (W4 m ρ c) (Proc.devRef .tc main_v52) = _
  dsimp only [hostOps1]
  after_results_simp
  rw [W4_v1, W4_v3, W4_v28, W4_v31, W4_arg4, h32]
  rfl

end Cert.Gcn.Fold

end
-- ==== Proof.FoldStats1.lean ====
/-
  Between the first column-sum region and the first normalisation region the host forms, per column `q`, the mean
  `S₁ q / N` and the variance `S₂ q / N - (S₁ q / N)²` from the region's two outputs `S₁` (the column sums) and `S₂`
  (the column sums of squares), and lays them, the scale and the shift out as rows `[1, 64]`.
-/
import proofs.«178879_j29317446762855_1_alg».proof.Proof.Gen.KernelIdeal.Frame
import Idealize.ShloMosaic.Lib.ValueIdx
import Idealize.ShloMosaic.Lib.ValueLayout
import Idealize.ShloMosaic.Lib.StableHlo.Run

set_option maxRecDepth 16384

noncomputable section

namespace Cert.Gcn.Fold

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-- The scalar `N = 100000` broadcast to a vector, at an index. -/
theorem bcast_N_apply (q : Fin 64) :
    (broadcastInDim S64 ![] bcast_S_S64 (constant (F := Ideal) S_ .f32 0x47C35000#32) : S64.Idx → EReal) (ix1 q)
      = (Ideal.ofBits .f32 0x47C35000#32 : EReal) :=
  broadcastInDim_apply _ bcast_S_S64 _ (ix1 q) ix0 (fun a => a.elim0)

/-- The mean row at column `q`: the column sum over `N`. -/
theorem W7_v62_apply (q : Fin 64) :
    (W7 m ρ c (Proc.devRef .tc main_v62) : S1x64.Idx → EReal) (ix2 (0 : Fin 1) q)
      = Ideal.div ((W6 m ρ c (Proc.devRef .tc main_v53_0) : S1x64.Idx → EReal) (ix2 (0 : Fin 1) q))
          (Ideal.ofBits .f32 0x47C35000#32 : EReal) := by
  show StableHlo.after hostOps2 (W6 m ρ c) (Proc.devRef .tc main_v62) (ix2 (0 : Fin 1) q) = _
  dsimp only [hostOps2]
  after_results_simp
  refine (shapeCast_a_1a_apply (a := 64) _ shapeCasts_S64_S1x64 (0 : Fin 1) q).trans ?_
  exact congrArg₂ Ideal.div
    (shapeCast_1a_a_apply (a := 64) (W6 m ρ c (Proc.devRef .tc main_v53_0)) shapeCasts_S1x64_S64 q) (bcast_N_apply q)

/-- The variance row at column `q`: the column sum of squares over `N`, less the squared mean. -/
theorem W7_v63_apply (q : Fin 64) :
    (W7 m ρ c (Proc.devRef .tc main_v63) : S1x64.Idx → EReal) (ix2 (0 : Fin 1) q)
      = Ideal.div ((W6 m ρ c (Proc.devRef .tc main_v53_1) : S1x64.Idx → EReal) (ix2 (0 : Fin 1) q))
            (Ideal.ofBits .f32 0x47C35000#32 : EReal)
        - Ideal.div ((W6 m ρ c (Proc.devRef .tc main_v53_0) : S1x64.Idx → EReal) (ix2 (0 : Fin 1) q))
              (Ideal.ofBits .f32 0x47C35000#32 : EReal)
          * Ideal.div ((W6 m ρ c (Proc.devRef .tc main_v53_0) : S1x64.Idx → EReal) (ix2 (0 : Fin 1) q))
              (Ideal.ofBits .f32 0x47C35000#32 : EReal) := by
  show StableHlo.after hostOps2 (W6 m ρ c) (Proc.devRef .tc main_v63) (ix2 (0 : Fin 1) q) = _
  dsimp only [hostOps2]
  after_results_simp
  refine (shapeCast_a_1a_apply (a := 64) _ shapeCasts_S64_S1x64 (0 : Fin 1) q).trans ?_
  have e0 : Ideal.div (shapeCast (⟨1, ![64]⟩ : Shape) (W6 m ρ c (Proc.devRef .tc main_v53_0)) shapeCasts_S1x64_S64 (ix1 q))
      ((broadcastInDim S64 ![] bcast_S_S64 (constant (F := Ideal) S_ .f32 0x47C35000#32) : S64.Idx → EReal) (ix1 q))
      = Ideal.div ((W6 m ρ c (Proc.devRef .tc main_v53_0) : S1x64.Idx → EReal) (ix2 (0 : Fin 1) q))
          (Ideal.ofBits .f32 0x47C35000#32 : EReal) :=
    congrArg₂ Ideal.div
      (shapeCast_1a_a_apply (a := 64) (W6 m ρ c (Proc.devRef .tc main_v53_0)) shapeCasts_S1x64_S64 q) (bcast_N_apply q)
  have e1 : Ideal.div (shapeCast (⟨1, ![64]⟩ : Shape) (W6 m ρ c (Proc.devRef .tc main_v53_1)) shapeCasts_S1x64_S64 (ix1 q))
      ((broadcastInDim S64 ![] bcast_S_S64 (constant (F := Ideal) S_ .f32 0x47C35000#32) : S64.Idx → EReal) (ix1 q))
      = Ideal.div ((W6 m ρ c (Proc.devRef .tc main_v53_1) : S1x64.Idx → EReal) (ix2 (0 : Fin 1) q))
          (Ideal.ofBits .f32 0x47C35000#32 : EReal) :=
    congrArg₂ Ideal.div
      (shapeCast_1a_a_apply (a := 64) (W6 m ρ c (Proc.devRef .tc main_v53_1)) shapeCasts_S1x64_S64 q) (bcast_N_apply q)
  exact congrArg₂ (fun a b : EReal => a - b * b) e1 e0

/-- The scale row at column `q`, as the region's entry finds the scale argument. -/
theorem W7_v64_apply (q : Fin 64) :
    (W7 m ρ c (Proc.devRef .tc main_v64) : S1x64.Idx → EReal) (ix2 (0 : Fin 1) q)
      = (W6 m ρ c (Proc.devRef .tc main_arg5) : S64.Idx → EReal) (ix1 q) := by
  show StableHlo.after hostOps2 (W6 m ρ c) (Proc.devRef .tc main_v64) (ix2 (0 : Fin 1) q) = _
  dsimp only [hostOps2]
  after_results_simp
  exact shapeCast_a_1a_apply _ _ _ _

/-- The shift row at column `q`. -/
theorem W7_v65_apply (q : Fin 64) :
    (W7 m ρ c (Proc.devRef .tc main_v65) : S1x64.Idx → EReal) (ix2 (0 : Fin 1) q)
      = (W6 m ρ c (Proc.devRef .tc main_arg6) : S64.Idx → EReal) (ix1 q) := by
  show StableHlo.after hostOps2 (W6 m ρ c) (Proc.devRef .tc main_v65) (ix2 (0 : Fin 1) q) = _
  dsimp only [hostOps2]
  after_results_simp
  exact shapeCast_a_1a_apply _ _ _ _

end Cert.Gcn.Fold

end
-- ==== Proof.SumRegion1.lean ====
/-
  The column-sum accumulator over the [100000, 64] array (the batch-norm statistics of the first layer).

  The grid has 20 points; point t reads rows 5000 t .. 5000 t + 4999 of the array. Both [1, 64] outputs keep the
  block index (0, 0) at every point, so their one block is carried from point to point and written back once, after
  the last point. The first point stores zeros and then adds, into the first output, the sum over the block's rows
  of each column, and into the second the sum of the squares; every later point adds its block's column sums to
  what the point before left. By induction on the point, after point n the first output holds at column q the sum
  of the first 5000 (n + 1) entries of column q, the second the sum of their squares. Over the extended reals
  addition is associative with 0 neutral, so the 20 block sums regroup into one sum over all 100000 rows, written
  here as a sum over a range of row numbers. The last point's block is the whole [1, 64] array.
-/
import proofs.«178879_j29317446762855_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.Gcn.Sums

open Cert.KernelIdeal Cert.KernelIdeal.Gen

/-! ## The two found cases of the column-sum body, as payloads of their loads (any float instance) -/

section Pieces
variable {F : FTy → Type} [FloatOps F]

theorem hz : (![0, 0] : Fin 2 → Nat) = fun _ => 0 := funext fun a => by fin_cases a <;> rfl

/-- A later point leaves in the first output the accumulator plus the column sums of the block. -/
theorem out1_B_1_eq (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S5000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S5000x64) hz,
    View.ld_unit_zero (S := S1x64) hz]

/-- A later point leaves in the second output the accumulator plus the column sums of the block's squares. -/
theorem out1_B_2_eq (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S5000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S5000x64) hz,
    View.ld_unit_zero (S := S1x64) hz]

/-- The first point zeroes the first output, reads the zero back, and leaves zero plus the column sums of the block. -/
theorem out1_A_1_eq (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S5000x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S5000x64) hz]

/-- The first point likewise leaves zero plus the column sums of the block's squares in the second output. -/
theorem out1_A_2_eq (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S5000x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S5000x64) hz]

end Pieces

/-! ## The payloads read at a column, over the extended reals -/

section Payloads

/-- The zero block holds the extended real 0. -/
theorem pay1_apply (q : Fin 64) : (k1_pay1 (F := Ideal) : S1x64.Idx → EReal) (ix2 (0 : Fin 1) q) = 0 := by
  unfold k1_pay1
  exact Ideal.ofBits_zero_f32

theorem pay2_apply (q : Fin 64) : (k1_pay2 (F := Ideal) : S1x64.Idx → EReal) (ix2 (0 : Fin 1) q) = 0 := by
  unfold k1_pay2
  exact Ideal.ofBits_zero_f32

/-- Row r, column q of the block is where the lane reduction's inserted index points. -/
theorem lift_eq (q : Fin 64) (r : Fin 5000) :
    reduces_S5000x64_S64.lift (fun a => (ix2 (0 : Fin 1) q : S1x64.Idx) a.succ) r = (ix2 r q : S5000x64.Idx) := by
  funext a
  match a with
  | ⟨0, _⟩ => exact Fin.ext rfl
  | ⟨1, _⟩ => exact Fin.ext rfl

/-- The accumulated block at column q: the accumulator there plus the sum over the block's 5000 rows. -/
theorem pay4_apply (x : FVec Ideal S5000x64 .f32) (acc : FVec Ideal S1x64 .f32) (q : Fin 64) :
    k1_pay4 (F := Ideal) x acc (ix2 (0 : Fin 1) q) = acc (ix2 (0 : Fin 1) q) + ∑ r : Fin 5000, x (ix2 r q) := by
  unfold k1_pay4 k1_pay3
  refine (addf_apply _ _ _).trans ?_
  refine congrArg₂ (· + ·) (congrFun (shapeCast_self acc _) _) ?_
  refine (shapeCast_addUnit_apply ![64] _ _ (ix2 (0 : Fin 1) q)).trans ?_
  refine (Ideal.multiReduction_add_single _ _ _ _ _ _).trans ?_
  refine Finset.sum_congr rfl fun r _ => ?_
  exact (congrFun (shapeCast_self x _) _).trans (congrArg x (lift_eq q r))

/-- The same for the squares. -/
theorem pay5_apply (x : FVec Ideal S5000x64 .f32) (acc : FVec Ideal S1x64 .f32) (q : Fin 64) :
    k1_pay5 (F := Ideal) x acc (ix2 (0 : Fin 1) q)
      = acc (ix2 (0 : Fin 1) q) + ∑ r : Fin 5000, x (ix2 r q) * x (ix2 r q) := by
  unfold k1_pay5 k1_pay3
  refine (addf_apply _ _ _).trans ?_
  refine congrArg₂ (· + ·) (congrFun (shapeCast_self acc _) _) ?_
  refine (shapeCast_addUnit_apply ![64] _ _ (ix2 (0 : Fin 1) q)).trans ?_
  refine (Ideal.multiReduction_add_single _ _ _ _ _ _).trans ?_
  refine Finset.sum_congr rfl fun r _ => ?_
  refine (mulf_apply _ _ _).trans ?_
  have e : shapeCast S5000x64 x shapeCasts_S5000x64_S5000x64
      (reduces_S5000x64_S64.lift (fun a => (ix2 (0 : Fin 1) q : S1x64.Idx) a.succ) r) = x (ix2 r q) :=
    (congrFun (shapeCast_self x _) _).trans (congrArg x (lift_eq q r))
  exact congrArg₂ (· * ·) e e

end Payloads

/-! ## Region 1: the two outputs after the last point are the column sums over all 100000 rows -/

section Region1
variable (V : (c : Dev nD) → (b : Ref sig .tc) → Buf (Elt Ideal) ((c : Thread nD τ).loc b)) (c : Dev nD)

/-- The region's input array as the region finds it, read as extended reals. -/
abbrev arr52 : S100000x64.Idx → EReal := V c main_v52
/-- Its block of 5000 rows at point t, read as extended reals. -/
abbrev blk1 (t : Fin cfg1.N) : S5000x64.Idx → EReal := iblk1 (F := Ideal) V c 0 t

/-- Column q of a [100000, 64] array as a function of the row number, zero past the last row: partial sums over
    the first 5000 (n + 1) rows are then sums over a range of naturals. -/
def rowN (X : S100000x64.Idx → EReal) (q : Fin 64) (k : ℕ) : EReal :=
  if h : k < 100000 then X (ix2 ⟨k, h⟩ q) else 0

/-- Summed over all row numbers below 100000 it is the column's sum (of any function g of the entries). -/
theorem range_total (X : S100000x64.Idx → EReal) (g : EReal → EReal) (q : Fin 64) :
    ∑ k ∈ Finset.range 100000, g (rowN X q k) = ∑ p : Fin 100000, g (X (ix2 p q)) := by
  rw [← Fin.sum_univ_eq_sum_range (fun k => g (rowN X q k)) 100000]
  refine Finset.sum_congr rfl fun p _ => ?_
  unfold rowN
  rw [dif_pos p.isLt]

/-- The input window's block index at point t is (t, 0): decided over the 20 points. -/
theorem idx1_0 : ∀ t : Fin cfg1.N, win1_0.index t 0 = t.val ∧ win1_0.index t 1 = 0 :=
  (by decide +kernel : ∀ t : Fin grid1.N, win1_0.index t 0 = t.val ∧ win1_0.index t 1 = 0)

/-- Row r of block t is row 5000 t + r of the array. -/
theorem blk1_apply (t : Fin cfg1.N) (r : Fin 5000) (q : Fin 64) (h : 5000 * t.val + r.val < 100000) :
    blk1 V c t (ix2 r q) = arr52 V c (ix2 ⟨5000 * t.val + r.val, h⟩ q) := by
  unfold blk1 arr52 iblk1
  rw [View.read_apply]
  show (V c main_v52 : S100000x64.Idx → EReal) _ = _
  refine congrArg (V c main_v52 : S100000x64.Idx → EReal) ?_
  funext a
  apply Fin.ext
  match a with
  | ⟨0, _⟩ => show win1_0.index t 0 * 5000 + 1 * r.val = 5000 * t.val + r.val; rw [(idx1_0 t).1]; omega
  | ⟨1, _⟩ => show win1_0.index t 1 * 64 + 1 * q.val = q.val; rw [(idx1_0 t).2]; omega

/-- So a sum over the rows of block t is a sum over 5000 consecutive row numbers. -/
theorem blockSum_eq (g : EReal → EReal) (t : Fin cfg1.N) (q : Fin 64) :
    ∑ r : Fin 5000, g (blk1 V c t (ix2 r q))
      = ∑ r ∈ Finset.range 5000, g (rowN (arr52 V c) q (5000 * t.val + r)) := by
  have hN : t.val < 20 := lt_of_lt_of_eq t.isLt (show cfg1.N = 20 from N_1)
  rw [← Fin.sum_univ_eq_sum_range (fun r => g (rowN (arr52 V c) q (5000 * t.val + r))) 5000]
  refine Finset.sum_congr rfl fun r _ => ?_
  have hr := r.isLt
  have h : 5000 * t.val + r.val < 100000 := by omega
  rw [blk1_apply V c t r q h]
  unfold rowN
  rw [dif_pos h]

/-- The first point: both outputs hold the block's column sums (zero plus them). -/
theorem stepA_1 (t : Fin cfg1.N) (h0 : t.val % 20 = 0) (q : Fin 64) :
    ((outsAt1 (F := Ideal) V c t.val t.isLt).1 : S1x64.Idx → EReal) (ix2 (0 : Fin 1) q)
      = ∑ r : Fin 5000, blk1 V c t (ix2 r q) := by
  rw [outsAt1_A V c t h0]
  dsimp only
  rw [out1_A_1_eq c (grid1.coords t) (ms1_0 t) (hs1_0 t) (ms1_1 t) (hs1_1 t) (ms1_2 t) (hs1_2 t) ((hcond1_0 t).mpr h0) (iblk1 V c 0 t)]
  refine (pay4_apply (blk1 V c t) k1_pay1 q).trans ?_
  rw [pay1_apply, zero_add]

theorem stepA_2 (t : Fin cfg1.N) (h0 : t.val % 20 = 0) (q : Fin 64) :
    ((outsAt1 (F := Ideal) V c t.val t.isLt).2 : S1x64.Idx → EReal) (ix2 (0 : Fin 1) q)
      = ∑ r : Fin 5000, blk1 V c t (ix2 r q) * blk1 V c t (ix2 r q) := by
  rw [outsAt1_A V c t h0]
  dsimp only
  rw [out1_A_2_eq c (grid1.coords t) (ms1_0 t) (hs1_0 t) (ms1_1 t) (hs1_1 t) (ms1_2 t) (hs1_2 t) ((hcond1_0 t).mpr h0) (iblk1 V c 0 t)]
  refine (pay5_apply (blk1 V c t) k1_pay2 q).trans ?_
  rw [pay2_apply, zero_add]

/-- A later point: each output holds what the point before left plus the block's column sums. -/
theorem stepB_1 (t : Fin cfg1.N) (h0 : ¬t.val % 20 = 0) (q : Fin 64) :
    ((outsAt1 (F := Ideal) V c t.val t.isLt).1 : S1x64.Idx → EReal) (ix2 (0 : Fin 1) q)
      = ((outsAt1 (F := Ideal) V c (t.val - 1) (Nat.lt_of_le_of_lt (Nat.sub_le _ _) t.isLt)).1 : S1x64.Idx → EReal) (ix2 (0 : Fin 1) q)
        + ∑ r : Fin 5000, blk1 V c t (ix2 r q) := by
  rw [outsAt1_B V c t h0]
  dsimp only
  rw [out1_B_1_eq c (grid1.coords t) (ms1_0 t) (hs1_0 t) (ms1_1 t) (hs1_1 t) (ms1_2 t) (hs1_2 t) (fun h => h0 ((hcond1_0 t).mp h)) (iblk1 V c 0 t)
    (outsAt1 V c (t.val - 1) (Nat.lt_of_le_of_lt (Nat.sub_le _ _) t.isLt)).1 (outsAt1 V c (t.val - 1) (Nat.lt_of_le_of_lt (Nat.sub_le _ _) t.isLt)).2]
  exact pay4_apply (blk1 V c t) (outsAt1 (F := Ideal) V c (t.val - 1) (Nat.lt_of_le_of_lt (Nat.sub_le _ _) t.isLt)).1 q

theorem stepB_2 (t : Fin cfg1.N) (h0 : ¬t.val % 20 = 0) (q : Fin 64) :
    ((outsAt1 (F := Ideal) V c t.val t.isLt).2 : S1x64.Idx → EReal) (ix2 (0 : Fin 1) q)
      = ((outsAt1 (F := Ideal) V c (t.val - 1) (Nat.lt_of_le_of_lt (Nat.sub_le _ _) t.isLt)).2 : S1x64.Idx → EReal) (ix2 (0 : Fin 1) q)
        + ∑ r : Fin 5000, blk1 V c t (ix2 r q) * blk1 V c t (ix2 r q) := by
  rw [outsAt1_B V c t h0]
  dsimp only
  rw [out1_B_2_eq c (grid1.coords t) (ms1_0 t) (hs1_0 t) (ms1_1 t) (hs1_1 t) (ms1_2 t) (hs1_2 t) (fun h => h0 ((hcond1_0 t).mp h)) (iblk1 V c 0 t)
    (outsAt1 V c (t.val - 1) (Nat.lt_of_le_of_lt (Nat.sub_le _ _) t.isLt)).1 (outsAt1 V c (t.val - 1) (Nat.lt_of_le_of_lt (Nat.sub_le _ _) t.isLt)).2]
  exact pay5_apply (blk1 V c t) (outsAt1 (F := Ideal) V c (t.val - 1) (Nat.lt_of_le_of_lt (Nat.sub_le _ _) t.isLt)).2 q

/-- THE INVARIANT, by induction on the point: after point n the first output holds, at column q, the sum of the
    first 5000 (n + 1) rows of that column, the second the sum of their squares. -/
theorem outsAt1_sum : ∀ (n : ℕ) (h : n < cfg1.N) (q : Fin 64),
    ((outsAt1 (F := Ideal) V c n h).1 : S1x64.Idx → EReal) (ix2 (0 : Fin 1) q)
        = ∑ k ∈ Finset.range (5000 * (n + 1)), rowN (arr52 V c) q k
    ∧ ((outsAt1 (F := Ideal) V c n h).2 : S1x64.Idx → EReal) (ix2 (0 : Fin 1) q)
        = ∑ k ∈ Finset.range (5000 * (n + 1)), rowN (arr52 V c) q k * rowN (arr52 V c) q k
  | 0, h, q => by
    have e1 := (stepA_1 V c ⟨0, h⟩ rfl q).trans (blockSum_eq V c (fun x => x) ⟨0, h⟩ q)
    have e2 := (stepA_2 V c ⟨0, h⟩ rfl q).trans (blockSum_eq V c (fun x => x * x) ⟨0, h⟩ q)
    simp only [Nat.mul_zero, Nat.zero_add] at e1 e2
    exact ⟨e1, e2⟩
  | n + 1, h, q => by
    have hN : n + 1 < 20 := lt_of_lt_of_eq h (show cfg1.N = 20 from N_1)
    have hB : ¬(⟨n + 1, h⟩ : Fin cfg1.N).val % 20 = 0 := by dsimp only; omega
    obtain ⟨ih1, ih2⟩ := outsAt1_sum n (Nat.lt_of_succ_lt h) q
    have e1 := (stepB_1 V c ⟨n + 1, h⟩ hB q).trans (congrArg₂ (· + ·) ih1 (blockSum_eq V c (fun x => x) ⟨n + 1, h⟩ q))
    have e2 := (stepB_2 V c ⟨n + 1, h⟩ hB q).trans (congrArg₂ (· + ·) ih2 (blockSum_eq V c (fun x => x * x) ⟨n + 1, h⟩ q))
    have hs : 5000 * (n + 1 + 1) = 5000 * (n + 1) + 5000 := by omega
    rw [hs, Finset.sum_range_add, Finset.sum_range_add]
    exact ⟨e1, e2⟩

/-- The column sums over all rows, as contents of a [1, 64] array. -/
def G1 : S1x64.Idx → EReal := fun j => ∑ p : Fin 100000, arr52 V c (ix2 p (j 1))
/-- The column sums of the squares. -/
def G2 : S1x64.Idx → EReal := fun j => ∑ p : Fin 100000, arr52 V c (ix2 p (j 1)) * arr52 V c (ix2 p (j 1))

theorem t19_lt : 19 < cfg1.N := by rw [show cfg1.N = 20 from N_1]; decide
/-- The last point, the one write-back. -/
abbrev t19 : Fin cfg1.N := ⟨19, t19_lt⟩

theorem last1_eq : (outsAt1 (F := Ideal) V c 19 t19_lt).1 = G1 V c := by
  funext j
  obtain ⟨u, q, rfl⟩ : ∃ (u : Fin 1) (q : Fin 64), j = ix2 u q := ⟨j 0, j 1, eq_ix2 j⟩
  obtain rfl : u = 0 := Subsingleton.elim _ _
  exact ((outsAt1_sum V c 19 t19_lt q).1).trans (range_total (arr52 V c) (fun x => x) q)

theorem last2_eq : (outsAt1 (F := Ideal) V c 19 t19_lt).2 = G2 V c := by
  funext j
  obtain ⟨u, q, rfl⟩ : ∃ (u : Fin 1) (q : Fin 64), j = ix2 u q := ⟨j 0, j 1, eq_ix2 j⟩
  obtain rfl : u = 0 := Subsingleton.elim _ _
  exact ((outsAt1_sum V c 19 t19_lt q).2).trans (range_total (arr52 V c) (fun x => x * x) q)

end Region1

/-! ## Region 1: from the last point's block to the result arrays -/

section Region1Final
variable (V : (c : Dev nD) → (b : Ref sig .tc) → Buf (Elt Ideal) ((c : Thread nD τ).loc b)) (c : Dev nD)

/-- Both outputs' one block sits at block index (0, 0) at every point: decided over the 20 points. -/
theorem idx1_out : ∀ t : Fin cfg1.N, (win1_1.index t 0 = 0 ∧ win1_1.index t 1 = 0) ∧ (win1_2.index t 0 = 0 ∧ win1_2.index t 1 = 0) :=
  (by decide +kernel : ∀ t : Fin grid1.N, (win1_1.index t 0 = 0 ∧ win1_1.index t 1 = 0) ∧ (win1_2.index t 0 = 0 ∧ win1_2.index t 1 = 0))

/-- The one write-back of the first output, at the last point, writes the column sums: its block is the whole
    [1, 64] array read through zero offsets. -/
theorem flushed1_1 (t : Fin cfg1.N) (hf : (cfg1.win 1).flush t = true) :
    (dat1 (F := Ideal) V c).flushed 1 t = ((cfg1.win 1).blk t).view.read (Elt Ideal) (G1 V c) := by
  have hN : cfg1.N = 20 := N_1
  have h19 : t.val = 19 := by have := (flush1_1 t).mp hf; have := t.isLt; omega
  obtain rfl : t = t19 := Fin.ext h19
  show (cfg1.win 1).cut (grid1.coords t19) ((dat1 (F := Ideal) V c).after 1 t19) = _
  rw [after1_1]
  show (cfg1.win 1).cut (grid1.coords t19) (outsAt1 (F := Ideal) V c 19 t19_lt).1 = _
  rw [last1_eq]
  have hz' : (fun a => win1_1.index t19 a * main_v53_0.ty.shape.size a) = fun _ => 0 := funext fun a => by
    match a with
    | ⟨0, _⟩ => show win1_1.index t19 0 * _ = 0; rw [(idx1_out t19).1.1, Nat.zero_mul]
    | ⟨1, _⟩ => show win1_1.index t19 1 * _ = 0; rw [(idx1_out t19).1.2, Nat.zero_mul]
  exact (Memref.read_access_unit_zero (Elt Ideal) main_v53_0 hz' (fun a => by rw [congrFun hz' a]; simp) (G1 V c)).symm

theorem flushed1_2 (t : Fin cfg1.N) (hf : (cfg1.win 2).flush t = true) :
    (dat1 (F := Ideal) V c).flushed 2 t = ((cfg1.win 2).blk t).view.read (Elt Ideal) (G2 V c) := by
  have hN : cfg1.N = 20 := N_1
  have h19 : t.val = 19 := by have := (flush1_2 t).mp hf; have := t.isLt; omega
  obtain rfl : t = t19 := Fin.ext h19
  show (cfg1.win 2).cut (grid1.coords t19) ((dat1 (F := Ideal) V c).after 2 t19) = _
  rw [after1_2]
  show (cfg1.win 2).cut (grid1.coords t19) (outsAt1 (F := Ideal) V c 19 t19_lt).2 = _
  rw [last2_eq]
  have hz' : (fun a => win1_2.index t19 a * main_v53_1.ty.shape.size a) = fun _ => 0 := funext fun a => by
    match a with
    | ⟨0, _⟩ => show win1_2.index t19 0 * _ = 0; rw [(idx1_out t19).2.1, Nat.zero_mul]
    | ⟨1, _⟩ => show win1_2.index t19 1 * _ = 0; rw [(idx1_out t19).2.2, Nat.zero_mul]
  exact (Memref.read_access_unit_zero (Elt Ideal) main_v53_1 hz' (fun a => by rw [congrFun hz' a]; simp) (G2 V c)).symm

/-- The last point's block covers the whole [1, 64] array, so the first result array ends holding the column sums. -/
theorem final1_1 : (dat1 (F := Ideal) V c).arrAt 1 cfg1.N = G1 V c :=
  (dat1 (F := Ideal) V c).arrAt_eq_of_cover 1 (G1 V c) (flushed1_1 V c) fun i =>
    ⟨t19, (flush1_1 t19).mpr rfl, by
      show i ∈ ((View.whole main_v53_0).slice (win1_1.rect t19)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index t19 0 * 1 ≤ (i 0 : Nat) ∧ (i 0 : Nat) < win1_1.index t19 0 * 1 + 1
        rw [(idx1_out t19).1.1]; omega
      | ⟨1, _⟩ =>
        show win1_1.index t19 1 * 64 ≤ (i 1 : Nat) ∧ (i 1 : Nat) < win1_1.index t19 1 * 64 + 64
        rw [(idx1_out t19).1.2]; omega⟩

theorem final1_2 : (dat1 (F := Ideal) V c).arrAt 2 cfg1.N = G2 V c :=
  (dat1 (F := Ideal) V c).arrAt_eq_of_cover 2 (G2 V c) (flushed1_2 V c) fun i =>
    ⟨t19, (flush1_2 t19).mpr rfl, by
      show i ∈ ((View.whole main_v53_1).slice (win1_2.rect t19)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index t19 0 * 1 ≤ (i 0 : Nat) ∧ (i 0 : Nat) < win1_2.index t19 0 * 1 + 1
        rw [(idx1_out t19).2.1]; omega
      | ⟨1, _⟩ =>
        show win1_2.index t19 1 * 64 ≤ (i 1 : Nat) ∧ (i 1 : Nat) < win1_2.index t19 1 * 64 + 64
        rw [(idx1_out t19).2.2]; omega⟩

/-- REGION 1, first result: entry (0, q) is the sum of column q of the input over all 100000 rows. -/
theorem region1_sum (q : Fin 64) :
    ((dat1 (F := Ideal) V c).arrAt 1 cfg1.N : S1x64.Idx → EReal) (ix2 (0 : Fin 1) q)
      = ∑ p : Fin 100000, arr52 V c (ix2 p q) :=
  congrFun (final1_1 V c) (ix2 (0 : Fin 1) q)

/-- REGION 1, second result: entry (0, q) is the sum of the squares of column q over all 100000 rows. -/
theorem region1_sumsq (q : Fin 64) :
    ((dat1 (F := Ideal) V c).arrAt 2 cfg1.N : S1x64.Idx → EReal) (ix2 (0 : Fin 1) q)
      = ∑ p : Fin 100000, arr52 V c (ix2 p q) * arr52 V c (ix2 p q) :=
  congrFun (final1_2 V c) (ix2 (0 : Fin 1) q)

/-- The same two facts over any name X of the input array's contents. -/
theorem region1_sum_of (X : S100000x64.Idx → EReal) (hX : (V c main_v52 : S100000x64.Idx → EReal) = X) (q : Fin 64) :
    ((dat1 (F := Ideal) V c).arrAt 1 cfg1.N : S1x64.Idx → EReal) (ix2 (0 : Fin 1) q) = ∑ p : Fin 100000, X (ix2 p q) := by
  subst hX; exact region1_sum V c q

theorem region1_sumsq_of (X : S100000x64.Idx → EReal) (hX : (V c main_v52 : S100000x64.Idx → EReal) = X) (q : Fin 64) :
    ((dat1 (F := Ideal) V c).arrAt 2 cfg1.N : S1x64.Idx → EReal) (ix2 (0 : Fin 1) q)
      = ∑ p : Fin 100000, X (ix2 p q) * X (ix2 p q) := by
  subst hX; exact region1_sumsq V c q

end Region1Final

end Cert.Gcn.Sums
end
-- ==== Proof.SumRegion4.lean ====
/-
  The column-sum accumulator over the [100000, 32] array (the batch-norm statistics of the second layer).

  The grid has 20 points; point t reads rows 5000 t .. 5000 t + 4999 of the array. Both [1, 32] outputs keep the
  block index (0, 0) at every point, so their one block is carried from point to point and written back once, after
  the last point. The first point stores zeros and then adds, into the first output, the sum over the block's rows
  of each column, and into the second the sum of the squares; every later point adds its block's column sums to
  what the point before left. By induction on the point, after point n the first output holds at column q the sum
  of the first 5000 (n + 1) entries of column q, the second the sum of their squares. Over the extended reals
  addition is associative with 0 neutral, so the 20 block sums regroup into one sum over all 100000 rows, written
  here as a sum over a range of row numbers. The last point's block is the whole [1, 32] array.
-/
import proofs.«178879_j29317446762855_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.Gcn.Sums

open Cert.KernelIdeal Cert.KernelIdeal.Gen

/-! ## The two found cases of the column-sum body, as payloads of their loads (any float instance) -/

section Pieces
variable {F : FTy → Type} [FloatOps F]

theorem hz4 : (![0, 0] : Fin 2 → Nat) = fun _ => 0 := funext fun a => by fin_cases a <;> rfl

/-- A later point leaves in the first output the accumulator plus the column sums of the block. -/
theorem out4_B_1_eq (c : Dev nD) (i : grid4.Coords) (a1 : Memref sig .tc .vmem S5000x32 .f32) (h1 : a1.IsWhole)
    (a2 : Memref sig .tc .vmem S1x32 .f32) (h2 : a2.IsWhole) (a3 : Memref sig .tc .vmem S1x32 .f32) (h3 : a3.IsWhole)
    (hc : ¬cond4_0 i) (x : Vec F S5000x32 .f32) (xo1 xo2 : Vec F S1x32 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz4]
  simp only [View.readAt_eq_ld, h1.read_unread, h2.read_unread, View.ld_unit_zero (S := S5000x32) hz4,
    View.ld_unit_zero (S := S1x32) hz4]

/-- A later point leaves in the second output the accumulator plus the column sums of the block's squares. -/
theorem out4_B_2_eq (c : Dev nD) (i : grid4.Coords) (a1 : Memref sig .tc .vmem S5000x32 .f32) (h1 : a1.IsWhole)
    (a2 : Memref sig .tc .vmem S1x32 .f32) (h2 : a2.IsWhole) (a3 : Memref sig .tc .vmem S1x32 .f32) (h3 : a3.IsWhole)
    (hc : ¬cond4_0 i) (x : Vec F S5000x32 .f32) (xo1 xo2 : Vec F S1x32 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz4]
  simp only [View.readAt_eq_ld, h1.read_unread, h3.read_unread, View.ld_unit_zero (S := S5000x32) hz4,
    View.ld_unit_zero (S := S1x32) hz4]

/-- The first point zeroes the first output, reads the zero back, and leaves zero plus the column sums of the block. -/
theorem out4_A_1_eq (c : Dev nD) (i : grid4.Coords) (a1 : Memref sig .tc .vmem S5000x32 .f32) (h1 : a1.IsWhole)
    (a2 : Memref sig .tc .vmem S1x32 .f32) (h2 : a2.IsWhole) (a3 : Memref sig .tc .vmem S1x32 .f32) (h3 : a3.IsWhole)
    (hc : cond4_0 i) (x : Vec F S5000x32 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x32) hz4, View.readCov_unit_zero (S := S1x32) _ hz4]
  simp only [View.readAt_eq_ld, h1.read_unread, View.ld_unit_zero (S := S5000x32) hz4]

/-- The first point likewise leaves zero plus the column sums of the block's squares in the second output. -/
theorem out4_A_2_eq (c : Dev nD) (i : grid4.Coords) (a1 : Memref sig .tc .vmem S5000x32 .f32) (h1 : a1.IsWhole)
    (a2 : Memref sig .tc .vmem S1x32 .f32) (h2 : a2.IsWhole) (a3 : Memref sig .tc .vmem S1x32 .f32) (h3 : a3.IsWhole)
    (hc : cond4_0 i) (x : Vec F S5000x32 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x32) hz4, View.readCov_unit_zero (S := S1x32) _ hz4]
  simp only [View.readAt_eq_ld, h1.read_unread, View.ld_unit_zero (S := S5000x32) hz4]

end Pieces

/-! ## The payloads read at a column, over the extended reals -/

section Payloads

/-- The zero block holds the extended real 0. -/
theorem pay1_apply4 (q : Fin 32) : (k4_pay1 (F := Ideal) : S1x32.Idx → EReal) (ix2 (0 : Fin 1) q) = 0 := by
  unfold k4_pay1
  exact Ideal.ofBits_zero_f32

theorem pay2_apply4 (q : Fin 32) : (k4_pay2 (F := Ideal) : S1x32.Idx → EReal) (ix2 (0 : Fin 1) q) = 0 := by
  unfold k4_pay2
  exact Ideal.ofBits_zero_f32

/-- Row r, column q of the block is where the lane reduction's inserted index points. -/
theorem lift_eq4 (q : Fin 32) (r : Fin 5000) :
    reduces_S5000x32_S32.lift (fun a => (ix2 (0 : Fin 1) q : S1x32.Idx) a.succ) r = (ix2 r q : S5000x32.Idx) := by
  funext a
  match a with
  | ⟨0, _⟩ => exact Fin.ext rfl
  | ⟨1, _⟩ => exact Fin.ext rfl

/-- The accumulated block at column q: the accumulator there plus the sum over the block's 5000 rows. -/
theorem pay4_apply4 (x : FVec Ideal S5000x32 .f32) (acc : FVec Ideal S1x32 .f32) (q : Fin 32) :
    k4_pay4 (F := Ideal) x acc (ix2 (0 : Fin 1) q) = acc (ix2 (0 : Fin 1) q) + ∑ r : Fin 5000, x (ix2 r q) := by
  unfold k4_pay4 k4_pay3
  refine (addf_apply _ _ _).trans ?_
  refine congrArg₂ (· + ·) (congrFun (shapeCast_self acc _) _) ?_
  refine (shapeCast_addUnit_apply ![32] _ _ (ix2 (0 : Fin 1) q)).trans ?_
  refine (Ideal.multiReduction_add_single _ _ _ _ _ _).trans ?_
  refine Finset.sum_congr rfl fun r _ => ?_
  exact (congrFun (shapeCast_self x _) _).trans (congrArg x (lift_eq4 q r))

/-- The same for the squares. -/
theorem pay5_apply4 (x : FVec Ideal S5000x32 .f32) (acc : FVec Ideal S1x32 .f32) (q : Fin 32) :
    k4_pay5 (F := Ideal) x acc (ix2 (0 : Fin 1) q)
      = acc (ix2 (0 : Fin 1) q) + ∑ r : Fin 5000, x (ix2 r q) * x (ix2 r q) := by
  unfold k4_pay5 k4_pay3
  refine (addf_apply _ _ _).trans ?_
  refine congrArg₂ (· + ·) (congrFun (shapeCast_self acc _) _) ?_
  refine (shapeCast_addUnit_apply ![32] _ _ (ix2 (0 : Fin 1) q)).trans ?_
  refine (Ideal.multiReduction_add_single _ _ _ _ _ _).trans ?_
  refine Finset.sum_congr rfl fun r _ => ?_
  refine (mulf_apply _ _ _).trans ?_
  have e : shapeCast S5000x32 x shapeCasts_S5000x32_S5000x32
      (reduces_S5000x32_S32.lift (fun a => (ix2 (0 : Fin 1) q : S1x32.Idx) a.succ) r) = x (ix2 r q) :=
    (congrFun (shapeCast_self x _) _).trans (congrArg x (lift_eq4 q r))
  exact congrArg₂ (· * ·) e e

end Payloads

/-! ## Region 4: the two outputs after the last point are the column sums over all 100000 rows -/

section Region4
variable (V : (c : Dev nD) → (b : Ref sig .tc) → Buf (Elt Ideal) ((c : Thread nD τ).loc b)) (c : Dev nD)

/-- The region's input array as the region finds it, read as extended reals. -/
abbrev arr87 : S100000x32.Idx → EReal := V c main_v87
/-- Its block of 5000 rows at point t, read as extended reals. -/
abbrev blk4 (t : Fin cfg4.N) : S5000x32.Idx → EReal := iblk4 (F := Ideal) V c 0 t

/-- Column q of a [100000, 32] array as a function of the row number, zero past the last row: partial sums over
    the first 5000 (n + 1) rows are then sums over a range of naturals. -/
def rowN4 (X : S100000x32.Idx → EReal) (q : Fin 32) (k : ℕ) : EReal :=
  if h : k < 100000 then X (ix2 ⟨k, h⟩ q) else 0

/-- Summed over all row numbers below 100000 it is the column's sum (of any function g of the entries). -/
theorem range_total4 (X : S100000x32.Idx → EReal) (g : EReal → EReal) (q : Fin 32) :
    ∑ k ∈ Finset.range 100000, g (rowN4 X q k) = ∑ p : Fin 100000, g (X (ix2 p q)) := by
  rw [← Fin.sum_univ_eq_sum_range (fun k => g (rowN4 X q k)) 100000]
  refine Finset.sum_congr rfl fun p _ => ?_
  unfold rowN4
  rw [dif_pos p.isLt]

/-- The input window's block index at point t is (t, 0): decided over the 20 points. -/
theorem idx4_0 : ∀ t : Fin cfg4.N, win4_0.index t 0 = t.val ∧ win4_0.index t 1 = 0 :=
  (by decide +kernel : ∀ t : Fin grid4.N, win4_0.index t 0 = t.val ∧ win4_0.index t 1 = 0)

/-- Row r of block t is row 5000 t + r of the array. -/
theorem blk4_apply (t : Fin cfg4.N) (r : Fin 5000) (q : Fin 32) (h : 5000 * t.val + r.val < 100000) :
    blk4 V c t (ix2 r q) = arr87 V c (ix2 ⟨5000 * t.val + r.val, h⟩ q) := by
  unfold blk4 arr87 iblk4
  rw [View.read_apply]
  show (V c main_v87 : S100000x32.Idx → EReal) _ = _
  refine congrArg (V c main_v87 : S100000x32.Idx → EReal) ?_
  funext a
  apply Fin.ext
  match a with
  | ⟨0, _⟩ => show win4_0.index t 0 * 5000 + 1 * r.val = 5000 * t.val + r.val; rw [(idx4_0 t).1]; omega
  | ⟨1, _⟩ => show win4_0.index t 1 * 32 + 1 * q.val = q.val; rw [(idx4_0 t).2]; omega

/-- So a sum over the rows of block t is a sum over 5000 consecutive row numbers. -/
theorem blockSum_eq4 (g : EReal → EReal) (t : Fin cfg4.N) (q : Fin 32) :
    ∑ r : Fin 5000, g (blk4 V c t (ix2 r q))
      = ∑ r ∈ Finset.range 5000, g (rowN4 (arr87 V c) q (5000 * t.val + r)) := by
  have hN : t.val < 20 := lt_of_lt_of_eq t.isLt (show cfg4.N = 20 from N_4)
  rw [← Fin.sum_univ_eq_sum_range (fun r => g (rowN4 (arr87 V c) q (5000 * t.val + r))) 5000]
  refine Finset.sum_congr rfl fun r _ => ?_
  have hr := r.isLt
  have h : 5000 * t.val + r.val < 100000 := by omega
  rw [blk4_apply V c t r q h]
  unfold rowN4
  rw [dif_pos h]

/-- The first point: both outputs hold the block's column sums (zero plus them). -/
theorem step4A_1 (t : Fin cfg4.N) (h0 : t.val % 20 = 0) (q : Fin 32) :
    ((outsAt4 (F := Ideal) V c t.val t.isLt).1 : S1x32.Idx → EReal) (ix2 (0 : Fin 1) q)
      = ∑ r : Fin 5000, blk4 V c t (ix2 r q) := by
  rw [outsAt4_A V c t h0]
  dsimp only
  rw [out4_A_1_eq c (grid4.coords t) (ms4_0 t) (hs4_0 t) (ms4_1 t) (hs4_1 t) (ms4_2 t) (hs4_2 t) ((hcond4_0 t).mpr h0) (iblk4 V c 0 t)]
  refine (pay4_apply4 (blk4 V c t) k4_pay1 q).trans ?_
  rw [pay1_apply4, zero_add]

theorem step4A_2 (t : Fin cfg4.N) (h0 : t.val % 20 = 0) (q : Fin 32) :
    ((outsAt4 (F := Ideal) V c t.val t.isLt).2 : S1x32.Idx → EReal) (ix2 (0 : Fin 1) q)
      = ∑ r : Fin 5000, blk4 V c t (ix2 r q) * blk4 V c t (ix2 r q) := by
  rw [outsAt4_A V c t h0]
  dsimp only
  rw [out4_A_2_eq c (grid4.coords t) (ms4_0 t) (hs4_0 t) (ms4_1 t) (hs4_1 t) (ms4_2 t) (hs4_2 t) ((hcond4_0 t).mpr h0) (iblk4 V c 0 t)]
  refine (pay5_apply4 (blk4 V c t) k4_pay2 q).trans ?_
  rw [pay2_apply4, zero_add]

/-- A later point: each output holds what the point before left plus the block's column sums. -/
theorem step4B_1 (t : Fin cfg4.N) (h0 : ¬t.val % 20 = 0) (q : Fin 32) :
    ((outsAt4 (F := Ideal) V c t.val t.isLt).1 : S1x32.Idx → EReal) (ix2 (0 : Fin 1) q)
      = ((outsAt4 (F := Ideal) V c (t.val - 1) (Nat.lt_of_le_of_lt (Nat.sub_le _ _) t.isLt)).1 : S1x32.Idx → EReal) (ix2 (0 : Fin 1) q)
        + ∑ r : Fin 5000, blk4 V c t (ix2 r q) := by
  rw [outsAt4_B V c t h0]
  dsimp only
  rw [out4_B_1_eq c (grid4.coords t) (ms4_0 t) (hs4_0 t) (ms4_1 t) (hs4_1 t) (ms4_2 t) (hs4_2 t) (fun h => h0 ((hcond4_0 t).mp h)) (iblk4 V c 0 t)
    (outsAt4 V c (t.val - 1) (Nat.lt_of_le_of_lt (Nat.sub_le _ _) t.isLt)).1 (outsAt4 V c (t.val - 1) (Nat.lt_of_le_of_lt (Nat.sub_le _ _) t.isLt)).2]
  exact pay4_apply4 (blk4 V c t) (outsAt4 (F := Ideal) V c (t.val - 1) (Nat.lt_of_le_of_lt (Nat.sub_le _ _) t.isLt)).1 q

theorem step4B_2 (t : Fin cfg4.N) (h0 : ¬t.val % 20 = 0) (q : Fin 32) :
    ((outsAt4 (F := Ideal) V c t.val t.isLt).2 : S1x32.Idx → EReal) (ix2 (0 : Fin 1) q)
      = ((outsAt4 (F := Ideal) V c (t.val - 1) (Nat.lt_of_le_of_lt (Nat.sub_le _ _) t.isLt)).2 : S1x32.Idx → EReal) (ix2 (0 : Fin 1) q)
        + ∑ r : Fin 5000, blk4 V c t (ix2 r q) * blk4 V c t (ix2 r q) := by
  rw [outsAt4_B V c t h0]
  dsimp only
  rw [out4_B_2_eq c (grid4.coords t) (ms4_0 t) (hs4_0 t) (ms4_1 t) (hs4_1 t) (ms4_2 t) (hs4_2 t) (fun h => h0 ((hcond4_0 t).mp h)) (iblk4 V c 0 t)
    (outsAt4 V c (t.val - 1) (Nat.lt_of_le_of_lt (Nat.sub_le _ _) t.isLt)).1 (outsAt4 V c (t.val - 1) (Nat.lt_of_le_of_lt (Nat.sub_le _ _) t.isLt)).2]
  exact pay5_apply4 (blk4 V c t) (outsAt4 (F := Ideal) V c (t.val - 1) (Nat.lt_of_le_of_lt (Nat.sub_le _ _) t.isLt)).2 q

/-- THE INVARIANT, by induction on the point: after point n the first output holds, at column q, the sum of the
    first 5000 (n + 1) rows of that column, the second the sum of their squares. -/
theorem outsAt4_sum : ∀ (n : ℕ) (h : n < cfg4.N) (q : Fin 32),
    ((outsAt4 (F := Ideal) V c n h).1 : S1x32.Idx → EReal) (ix2 (0 : Fin 1) q)
        = ∑ k ∈ Finset.range (5000 * (n + 1)), rowN4 (arr87 V c) q k
    ∧ ((outsAt4 (F := Ideal) V c n h).2 : S1x32.Idx → EReal) (ix2 (0 : Fin 1) q)
        = ∑ k ∈ Finset.range (5000 * (n + 1)), rowN4 (arr87 V c) q k * rowN4 (arr87 V c) q k
  | 0, h, q => by
    have e1 := (step4A_1 V c ⟨0, h⟩ rfl q).trans (blockSum_eq4 V c (fun x => x) ⟨0, h⟩ q)
    have e2 := (step4A_2 V c ⟨0, h⟩ rfl q).trans (blockSum_eq4 V c (fun x => x * x) ⟨0, h⟩ q)
    simp only [Nat.mul_zero, Nat.zero_add] at e1 e2
    exact ⟨e1, e2⟩
  | n + 1, h, q => by
    have hN : n + 1 < 20 := lt_of_lt_of_eq h (show cfg4.N = 20 from N_4)
    have hB : ¬(⟨n + 1, h⟩ : Fin cfg4.N).val % 20 = 0 := by dsimp only; omega
    obtain ⟨ih1, ih2⟩ := outsAt4_sum n (Nat.lt_of_succ_lt h) q
    have e1 := (step4B_1 V c ⟨n + 1, h⟩ hB q).trans (congrArg₂ (· + ·) ih1 (blockSum_eq4 V c (fun x => x) ⟨n + 1, h⟩ q))
    have e2 := (step4B_2 V c ⟨n + 1, h⟩ hB q).trans (congrArg₂ (· + ·) ih2 (blockSum_eq4 V c (fun x => x * x) ⟨n + 1, h⟩ q))
    have hs : 5000 * (n + 1 + 1) = 5000 * (n + 1) + 5000 := by omega
    rw [hs, Finset.sum_range_add, Finset.sum_range_add]
    exact ⟨e1, e2⟩

/-- The column sums over all rows, as contents of a [1, 32] array. -/
def G4s : S1x32.Idx → EReal := fun j => ∑ p : Fin 100000, arr87 V c (ix2 p (j 1))
/-- The column sums of the squares. -/
def G4q : S1x32.Idx → EReal := fun j => ∑ p : Fin 100000, arr87 V c (ix2 p (j 1)) * arr87 V c (ix2 p (j 1))

theorem t4_19_lt : 19 < cfg4.N := by rw [show cfg4.N = 20 from N_4]; decide
/-- The last point, the one write-back. -/
abbrev t4_19 : Fin cfg4.N := ⟨19, t4_19_lt⟩

theorem last4_1_eq : (outsAt4 (F := Ideal) V c 19 t4_19_lt).1 = G4s V c := by
  funext j
  obtain ⟨u, q, rfl⟩ : ∃ (u : Fin 1) (q : Fin 32), j = ix2 u q := ⟨j 0, j 1, eq_ix2 j⟩
  obtain rfl : u = 0 := Subsingleton.elim _ _
  exact ((outsAt4_sum V c 19 t4_19_lt q).1).trans (range_total4 (arr87 V c) (fun x => x) q)

theorem last4_2_eq : (outsAt4 (F := Ideal) V c 19 t4_19_lt).2 = G4q V c := by
  funext j
  obtain ⟨u, q, rfl⟩ : ∃ (u : Fin 1) (q : Fin 32), j = ix2 u q := ⟨j 0, j 1, eq_ix2 j⟩
  obtain rfl : u = 0 := Subsingleton.elim _ _
  exact ((outsAt4_sum V c 19 t4_19_lt q).2).trans (range_total4 (arr87 V c) (fun x => x * x) q)

end Region4

/-! ## Region 4: from the last point's block to the result arrays -/

section Region4Final
variable (V : (c : Dev nD) → (b : Ref sig .tc) → Buf (Elt Ideal) ((c : Thread nD τ).loc b)) (c : Dev nD)

/-- Both outputs' one block sits at block index (0, 0) at every point: decided over the 20 points. -/
theorem idx4_out : ∀ t : Fin cfg4.N, (win4_1.index t 0 = 0 ∧ win4_1.index t 1 = 0) ∧ (win4_2.index t 0 = 0 ∧ win4_2.index t 1 = 0) :=
  (by decide +kernel : ∀ t : Fin grid4.N, (win4_1.index t 0 = 0 ∧ win4_1.index t 1 = 0) ∧ (win4_2.index t 0 = 0 ∧ win4_2.index t 1 = 0))

/-- The one write-back of the first output, at the last point, writes the column sums: its block is the whole
    [1, 32] array read through zero offsets. -/
theorem flushed4_1 (t : Fin cfg4.N) (hf : (cfg4.win 1).flush t = true) :
    (dat4 (F := Ideal) V c).flushed 1 t = ((cfg4.win 1).blk t).view.read (Elt Ideal) (G4s V c) := by
  have hN : cfg4.N = 20 := N_4
  have h19 : t.val = 19 := by have := (flush4_1 t).mp hf; have := t.isLt; omega
  obtain rfl : t = t4_19 := Fin.ext h19
  show (cfg4.win 1).cut (grid4.coords t4_19) ((dat4 (F := Ideal) V c).after 1 t4_19) = _
  rw [after4_1]
  show (cfg4.win 1).cut (grid4.coords t4_19) (outsAt4 (F := Ideal) V c 19 t4_19_lt).1 = _
  rw [last4_1_eq]
  have hz4' : (fun a => win4_1.index t4_19 a * main_v88_0.ty.shape.size a) = fun _ => 0 := funext fun a => by
    match a with
    | ⟨0, _⟩ => show win4_1.index t4_19 0 * _ = 0; rw [(idx4_out t4_19).1.1, Nat.zero_mul]
    | ⟨1, _⟩ => show win4_1.index t4_19 1 * _ = 0; rw [(idx4_out t4_19).1.2, Nat.zero_mul]
  exact (Memref.read_access_unit_zero (Elt Ideal) main_v88_0 hz4' (fun a => by rw [congrFun hz4' a]; simp) (G4s V c)).symm

theorem flushed4_2 (t : Fin cfg4.N) (hf : (cfg4.win 2).flush t = true) :
    (dat4 (F := Ideal) V c).flushed 2 t = ((cfg4.win 2).blk t).view.read (Elt Ideal) (G4q V c) := by
  have hN : cfg4.N = 20 := N_4
  have h19 : t.val = 19 := by have := (flush4_2 t).mp hf; have := t.isLt; omega
  obtain rfl : t = t4_19 := Fin.ext h19
  show (cfg4.win 2).cut (grid4.coords t4_19) ((dat4 (F := Ideal) V c).after 2 t4_19) = _
  rw [after4_2]
  show (cfg4.win 2).cut (grid4.coords t4_19) (outsAt4 (F := Ideal) V c 19 t4_19_lt).2 = _
  rw [last4_2_eq]
  have hz4' : (fun a => win4_2.index t4_19 a * main_v88_1.ty.shape.size a) = fun _ => 0 := funext fun a => by
    match a with
    | ⟨0, _⟩ => show win4_2.index t4_19 0 * _ = 0; rw [(idx4_out t4_19).2.1, Nat.zero_mul]
    | ⟨1, _⟩ => show win4_2.index t4_19 1 * _ = 0; rw [(idx4_out t4_19).2.2, Nat.zero_mul]
  exact (Memref.read_access_unit_zero (Elt Ideal) main_v88_1 hz4' (fun a => by rw [congrFun hz4' a]; simp) (G4q V c)).symm

/-- The last point's block covers the whole [1, 32] array, so the first result array ends holding the column sums. -/
theorem final4_1 : (dat4 (F := Ideal) V c).arrAt 1 cfg4.N = G4s V c :=
  (dat4 (F := Ideal) V c).arrAt_eq_of_cover 1 (G4s V c) (flushed4_1 V c) fun i =>
    ⟨t4_19, (flush4_1 t4_19).mpr rfl, by
      show i ∈ ((View.whole main_v88_0).slice (win4_1.rect t4_19)).set
      rw [View.set_slice_whole, Rect.mem_set_unit]
      intro a
      have h0 : (i 0 : Nat) < 1 := (i 0).isLt
      have h1 : (i 1 : Nat) < 32 := (i 1).isLt
      match a with
      | ⟨0, _⟩ =>
        show win4_1.index t4_19 0 * 1 ≤ (i 0 : Nat) ∧ (i 0 : Nat) < win4_1.index t4_19 0 * 1 + 1
        rw [(idx4_out t4_19).1.1]; omega
      | ⟨1, _⟩ =>
        show win4_1.index t4_19 1 * 32 ≤ (i 1 : Nat) ∧ (i 1 : Nat) < win4_1.index t4_19 1 * 32 + 32
        rw [(idx4_out t4_19).1.2]; omega⟩

theorem final4_2 : (dat4 (F := Ideal) V c).arrAt 2 cfg4.N = G4q V c :=
  (dat4 (F := Ideal) V c).arrAt_eq_of_cover 2 (G4q V c) (flushed4_2 V c) fun i =>
    ⟨t4_19, (flush4_2 t4_19).mpr rfl, by
      show i ∈ ((View.whole main_v88_1).slice (win4_2.rect t4_19)).set
      rw [View.set_slice_whole, Rect.mem_set_unit]
      intro a
      have h0 : (i 0 : Nat) < 1 := (i 0).isLt
      have h1 : (i 1 : Nat) < 32 := (i 1).isLt
      match a with
      | ⟨0, _⟩ =>
        show win4_2.index t4_19 0 * 1 ≤ (i 0 : Nat) ∧ (i 0 : Nat) < win4_2.index t4_19 0 * 1 + 1
        rw [(idx4_out t4_19).2.1]; omega
      | ⟨1, _⟩ =>
        show win4_2.index t4_19 1 * 32 ≤ (i 1 : Nat) ∧ (i 1 : Nat) < win4_2.index t4_19 1 * 32 + 32
        rw [(idx4_out t4_19).2.2]; omega⟩

/-- REGION 4, first result: entry (0, q) is the sum of column q of the input over all 100000 rows. -/
theorem region4_sum (q : Fin 32) :
    ((dat4 (F := Ideal) V c).arrAt 1 cfg4.N : S1x32.Idx → EReal) (ix2 (0 : Fin 1) q)
      = ∑ p : Fin 100000, arr87 V c (ix2 p q) :=
  congrFun (final4_1 V c) (ix2 (0 : Fin 1) q)

/-- REGION 4, second result: entry (0, q) is the sum of the squares of column q over all 100000 rows. -/
theorem region4_sumsq (q : Fin 32) :
    ((dat4 (F := Ideal) V c).arrAt 2 cfg4.N : S1x32.Idx → EReal) (ix2 (0 : Fin 1) q)
      = ∑ p : Fin 100000, arr87 V c (ix2 p q) * arr87 V c (ix2 p q) :=
  congrFun (final4_2 V c) (ix2 (0 : Fin 1) q)

/-- The same two facts over any name X of the input array's contents. -/
theorem region4_sum_of (X : S100000x32.Idx → EReal) (hX : (V c main_v87 : S100000x32.Idx → EReal) = X) (q : Fin 32) :
    ((dat4 (F := Ideal) V c).arrAt 1 cfg4.N : S1x32.Idx → EReal) (ix2 (0 : Fin 1) q) = ∑ p : Fin 100000, X (ix2 p q) := by
  subst hX; exact region4_sum V c q

theorem region4_sumsq_of (X : S100000x32.Idx → EReal) (hX : (V c main_v87 : S100000x32.Idx → EReal) = X) (q : Fin 32) :
    ((dat4 (F := Ideal) V c).arrAt 2 cfg4.N : S1x32.Idx → EReal) (ix2 (0 : Fin 1) q)
      = ∑ p : Fin 100000, X (ix2 p q) * X (ix2 p q) := by
  subst hX; exact region4_sumsq V c q

end Region4Final

end Cert.Gcn.Sums
end
-- ==== Proof.SumRegions.lean ====
/-
  The two column-sum accumulators of the network, together: the [100000, 64] one (results: for each of the 64
  columns the sum of its 100000 entries, and the sum of their squares) and the [100000, 32] one (the same for 32
  columns). Each is proved in its own module; this module only gathers them.
-/
import proofs.«178879_j29317446762855_1_alg».proof.Proof.SumRegion1
import proofs.«178879_j29317446762855_1_alg».proof.Proof.SumRegion4
-- ==== Proof.NormRegions.lean ====
/-
  The two normalisation regions of the network, each read as one function of the arrays it finds.

  Each region walks the 100000 rows of a feature array in 20 blocks of 5000 rows.  On a block it subtracts the
  per-column mean, multiplies by the reciprocal square root of the per-column variance plus a small constant,
  scales by a per-column gain, adds a per-column shift and clamps at zero; the first region (64 columns) then adds
  the matching block of a residual array, the second (32 columns) does not.  The four per-column arrays are single
  rows `[1, n]` broadcast down the block, and every grid point sees them whole.

  Nothing in an entry `(p, q)` of the result depends on the blocking: it is the entry `(p, q)` of the feature array
  (and of the residual) and the entries `(0, q)` of the four rows.  So what grid point `t` writes back is block `t`
  of ONE whole-array function, the blocks `t = 0 … 19` cover the rows (row `p` lies in block `p / 5000`), and the
  array the region leaves is that function.
-/
import proofs.«178879_j29317446762855_1_alg».proof.Proof.Gen.KernelIdeal.Frame
import Idealize.ShloMosaic.Lib.Pipeline.Value
import Idealize.ShloMosaic.Lib.ValueIdx
import Idealize.ShloMosaic.Lib.ValueLayout

noncomputable section

namespace Cert.Gcn.Norm

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when a region is entered, and the core
variable (V : (c : Dev nD) → (b : Ref sig .tc) → Buf (Elt Ideal) ((c : Thread nD τ).loc b)) (c : Dev nD)

/-- The zero offsets of a whole-block access, however they are spelt. -/
theorem hz : (![0, 0] : Fin 2 → Nat) = fun _ => 0 := funext fun a => by fin_cases a <;> rfl

/-! # Region 2: 64 columns, with a residual -/

/-! ## The body at one entry of a block -/

/-- The body's one stored value at row `r`, column `q` of a block: the block's entry there, the four rows' entries at
    column `q` (a row broadcast down the block reads its column), the two literals, and the residual block's entry. -/
theorem pay2_apply (v0 : Vec Ideal S5000x64 .f32) (v2 v6 v13 v17 : Vec Ideal S1x64 .f32) (v23 : Vec Ideal S5000x64 .f32)
    (r : Fin 5000) (q : Fin 64) :
    (k2_pay1 v0 v2 v6 v13 v17 v23 : S5000x64.Idx → EReal) (ix2 r q)
      = max (((((v0 : S5000x64.Idx → EReal) (ix2 r q) - (v2 : S1x64.Idx → EReal) (ix2 (0 : Fin 1) q))
               * Ideal.rsqrt ((v6 : S1x64.Idx → EReal) (ix2 (0 : Fin 1) q) + (Ideal.ofBits .f32 0x3727C5AC#32 : EReal)))
              * (v13 : S1x64.Idx → EReal) (ix2 (0 : Fin 1) q)) + (v17 : S1x64.Idx → EReal) (ix2 (0 : Fin 1) q))
            (Ideal.ofBits .f32 0x00000000#32 : EReal)
        + (v23 : S5000x64.Idx → EReal) (ix2 r q) := by
  unfold k2_pay1
  simp only [shapeCast_self]
  show max (((v0 (ix2 r q) - broadcastTo S5000x64 v2 broadcasts_S1x64_S5000x64 (ix2 r q))
      * broadcastTo S5000x64 (rsqrt (F := Ideal) (addf v6 (broadcast S1x64 (Scalar.ofBits .f32 0x3727C5AC#32)))) broadcasts_S1x64_S5000x64 (ix2 r q))
      * broadcastTo S5000x64 v13 broadcasts_S1x64_S5000x64 (ix2 r q) + broadcastTo S5000x64 v17 broadcasts_S1x64_S5000x64 (ix2 r q))
      (Ideal.ofBits .f32 0x00000000#32) + v23 (ix2 r q) = _
  rw [broadcastTo_1b_ab_apply, broadcastTo_1b_ab_apply, broadcastTo_1b_ab_apply, broadcastTo_1b_ab_apply]
  rfl

/-- The region's result as one function of whole arrays: entry `i = (p, q)` from the feature array at `i`, the four
    per-column rows at `(0, q)` and the residual at `i`. -/
def G2 (H : S100000x64.Idx → EReal) (M W Gm B : S1x64.Idx → EReal) (R : S100000x64.Idx → EReal) : S100000x64.Idx → EReal :=
  fun i => max ((((H i - M (ix2 (0 : Fin 1) (⟨(i 1).val, (i 1).isLt⟩ : Fin 64)))
               * Ideal.rsqrt (W (ix2 (0 : Fin 1) (⟨(i 1).val, (i 1).isLt⟩ : Fin 64)) + (Ideal.ofBits .f32 0x3727C5AC#32 : EReal)))
              * Gm (ix2 (0 : Fin 1) (⟨(i 1).val, (i 1).isLt⟩ : Fin 64))) + B (ix2 (0 : Fin 1) (⟨(i 1).val, (i 1).isLt⟩ : Fin 64)))
            (Ideal.ofBits .f32 0x00000000#32 : EReal)
        + R i

/-- That function at explicit coordinates. -/
theorem G2_apply (H : S100000x64.Idx → EReal) (M W Gm B : S1x64.Idx → EReal) (R : S100000x64.Idx → EReal) (p : Fin 100000) (q : Fin 64) :
    G2 H M W Gm B R (ix2 p q)
      = max ((((H (ix2 p q) - M (ix2 (0 : Fin 1) q))
               * Ideal.rsqrt (W (ix2 (0 : Fin 1) q) + (Ideal.ofBits .f32 0x3727C5AC#32 : EReal)))
              * Gm (ix2 (0 : Fin 1) q)) + B (ix2 (0 : Fin 1) q))
            (Ideal.ofBits .f32 0x00000000#32 : EReal)
        + R (ix2 p q) := rfl

/-- If a block's entry `(r, q)` is the array's entry `(p, q)` (for the features and for the residual) and the four rows are the
    arrays' rows, the body's value at `(r, q)` is the whole-array function at `(p, q)`. -/
theorem pay2_block (x0 : Vec Ideal S5000x64 .f32) (x1 x2 x3 x4 : Vec Ideal S1x64 .f32) (x5 : Vec Ideal S5000x64 .f32)
    (H : S100000x64.Idx → EReal) (M W Gm B : S1x64.Idx → EReal) (R : S100000x64.Idx → EReal)
    (p : Fin 100000) (r : Fin 5000) (q : Fin 64)
    (h0 : (x0 : S5000x64.Idx → EReal) (ix2 r q) = H (ix2 p q)) (h1 : (x1 : S1x64.Idx → EReal) = M) (h2 : (x2 : S1x64.Idx → EReal) = W)
    (h3 : (x3 : S1x64.Idx → EReal) = Gm) (h4 : (x4 : S1x64.Idx → EReal) = B) (h5 : (x5 : S5000x64.Idx → EReal) (ix2 r q) = R (ix2 p q)) :
    (k2_pay1 x0 x1 x2 x3 x4 x5 : S5000x64.Idx → EReal) (ix2 r q) = G2 H M W Gm B R (ix2 p q) := by
  rw [pay2_apply, G2_apply, h0, h1, h2, h3, h4, h5]

/-! ## The windows' blocks as parts of their arrays -/

/-- The printed index maps over the grid: the row-blocked windows sit at block `(t, 0)`, the four rows at `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Entry `(r, q)` of the feature window's block at point `t` is the array's entry `(5000 t + r, q)`. -/
theorem iblk2_0_apply (t : Fin cfg2.N) (r : Fin 5000) (q : Fin 64) (p : Fin 100000) (hp : p.val = t.val * 5000 + r.val) :
    (iblk2 V c 0 t : S5000x64.Idx → EReal) (ix2 r q) = (V c main_v52 : S100000x64.Idx → EReal) (ix2 p q) := by
  obtain ⟨e0, e1, -⟩ := idx_facts2 t
  unfold iblk2
  rw [View.read_apply]
  show (V c main_v52 : S100000x64.Idx → EReal) _ = (V c main_v52 : S100000x64.Idx → EReal) _
  refine congrArg _ (funext fun a => Fin.ext ?_)
  match a with
  | ⟨0, _⟩ => show win2_0.index t (0 : Fin 2) * 5000 + 1 * r.val = p.val; omega
  | ⟨1, _⟩ => show win2_0.index t (1 : Fin 2) * 64 + 1 * q.val = q.val; omega

/-- The same for the residual window. -/
theorem iblk2_5_apply (t : Fin cfg2.N) (r : Fin 5000) (q : Fin 64) (p : Fin 100000) (hp : p.val = t.val * 5000 + r.val) :
    (iblk2 V c 5 t : S5000x64.Idx → EReal) (ix2 r q) = (V c main_arg0 : S100000x64.Idx → EReal) (ix2 p q) := by
  obtain ⟨-, -, -, -, -, -, -, -, -, -, e0, e1, -⟩ := idx_facts2 t
  unfold iblk2
  rw [View.read_apply]
  show (V c main_arg0 : S100000x64.Idx → EReal) _ = (V c main_arg0 : S100000x64.Idx → EReal) _
  refine congrArg _ (funext fun a => Fin.ext ?_)
  match a with
  | ⟨0, _⟩ => show win2_5.index t (0 : Fin 2) * 5000 + 1 * r.val = p.val; omega
  | ⟨1, _⟩ => show win2_5.index t (1 : Fin 2) * 64 + 1 * q.val = q.val; omega

/-- Each of the four rows' windows holds, at every point, its whole array. -/
theorem iblk2_1_eq (t : Fin cfg2.N) : (iblk2 V c 1 t : S1x64.Idx → EReal) = (V c main_v62 : S1x64.Idx → EReal) := by
  obtain ⟨-, -, e0, e1, -⟩ := idx_facts2 t
  funext y
  unfold iblk2
  rw [View.read_apply]
  show (V c main_v62 : S1x64.Idx → EReal) _ = (V c main_v62 : S1x64.Idx → EReal) y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 64 + 1 * (y 1).val = (y 1).val; omega

theorem iblk2_2_eq (t : Fin cfg2.N) : (iblk2 V c 2 t : S1x64.Idx → EReal) = (V c main_v63 : S1x64.Idx → EReal) := by
  obtain ⟨-, -, -, -, e0, e1, -⟩ := idx_facts2 t
  funext y
  unfold iblk2
  rw [View.read_apply]
  show (V c main_v63 : S1x64.Idx → EReal) _ = (V c main_v63 : S1x64.Idx → EReal) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

theorem iblk2_3_eq (t : Fin cfg2.N) : (iblk2 V c 3 t : S1x64.Idx → EReal) = (V c main_v64 : S1x64.Idx → EReal) := by
  obtain ⟨-, -, -, -, -, -, e0, e1, -⟩ := idx_facts2 t
  funext y
  unfold iblk2
  rw [View.read_apply]
  show (V c main_v64 : S1x64.Idx → EReal) _ = (V c main_v64 : S1x64.Idx → EReal) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

theorem iblk2_4_eq (t : Fin cfg2.N) : (iblk2 V c 4 t : S1x64.Idx → EReal) = (V c main_v65 : S1x64.Idx → EReal) := by
  obtain ⟨-, -, -, -, -, -, -, -, e0, e1, -⟩ := idx_facts2 t
  funext y
  unfold iblk2
  rw [View.read_apply]
  show (V c main_v65 : S1x64.Idx → EReal) _ = (V c main_v65 : S1x64.Idx → EReal) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-! ## What a grid point writes back, and the whole array -/

/-- What point `t` writes back is block `t` of the whole-array function of the arrays the region finds. -/
theorem flushed2_eq (t : Fin cfg2.N) :
    (dat2 (F := Ideal) V c).flushed 6 t
      = ((cfg2.win 6).blk t).view.read (Elt Ideal)
          (G2 (V c main_v52) (V c main_v62) (V c main_v63) (V c main_v64) (V c main_v65) (V c main_arg0)) := by
  show (cfg2.win 6).cut (grid2.coords t) ((dat2 V c).after 6 t) = _
  rw [after2_6]
  unfold out2_6
  rw [View.canon_unit_zero hz]
  simp only [View.ld_unit_zero (S := S5000x64) hz, View.ld_unit_zero (S := S1x64) hz]
  funext j
  obtain ⟨r, q, rfl⟩ : ∃ (r : Fin 5000) (q : Fin 64), j = ix2 r q := ⟨j 0, j 1, eq_ix2 j⟩
  have ht : t.val < 20 := t.isLt
  obtain ⟨-, -, -, -, -, -, -, -, -, -, -, -, e0, e1⟩ := idx_facts2 t
  have hemb : ((cfg2.win 6).blk t).view.emb (ix2 r q) = (ix2 (⟨t.val * 5000 + r.val, by omega⟩ : Fin 100000) q : S100000x64.Idx) := by
    funext a; apply Fin.ext
    match a with
    | ⟨0, _⟩ => show win2_6.index t (0 : Fin 2) * 5000 + 1 * r.val = t.val * 5000 + r.val; omega
    | ⟨1, _⟩ => show win2_6.index t (1 : Fin 2) * 64 + 1 * q.val = q.val; omega
  rw [View.read_apply, hemb]
  exact pay2_block _ _ _ _ _ _ _ _ _ _ _ _ _ r q (iblk2_0_apply V c t r q _ rfl) (iblk2_1_eq V c t) (iblk2_2_eq V c t)
    (iblk2_3_eq V c t) (iblk2_4_eq V c t) (iblk2_5_apply V c t r q _ rfl)

/-- An index of the array lies in point `t`'s block iff each coordinate lies in the block's range on its axis. -/
theorem mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v66).slice (win2_6.rect t)).set ↔ _
  rw [View.set_slice_whole, Rect.mem_set_unit]
  exact Iff.rfl

/-- Every index of the array lies in some point's block: row `p` in the block of point `p / 5000`. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_6 _, ?_⟩
  obtain ⟨-, -, -, -, -, -, -, -, -, -, -, -, e0, e1⟩ := idx_facts2 ⟨(i 0).val / 5000, by rw [hN]; omega⟩
  rw [mem_blk2]
  intro a
  match a with
  | ⟨0, _⟩ =>
    show win2_6.index _ (0 : Fin 2) * 5000 ≤ (i 0).val ∧ (i 0).val < win2_6.index _ (0 : Fin 2) * 5000 + 5000
    rw [e0]
    show (i 0).val / 5000 * 5000 ≤ (i 0).val ∧ (i 0).val < (i 0).val / 5000 * 5000 + 5000
    omega
  | ⟨1, _⟩ =>
    show win2_6.index _ (1 : Fin 2) * 64 ≤ (i 1).val ∧ (i 1).val < win2_6.index _ (1 : Fin 2) * 64 + 64
    rw [e1]
    omega

/-- The array the region leaves is the whole-array function of the arrays it found. -/
theorem final2 : (dat2 (F := Ideal) V c).arrAt 6 cfg2.N
      = G2 (V c main_v52) (V c main_v62) (V c main_v63) (V c main_v64) (V c main_v65) (V c main_arg0) :=
  (dat2 (F := Ideal) V c).arrAt_eq_of_cover 6 _ (fun t _ => flushed2_eq V c t) (cover2)

/-- The region's result at `(p, q)`, the arrays it found named by typed variables (`rfl` instantiates each). -/
theorem region2_apply_of (p : Fin 100000) (q : Fin 64)
    (H : S100000x64.Idx → EReal) (M W Gm B : S1x64.Idx → EReal) (R : S100000x64.Idx → EReal)
    (hH : (V c main_v52 : S100000x64.Idx → EReal) = H) (hM : (V c main_v62 : S1x64.Idx → EReal) = M)
    (hW : (V c main_v63 : S1x64.Idx → EReal) = W) (hG : (V c main_v64 : S1x64.Idx → EReal) = Gm)
    (hB : (V c main_v65 : S1x64.Idx → EReal) = B) (hR : (V c main_arg0 : S100000x64.Idx → EReal) = R) :
    ((dat2 (F := Ideal) V c).arrAt 6 cfg2.N : S100000x64.Idx → EReal) (ix2 p q)
      = max ((((H (ix2 p q) - M (ix2 (0 : Fin 1) q))
               * Ideal.rsqrt (W (ix2 (0 : Fin 1) q) + (Ideal.ofBits .f32 0x3727C5AC#32 : EReal)))
              * Gm (ix2 (0 : Fin 1) q)) + B (ix2 (0 : Fin 1) q))
            (Ideal.ofBits .f32 0x00000000#32 : EReal)
        + R (ix2 p q) := by
  subst hH hM hW hG hB hR
  rw [final2]
  exact G2_apply _ _ _ _ _ _ p q

/-- The region's result at `(p, q)` in the arrays it found. -/
theorem region2_apply (p : Fin 100000) (q : Fin 64) :
    type_of% (region2_apply_of V c p q _ _ _ _ _ _ rfl rfl rfl rfl rfl rfl) :=
  region2_apply_of V c p q _ _ _ _ _ _ rfl rfl rfl rfl rfl rfl

/-! # Region 5: 32 columns, without a residual -/

/-! ## The body at one entry of a block -/

/-- The body's one stored value at row `r`, column `q` of a block: the block's entry there, the four rows' entries at
    column `q` (a row broadcast down the block reads its column), the two literals. -/
theorem pay5_apply (v0 : Vec Ideal S5000x32 .f32) (v2 v6 v13 v17 : Vec Ideal S1x32 .f32)
    (r : Fin 5000) (q : Fin 32) :
    (k5_pay1 v0 v2 v6 v13 v17 : S5000x32.Idx → EReal) (ix2 r q)
      = max (((((v0 : S5000x32.Idx → EReal) (ix2 r q) - (v2 : S1x32.Idx → EReal) (ix2 (0 : Fin 1) q))
               * Ideal.rsqrt ((v6 : S1x32.Idx → EReal) (ix2 (0 : Fin 1) q) + (Ideal.ofBits .f32 0x3727C5AC#32 : EReal)))
              * (v13 : S1x32.Idx → EReal) (ix2 (0 : Fin 1) q)) + (v17 : S1x32.Idx → EReal) (ix2 (0 : Fin 1) q))
            (Ideal.ofBits .f32 0x00000000#32 : EReal) := by
  unfold k5_pay1
  simp only [shapeCast_self]
  show max (((v0 (ix2 r q) - broadcastTo S5000x32 v2 broadcasts_S1x32_S5000x32 (ix2 r q))
      * broadcastTo S5000x32 (rsqrt (F := Ideal) (addf v6 (broadcast S1x32 (Scalar.ofBits .f32 0x3727C5AC#32)))) broadcasts_S1x32_S5000x32 (ix2 r q))
      * broadcastTo S5000x32 v13 broadcasts_S1x32_S5000x32 (ix2 r q) + broadcastTo S5000x32 v17 broadcasts_S1x32_S5000x32 (ix2 r q))
      (Ideal.ofBits .f32 0x00000000#32) = _
  rw [broadcastTo_1b_ab_apply, broadcastTo_1b_ab_apply, broadcastTo_1b_ab_apply, broadcastTo_1b_ab_apply]
  rfl

/-- The region's result as one function of whole arrays: entry `i = (p, q)` from the feature array at `i`, the four
    per-column rows at `(0, q)`. -/
def G5 (H : S100000x32.Idx → EReal) (M W Gm B : S1x32.Idx → EReal) : S100000x32.Idx → EReal :=
  fun i => max ((((H i - M (ix2 (0 : Fin 1) (⟨(i 1).val, (i 1).isLt⟩ : Fin 32)))
               * Ideal.rsqrt (W (ix2 (0 : Fin 1) (⟨(i 1).val, (i 1).isLt⟩ : Fin 32)) + (Ideal.ofBits .f32 0x3727C5AC#32 : EReal)))
              * Gm (ix2 (0 : Fin 1) (⟨(i 1).val, (i 1).isLt⟩ : Fin 32))) + B (ix2 (0 : Fin 1) (⟨(i 1).val, (i 1).isLt⟩ : Fin 32)))
            (Ideal.ofBits .f32 0x00000000#32 : EReal)

/-- That function at explicit coordinates. -/
theorem G5_apply (H : S100000x32.Idx → EReal) (M W Gm B : S1x32.Idx → EReal) (p : Fin 100000) (q : Fin 32) :
    G5 H M W Gm B (ix2 p q)
      = max ((((H (ix2 p q) - M (ix2 (0 : Fin 1) q))
               * Ideal.rsqrt (W (ix2 (0 : Fin 1) q) + (Ideal.ofBits .f32 0x3727C5AC#32 : EReal)))
              * Gm (ix2 (0 : Fin 1) q)) + B (ix2 (0 : Fin 1) q))
            (Ideal.ofBits .f32 0x00000000#32 : EReal) := rfl

/-- If a block's entry `(r, q)` is the array's entry `(p, q)` and the four rows are the
    arrays' rows, the body's value at `(r, q)` is the whole-array function at `(p, q)`. -/
theorem pay5_block (x0 : Vec Ideal S5000x32 .f32) (x1 x2 x3 x4 : Vec Ideal S1x32 .f32)
    (H : S100000x32.Idx → EReal) (M W Gm B : S1x32.Idx → EReal)
    (p : Fin 100000) (r : Fin 5000) (q : Fin 32)
    (h0 : (x0 : S5000x32.Idx → EReal) (ix2 r q) = H (ix2 p q)) (h1 : (x1 : S1x32.Idx → EReal) = M) (h2 : (x2 : S1x32.Idx → EReal) = W)
    (h3 : (x3 : S1x32.Idx → EReal) = Gm) (h4 : (x4 : S1x32.Idx → EReal) = B) :
    (k5_pay1 x0 x1 x2 x3 x4 : S5000x32.Idx → EReal) (ix2 r q) = G5 H M W Gm B (ix2 p q) := by
  rw [pay5_apply, G5_apply, h0, h1, h2, h3, h4]

/-! ## The windows' blocks as parts of their arrays -/

/-- The printed index maps over the grid: the row-blocked windows sit at block `(t, 0)`, the four rows at `(0, 0)`. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry `(r, q)` of the feature window's block at point `t` is the array's entry `(5000 t + r, q)`. -/
theorem iblk5_0_apply (t : Fin cfg5.N) (r : Fin 5000) (q : Fin 32) (p : Fin 100000) (hp : p.val = t.val * 5000 + r.val) :
    (iblk5 V c 0 t : S5000x32.Idx → EReal) (ix2 r q) = (V c main_v87 : S100000x32.Idx → EReal) (ix2 p q) := by
  obtain ⟨e0, e1, -⟩ := idx_facts5 t
  unfold iblk5
  rw [View.read_apply]
  show (V c main_v87 : S100000x32.Idx → EReal) _ = (V c main_v87 : S100000x32.Idx → EReal) _
  refine congrArg _ (funext fun a => Fin.ext ?_)
  match a with
  | ⟨0, _⟩ => show win5_0.index t (0 : Fin 2) * 5000 + 1 * r.val = p.val; omega
  | ⟨1, _⟩ => show win5_0.index t (1 : Fin 2) * 32 + 1 * q.val = q.val; omega

/-- Each of the four rows' windows holds, at every point, its whole array. -/
theorem iblk5_1_eq (t : Fin cfg5.N) : (iblk5 V c 1 t : S1x32.Idx → EReal) = (V c main_v97 : S1x32.Idx → EReal) := by
  obtain ⟨-, -, e0, e1, -⟩ := idx_facts5 t
  funext y
  unfold iblk5
  rw [View.read_apply]
  show (V c main_v97 : S1x32.Idx → EReal) _ = (V c main_v97 : S1x32.Idx → EReal) y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 32 + 1 * (y 1).val = (y 1).val; omega

theorem iblk5_2_eq (t : Fin cfg5.N) : (iblk5 V c 2 t : S1x32.Idx → EReal) = (V c main_v98 : S1x32.Idx → EReal) := by
  obtain ⟨-, -, -, -, e0, e1, -⟩ := idx_facts5 t
  funext y
  unfold iblk5
  rw [View.read_apply]
  show (V c main_v98 : S1x32.Idx → EReal) _ = (V c main_v98 : S1x32.Idx → EReal) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 32 + 1 * (y 1).val = (y 1).val; omega

theorem iblk5_3_eq (t : Fin cfg5.N) : (iblk5 V c 3 t : S1x32.Idx → EReal) = (V c main_v99 : S1x32.Idx → EReal) := by
  obtain ⟨-, -, -, -, -, -, e0, e1, -⟩ := idx_facts5 t
  funext y
  unfold iblk5
  rw [View.read_apply]
  show (V c main_v99 : S1x32.Idx → EReal) _ = (V c main_v99 : S1x32.Idx → EReal) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 32 + 1 * (y 1).val = (y 1).val; omega

theorem iblk5_4_eq (t : Fin cfg5.N) : (iblk5 V c 4 t : S1x32.Idx → EReal) = (V c main_v100 : S1x32.Idx → EReal) := by
  obtain ⟨-, -, -, -, -, -, -, -, e0, e1, -⟩ := idx_facts5 t
  funext y
  unfold iblk5
  rw [View.read_apply]
  show (V c main_v100 : S1x32.Idx → EReal) _ = (V c main_v100 : S1x32.Idx → EReal) y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 32 + 1 * (y 1).val = (y 1).val; omega

/-! ## What a grid point writes back, and the whole array -/

/-- What point `t` writes back is block `t` of the whole-array function of the arrays the region finds. -/
theorem flushed5_eq (t : Fin cfg5.N) :
    (dat5 (F := Ideal) V c).flushed 5 t
      = ((cfg5.win 5).blk t).view.read (Elt Ideal)
          (G5 (V c main_v87) (V c main_v97) (V c main_v98) (V c main_v99) (V c main_v100)) := by
  show (cfg5.win 5).cut (grid5.coords t) ((dat5 V c).after 5 t) = _
  rw [after5_5]
  unfold out5_5
  rw [View.canon_unit_zero hz]
  simp only [View.ld_unit_zero (S := S5000x32) hz, View.ld_unit_zero (S := S1x32) hz]
  funext j
  obtain ⟨r, q, rfl⟩ : ∃ (r : Fin 5000) (q : Fin 32), j = ix2 r q := ⟨j 0, j 1, eq_ix2 j⟩
  have ht : t.val < 20 := t.isLt
  obtain ⟨-, -, -, -, -, -, -, -, -, -, e0, e1⟩ := idx_facts5 t
  have hemb : ((cfg5.win 5).blk t).view.emb (ix2 r q) = (ix2 (⟨t.val * 5000 + r.val, by omega⟩ : Fin 100000) q : S100000x32.Idx) := by
    funext a; apply Fin.ext
    match a with
    | ⟨0, _⟩ => show win5_5.index t (0 : Fin 2) * 5000 + 1 * r.val = t.val * 5000 + r.val; omega
    | ⟨1, _⟩ => show win5_5.index t (1 : Fin 2) * 32 + 1 * q.val = q.val; omega
  rw [View.read_apply, hemb]
  exact pay5_block _ _ _ _ _ _ _ _ _ _ _ r q (iblk5_0_apply V c t r q _ rfl) (iblk5_1_eq V c t) (iblk5_2_eq V c t)
    (iblk5_3_eq V c t) (iblk5_4_eq V c t)

/-- An index of the array lies in point `t`'s block iff each coordinate lies in the block's range on its axis. -/
theorem mem_blk5 (t : Fin cfg5.N) (i : S100000x32.Idx) :
    i ∈ ((cfg5.win 5).blk t).view.set ↔ ∀ a : Fin 2, win5_5.index t a * S5000x32.size a ≤ (i a).val ∧ (i a).val < win5_5.index t a * S5000x32.size a + S5000x32.size a := by
  show i ∈ ((View.whole main_v101).slice (win5_5.rect t)).set ↔ _
  rw [View.set_slice_whole, Rect.mem_set_unit]
  exact Iff.rfl

/-- Every index of the array lies in some point's block: row `p` in the block of point `p / 5000`. -/
theorem cover5 (i : S100000x32.Idx) : ∃ t : Fin cfg5.N, (cfg5.win 5).flush t = true ∧ i ∈ ((cfg5.win 5).blk t).view.set := by
  have hi0 : (i 0).val < 100000 := (i 0).isLt
  have hi1 : (i 1).val < 32 := (i 1).isLt
  have hN : cfg5.N = 20 := N_5
  refine ⟨⟨(i 0).val / 5000, by rw [hN]; omega⟩, flush5_5 _, ?_⟩
  obtain ⟨-, -, -, -, -, -, -, -, -, -, e0, e1⟩ := idx_facts5 ⟨(i 0).val / 5000, by rw [hN]; omega⟩
  rw [mem_blk5]
  intro a
  match a with
  | ⟨0, _⟩ =>
    show win5_5.index _ (0 : Fin 2) * 5000 ≤ (i 0).val ∧ (i 0).val < win5_5.index _ (0 : Fin 2) * 5000 + 5000
    rw [e0]
    show (i 0).val / 5000 * 5000 ≤ (i 0).val ∧ (i 0).val < (i 0).val / 5000 * 5000 + 5000
    omega
  | ⟨1, _⟩ =>
    show win5_5.index _ (1 : Fin 2) * 32 ≤ (i 1).val ∧ (i 1).val < win5_5.index _ (1 : Fin 2) * 32 + 32
    rw [e1]
    omega

/-- The array the region leaves is the whole-array function of the arrays it found. -/
theorem final5 : (dat5 (F := Ideal) V c).arrAt 5 cfg5.N
      = G5 (V c main_v87) (V c main_v97) (V c main_v98) (V c main_v99) (V c main_v100) :=
  (dat5 (F := Ideal) V c).arrAt_eq_of_cover 5 _ (fun t _ => flushed5_eq V c t) (cover5)

/-- The region's result at `(p, q)`, the arrays it found named by typed variables (`rfl` instantiates each). -/
theorem region5_apply_of (p : Fin 100000) (q : Fin 32)
    (H : S100000x32.Idx → EReal) (M W Gm B : S1x32.Idx → EReal)
    (hH : (V c main_v87 : S100000x32.Idx → EReal) = H) (hM : (V c main_v97 : S1x32.Idx → EReal) = M)
    (hW : (V c main_v98 : S1x32.Idx → EReal) = W) (hG : (V c main_v99 : S1x32.Idx → EReal) = Gm)
    (hB : (V c main_v100 : S1x32.Idx → EReal) = B) :
    ((dat5 (F := Ideal) V c).arrAt 5 cfg5.N : S100000x32.Idx → EReal) (ix2 p q)
      = max ((((H (ix2 p q) - M (ix2 (0 : Fin 1) q))
               * Ideal.rsqrt (W (ix2 (0 : Fin 1) q) + (Ideal.ofBits .f32 0x3727C5AC#32 : EReal)))
              * Gm (ix2 (0 : Fin 1) q)) + B (ix2 (0 : Fin 1) q))
            (Ideal.ofBits .f32 0x00000000#32 : EReal) := by
  subst hH hM hW hG hB
  rw [final5]
  exact G5_apply _ _ _ _ _ p q

/-- The region's result at `(p, q)` in the arrays it found. -/
theorem region5_apply (p : Fin 100000) (q : Fin 32) :
    type_of% (region5_apply_of V c p q _ _ _ _ _ rfl rfl rfl rfl rfl) :=
  region5_apply_of V c p q _ _ _ _ _ rfl rfl rfl rfl rfl

end Cert.Gcn.Norm

end
-- ==== Proof.VarBridge.lean ====
/-
  The one algebraic law of this certificate, first over the reals and then at the extended reals.

  For real numbers `x k`, `k` ranging over `n ≠ 0` indices: the mean of the squares minus the square of the mean is
  the mean of the squared deviations from the mean.  At the extended reals the two sides are computed by sums,
  products, differences and the quotient by the real `n`; when every `x k` is a real number every intermediate
  value is one too, and the identity is the real one.  (It fails at infinite entries: `⊤ - ⊤` is `⊥`.)
-/
import Idealize.ShloMosaic.PureOps.Ideal

open scoped BigOperators

namespace Cert.Gcn.VarBridge

open Finset Idealize.ShloMosaic

/-- Over the reals: `(∑ x²)/n - ((∑ x)/n)² = (∑ (x - (∑ x)/n)²)/n` when `n` is the number of indices. -/
theorem var_eq {ι : Type*} [Fintype ι] (x : ι → ℝ) (n : ℝ) (hn : n ≠ 0) (hcard : (Fintype.card ι : ℝ) = n) :
    (∑ k, x k * x k) / n - ((∑ k, x k) / n) * ((∑ k, x k) / n)
      = (∑ k, (x k - (∑ j, x j) / n) * (x k - (∑ j, x j) / n)) / n := by
  have h1 : ∑ k, (x k - (∑ j, x j) / n) * (x k - (∑ j, x j) / n)
      = (∑ k, x k * x k) - 2 * ((∑ j, x j) / n) * (∑ k, x k) + (Fintype.card ι : ℝ) * (((∑ j, x j) / n) * ((∑ j, x j) / n)) := by
    have : ∀ k, (x k - (∑ j, x j) / n) * (x k - (∑ j, x j) / n)
        = x k * x k - 2 * ((∑ j, x j) / n) * x k + ((∑ j, x j) / n) * ((∑ j, x j) / n) := fun k => by ring
    simp only [this, sum_add_distrib, sum_sub_distrib, ← mul_sum, sum_const, card_univ, nsmul_eq_mul]
    ring
  rw [h1, hcard]
  field_simp
  ring

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- At the extended reals, for entries that are all real: the quotient of the sum of squares by `n`, minus the square
    of the quotient of the sum by `n`, is the quotient by `n` of the sum of the squared deviations — each sum written
    as the host writes it, from the initial value zero. -/
theorem var_eq_ereal (n : ℕ) (hn : (n : ℝ) ≠ 0) (h : Fin n → EReal) (hr : ∀ k, ∃ r : ℝ, h k = (r : EReal)) :
    Ideal.div (∑ k, h k * h k) ((n : ℝ) : EReal)
        - Ideal.div (∑ k, h k) ((n : ℝ) : EReal) * Ideal.div (∑ k, h k) ((n : ℝ) : EReal)
      = Ideal.div (0 + ∑ k, (h k - Ideal.div (0 + ∑ j, h j) ((n : ℝ) : EReal))
                            * (h k - Ideal.div (0 + ∑ j, h j) ((n : ℝ) : EReal))) ((n : ℝ) : EReal) := by
  choose r hr using hr
  obtain rfl : h = fun k => (r k : EReal) := funext hr
  have hlaw := var_eq r (n : ℝ) hn (by simp)
  simp only [zero_add, Ideal.div_coe hn, ← EReal.coe_mul, ← coe_sum, ← EReal.coe_sub]
  rw [EReal.coe_eq_coe_iff]
  simp only [mul_one_div]
  exact hlaw

end Cert.Gcn.VarBridge
-- ==== Proof.Consts.lean ====
/- The float literals these programs spell, as the extended reals their bit patterns denote: the row count
   100000 (the divisor of the column means and variances), the exponent 2 of the squared deviation, and the
   positive number added to a variance before the reciprocal square root. Each pattern is a normal number
   (2^23 + fraction) * 2^(exponent - 127 - 23):
     0x47C35000: exponent 143, fraction 4411392:  12800000 * 2^(-7)  = 100000
     0x40000000: exponent 128, fraction 0:         8388608 * 2^(-22) = 2
     0x3727C5AC: exponent 110, fraction 2606508:  10995116 * 2^(-40), about 1.0e-5, positive. -/
import Idealize.ShloMosaic.PureOps.Ideal

noncomputable section

namespace Cert.Gcn.Consts

open Idealize.ShloMosaic

/-- The pattern 0x47C35000 denotes the real 100000. -/
theorem ofBits_1e5 : (Ideal.ofBits .f32 0x47C35000#32 : EReal) = ((100000 : ℝ) : EReal) := by
  simp [Ideal.ofBits, Ideal.ieee, -EReal.coe_mul]; norm_num

/-- The pattern 0x40000000 denotes the real 2. -/
theorem ofBits_two : (Ideal.ofBits .f32 0x40000000#32 : EReal) = ((2 : ℝ) : EReal) := by
  simp [Ideal.ofBits, Ideal.ieee, -EReal.coe_mul]; norm_num

/-- The pattern 0x3727C5AC denotes the dyadic 10995116 * 2^(-40). -/
theorem ofBits_eps_val :
    (Ideal.ofBits .f32 0x3727C5AC#32 : EReal) = (((10995116 : ℝ) * (2 : ℝ) ^ (-40 : ℤ) : ℝ) : EReal) := by
  simp [Ideal.ofBits, Ideal.ieee, -EReal.coe_mul]

/-- The pattern 0x3727C5AC denotes a positive real. -/
theorem ofBits_eps : ∃ e : ℝ, 0 < e ∧ (Ideal.ofBits .f32 0x3727C5AC#32 : EReal) = (e : EReal) :=
  ⟨(10995116 : ℝ) * (2 : ℝ) ^ (-40 : ℤ), by positivity, ofBits_eps_val⟩

end Cert.Gcn.Consts

end
-- ==== Proof.StatsBridge.lean ====
/-
  The two column statistics, as the kernel's host code forms them and as the reference does, in the programs' own
  literals: `N` is the word of `100000.0`, the sums' initial value the zero word.

  The kernel divides the column sum by `N` for the mean, and takes the variance as the column sum of squares over `N`
  less the squared mean.  The reference starts each sum from its initial value zero, and takes the variance as the sum
  of the squared deviations over `N`.  The means agree because `0 + s = s`; the variances agree when every entry of the
  column is a real number.
-/
import proofs.«178879_j29317446762855_1_alg».proof.Proof.VarBridge
import proofs.«178879_j29317446762855_1_alg».proof.Proof.Consts
import Idealize.ShloMosaic.PureOps.Ideal.Laws

open scoped BigOperators

namespace Cert.Gcn.StatsBridge

open Idealize.ShloMosaic

/-- The mean: the reference's sum starts from the zero word. -/
theorem mean_eq (h : Fin 100000 → EReal) :
    Ideal.div (∑ k, h k) (Ideal.ofBits .f32 0x47C35000#32 : EReal)
      = Ideal.div ((Ideal.ofBits .f32 0x00000000#32 : EReal) + ∑ k, h k) (Ideal.ofBits .f32 0x47C35000#32 : EReal) := by
  rw [Ideal.ofBits_zero_f32, zero_add]

/-- The variance: mean of squares less squared mean against mean of squared deviations, for a column of reals. -/
theorem var_eq (h : Fin 100000 → EReal) (hr : ∀ k, ∃ r : ℝ, h k = (r : EReal)) :
    Ideal.div (∑ k, h k * h k) (Ideal.ofBits .f32 0x47C35000#32 : EReal)
        - Ideal.div (∑ k, h k) (Ideal.ofBits .f32 0x47C35000#32 : EReal)
          * Ideal.div (∑ k, h k) (Ideal.ofBits .f32 0x47C35000#32 : EReal)
      = Ideal.div ((Ideal.ofBits .f32 0x00000000#32 : EReal)
          + ∑ k, (h k - Ideal.div ((Ideal.ofBits .f32 0x00000000#32 : EReal) + ∑ j, h j) (Ideal.ofBits .f32 0x47C35000#32 : EReal))
              * (h k - Ideal.div ((Ideal.ofBits .f32 0x00000000#32 : EReal) + ∑ j, h j) (Ideal.ofBits .f32 0x47C35000#32 : EReal)))
          (Ideal.ofBits .f32 0x47C35000#32 : EReal) := by
  have key := Cert.Gcn.VarBridge.var_eq_ereal 100000 (by norm_num) h hr
  rw [show ((100000 : ℕ) : ℝ) = (100000 : ℝ) from by norm_num] at key
  rw [Cert.Gcn.Consts.ofBits_1e5, Ideal.ofBits_zero_f32]
  exact key

end Cert.Gcn.StatsBridge
-- ==== Proof.RefNorm1.lean ====
/-
  The reference's first batch normalisation, relu and residual, read at an entry.

  With `H` the first graph convolution's output, column `q` has mean `μ = (0 + ∑ₖ H(k,q)) / N` and variance
  `(0 + ∑ₖ (H(k,q) - μ)²) / N`; entry `(p, q)` of the result is
  `max (((H(p,q) - μ) · rsqrt (var + ε)) · g q + β q, 0) + x(p,q)`.
-/
import proofs.«178879_j29317446762855_1_alg».proof.Proof.RefStages
import Idealize.ShloMosaic.Lib.ValueIdx

set_option maxRecDepth 16384

noncomputable section

open scoped BigOperators

namespace Cert.Gcn.RefNorm

open Cert.ReferenceIdeal Cert.ReferenceIdeal.Read Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S1600000, .f32⟩ : BufTy).Contents (Elt Ideal)) (x3 : (⟨S64x64, .f32⟩ : BufTy).Contents (Elt Ideal))
  (x4 x5 x6 : (⟨S64, .f32⟩ : BufTy).Contents (Elt Ideal))

/-- The column mean of the first convolution's output. -/
def mean1 (q : Fin 64) : EReal :=
  Ideal.div ((Ideal.ofBits .f32 0x00000000#32 : EReal)
      + ∑ k : Fin 100000, val_main_v52 (F := Ideal) x0 x1 x2 x3 x4 (ix2 k q)) (Ideal.ofBits .f32 0x47C35000#32 : EReal)

/-- The column variance of the first convolution's output, as the mean of the squared deviations. -/
def var1 (q : Fin 64) : EReal :=
  Ideal.div ((Ideal.ofBits .f32 0x00000000#32 : EReal)
      + ∑ k : Fin 100000, (val_main_v52 (F := Ideal) x0 x1 x2 x3 x4 (ix2 k q) - mean1 x0 x1 x2 x3 x4 q)
          * (val_main_v52 (F := Ideal) x0 x1 x2 x3 x4 (ix2 k q) - mean1 x0 x1 x2 x3 x4 q))
    (Ideal.ofBits .f32 0x47C35000#32 : EReal)

theorem idx53 (q : Fin 64) (k : Fin 100000) : idx_main_v53 (ix1 q) k = ix2 k q :=
  funext fun a => Fin.ext (by match a with | ⟨0, _⟩ => rfl | ⟨1, _⟩ => rfl)
theorem idx60 (q : Fin 64) (k : Fin 100000) : idx_main_v60 (ix1 q) k = ix2 k q :=
  funext fun a => Fin.ext (by match a with | ⟨0, _⟩ => rfl | ⟨1, _⟩ => rfl)
theorem idx57 (p : Fin 100000) (q : Fin 64) : idx_main_v56 (idx_main_v57 (ix2 p q)) = ix1 q :=
  funext fun a => Fin.ext (by match a with | ⟨0, _⟩ => rfl)
theorem idx64 (p : Fin 100000) (q : Fin 64) : idx_main_v63 (idx_main_v64 (ix2 p q)) = ix1 q :=
  funext fun a => Fin.ext (by match a with | ⟨0, _⟩ => rfl)
theorem idx70 (p : Fin 100000) (q : Fin 64) : idx_main_v69 (idx_main_v70 (ix2 p q)) = ix1 q :=
  funext fun a => Fin.ext (by match a with | ⟨0, _⟩ => rfl)
theorem idx73 (p : Fin 100000) (q : Fin 64) : idx_main_v72 (idx_main_v73 (ix2 p q)) = ix1 q :=
  funext fun a => Fin.ext (by match a with | ⟨0, _⟩ => rfl)
theorem idx76 (p : Fin 100000) (q : Fin 64) : idx_main_v75 (idx_main_v76 (ix2 p q)) = ix1 q :=
  funext fun a => Fin.ext (by match a with | ⟨0, _⟩ => rfl)

/-- The column mean, as the reference's stage. -/
theorem v55_apply (q : Fin 64) : val_main_v55 (F := Ideal) x0 x1 x2 x3 x4 (ix1 q) = mean1 x0 x1 x2 x3 x4 q := by
  rw [val_main_v55_apply, val_main_v53_apply, val_main_v54_apply, val_main_cst_11_apply, val_main_cst_10_apply,
    Finset.sum_congr rfl (fun k _ => congrArg (val_main_v52 (F := Ideal) x0 x1 x2 x3 x4) (idx53 q k))]
  rfl

/-- The first convolution's output less its column mean, at an entry. -/
theorem v58_apply (k : Fin 100000) (q : Fin 64) :
    val_main_v58 (F := Ideal) x0 x1 x2 x3 x4 (ix2 k q)
      = val_main_v52 (F := Ideal) x0 x1 x2 x3 x4 (ix2 k q) - mean1 x0 x1 x2 x3 x4 q := by
  rw [val_main_v58_apply, val_main_v57_apply, val_main_v56_apply, idx57, v55_apply]
  rfl

/-- The squared deviation, at the index the column sum reads. -/
theorem v59_at (q : Fin 64) (k : Fin 100000) :
    val_main_v59 (F := Ideal) x0 x1 x2 x3 x4 (idx_main_v60 (ix1 q) k)
      = (val_main_v52 (F := Ideal) x0 x1 x2 x3 x4 (ix2 k q) - mean1 x0 x1 x2 x3 x4 q)
        * (val_main_v52 (F := Ideal) x0 x1 x2 x3 x4 (ix2 k q) - mean1 x0 x1 x2 x3 x4 q) := by
  rw [idx60, val_main_v59_apply, v58_apply]
  rfl

/-- The column variance, as the reference's stage. -/
theorem v62_apply (q : Fin 64) : val_main_v62 (F := Ideal) x0 x1 x2 x3 x4 (ix1 q) = var1 x0 x1 x2 x3 x4 q := by
  rw [val_main_v62_apply, val_main_v60_apply, val_main_v61_apply, val_main_cst_13_apply, val_main_cst_12_apply,
    Finset.sum_congr rfl (fun k _ => v59_at x0 x1 x2 x3 x4 q k)]
  rfl

/-- The reference's first normalised, rectified, residual-added array at an entry. -/
theorem v79_apply (p : Fin 100000) (q : Fin 64) :
    val_main_v79 (F := Ideal) x0 x1 x2 x3 x4 x5 x6 (ix2 p q)
      = max ((((val_main_v52 (F := Ideal) x0 x1 x2 x3 x4 (ix2 p q) - mean1 x0 x1 x2 x3 x4 q)
                * Ideal.rsqrt (var1 x0 x1 x2 x3 x4 q + (Ideal.ofBits .f32 0x3727C5AC#32 : EReal)))
               * x5 (ix1 q)) + x6 (ix1 q))
            (Ideal.ofBits .f32 0x00000000#32 : EReal)
        + x0 (ix2 p q) := by
  rw [val_main_v79_apply, val_main_v78_apply, val_main_v77_apply, val_main_v74_apply, val_main_v71_apply,
    val_main_v65_apply, val_main_v64_apply, val_main_v63_apply, idx64, v55_apply,
    val_main_v70_apply, val_main_v69_apply, idx70, val_main_v68_apply, val_main_v67_apply, v62_apply,
    val_main_v66_apply, val_main_cst_14_apply,
    val_main_v73_apply, val_main_v72_apply, idx73, val_main_v76_apply, val_main_v75_apply, idx76,
    val_main_call1_v0_apply, val_main_call1_cst_apply]
  simp only [Ideal.addf_def, Ideal.mulf_def, Ideal.subf_def, Ideal.maximumf_def, Ideal.hostUnary_rsqrt_def, Ideal.ofBits_def]

end Cert.Gcn.RefNorm

end
-- ==== Proof.FoldNorm1.lean ====
/-
  The first normalisation region's output is the reference's first normalised, rectified, residual-added array.

  The region computes, at entry `(p, q)`, `max (((h - mean q) · rsqrt (var q + ε)) · g q + β q, 0) + x` from the first
  convolution's output `h`, the rows `mean`, `var`, `g`, `β` the host laid out, and the node features `x`.  The host took
  `mean q = S₁ q / N` and `var q = S₂ q / N - mean q²` from the column-sum region's outputs, which are the column sums of
  `h` and of `h²`.  The reference's mean is the same quotient (its sum starts from zero) and its variance is the mean of
  the squared deviations: the same number when every entry of `h` is real.
-/
import proofs.«178879_j29317446762855_1_alg».proof.Proof.FoldConv1
import proofs.«178879_j29317446762855_1_alg».proof.Proof.FoldStats1
import proofs.«178879_j29317446762855_1_alg».proof.Proof.SumRegions
import proofs.«178879_j29317446762855_1_alg».proof.Proof.NormRegions
import proofs.«178879_j29317446762855_1_alg».proof.Proof.StatsBridge
import proofs.«178879_j29317446762855_1_alg».proof.Proof.RefNorm1

set_option maxRecDepth 16384

noncomputable section

open scoped BigOperators

namespace Cert.Gcn.Fold

open Cert.KernelIdeal Cert.KernelIdeal.Gen Idealize.ShloMosaic Idealize.ShloMosaic.TcCoe Idealize.SL.Sem
open Idealize.ShloMosaic.ValueIdx
open Cert.ReferenceIdeal.Read

variable (m : (ℓ : Loc nD τ sig) → Buf (Elt Ideal) ℓ) (ρ : Dev nD → PrngReg) (c : Dev nD)

/-- The first convolution's output: the reference's stage of the launch contents. -/
def H1 : S100000x64.Idx → EReal :=
  val_main_v52 (F := Ideal) (A m c main_arg0) (A m c main_arg1) (A m c main_arg2) (A m c main_arg3) (A m c main_arg4)

/-- The column sums, from the first column-sum region. -/
theorem W6_v53_0_apply (h52 : W5 m ρ c (Proc.devRef .tc main_v52) = H1 m c) (q : Fin 64) :
    (W6 m ρ c (Proc.devRef .tc main_v53_0) : S1x64.Idx → EReal) (ix2 (0 : Fin 1) q)
      = ∑ p : Fin 100000, H1 m c (ix2 p q) :=
  (congrFun (W6_arr m ρ c 1) _).trans (Cert.Gcn.Sums.region1_sum_of (V5 m ρ) c (H1 m c) h52 q)

/-- The column sums of squares, from the first column-sum region. -/
theorem W6_v53_1_apply (h52 : W5 m ρ c (Proc.devRef .tc main_v52) = H1 m c) (q : Fin 64) :
    (W6 m ρ c (Proc.devRef .tc main_v53_1) : S1x64.Idx → EReal) (ix2 (0 : Fin 1) q)
      = ∑ p : Fin 100000, H1 m c (ix2 p q) * H1 m c (ix2 p q) :=
  (congrFun (W6_arr m ρ c 2) _).trans (Cert.Gcn.Sums.region1_sumsq_of (V5 m ρ) c (H1 m c) h52 q)

/-- The first normalisation region's output is the reference's stage. -/
theorem W8_v66 (h52 : W5 m ρ c (Proc.devRef .tc main_v52) = H1 m c)
    (hreal : ∀ i, ∃ r : ℝ, H1 m c i = (r : EReal)) :
    W8 m ρ c (Proc.devRef .tc main_v66) = val_main_v79 (F := Ideal) (A m c main_arg0) (A m c main_arg1) (A m c main_arg2) (A m c main_arg3) (A m c main_arg4) (A m c main_arg5) (A m c main_arg6) := by
  refine (W8_arr m ρ c 6).trans ?_
  funext j
  obtain ⟨p, q, rfl⟩ : ∃ (p : Fin 100000) (q : Fin 64), j = ix2 p q := ⟨j 0, j 1, eq_ix2 j⟩
  refine (Cert.Gcn.Norm.region2_apply_of (V7 m ρ) c p q (H1 m c)
      (W7 m ρ c (Proc.devRef .tc main_v62)) (W7 m ρ c (Proc.devRef .tc main_v63))
      (W7 m ρ c (Proc.devRef .tc main_v64)) (W7 m ρ c (Proc.devRef .tc main_v65)) (A m c main_arg0)
      ((W7_v52 m ρ c).trans h52) rfl rfl rfl rfl (W7_arg0 m ρ c)).trans ?_
  rw [W7_v62_apply, W7_v63_apply, W7_v64_apply, W7_v65_apply, W6_arg5, W6_arg6,
    W6_v53_0_apply m ρ c h52, W6_v53_1_apply m ρ c h52, Cert.Gcn.RefNorm.v79_apply,
    Cert.Gcn.StatsBridge.var_eq (fun k => H1 m c (ix2 k q)) (fun k => hreal (ix2 k q)),
    Cert.Gcn.StatsBridge.mean_eq (fun k => H1 m c (ix2 k q))]
  rfl

end Cert.Gcn.Fold

end
-- ==== Proof.FoldConv2.lean ====
/-
  The second graph convolution's output, as the second column-sum region finds it: the same host operations as the
  first — gather the product's rows at the source nodes, scale by the edge norm, scatter-add at the target nodes, add the
  self term and the bias — on the second matmul region's product.  The reference recomputes the edge norm and the self
  coefficient for this layer by the same operations on the same two arguments.
-/
import proofs.«178879_j29317446762855_1_alg».proof.Proof.FoldPre
import Idealize.ShloMosaic.Lib.StableHlo.Run

set_option maxRecDepth 16384

noncomputable section

open scoped BigOperators

namespace Cert.Gcn.Fold

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg) (c : Dev nD)

theorem W9_v1 : W9 m ρ c (Proc.devRef .tc main_v1) = val_main_v1 (F := Ideal) (A m c main_arg1) :=
  (W9_v1_eq m ρ c).trans (W3_v1 m ρ c)
theorem W9_v3 : W9 m ρ c (Proc.devRef .tc main_v3) = val_main_v3 (F := Ideal) (A m c main_arg1) :=
  (W9_v3_eq m ρ c).trans (W3_v3 m ρ c)
theorem W9_v28 : W9 m ρ c (Proc.devRef .tc main_v28) = val_main_v29 (F := Ideal) (A m c main_arg1) (A m c main_arg2) :=
  (W9_v28_eq m ρ c).trans (W3_v28 m ρ c)
theorem W9_v31 : W9 m ρ c (Proc.devRef .tc main_v31) = val_main_v45 (F := Ideal) (A m c main_arg1) (A m c main_arg2) :=
  (W9_v31_eq m ρ c).trans (W3_v31 m ρ c)

/-- The second graph convolution's output is the reference's, given the second matmul region's product. -/
theorem W10_v87
    (h67 : W9 m ρ c (Proc.devRef .tc main_v67) = val_main_v80 (F := Ideal) (A m c main_arg0) (A m c main_arg1) (A m c main_arg2) (A m c main_arg3) (A m c main_arg4) (A m c main_arg5) (A m c main_arg6) (A m c main_arg7)) :
    W10 m ρ c (Proc.devRef .tc main_v87) = val_main_v128 (F := Ideal) (A m c main_arg0) (A m c main_arg1) (A m c main_arg2) (A m c main_arg3) (A m c main_arg4) (A m c main_arg5) (A m c main_arg6) (A m c main_arg7) (A m c main_arg8) := by
  show StableHlo.after hostOps4 (W9 m ρ c) (Proc.devRef .tc main_v87) = _
  dsimp only [hostOps4]
  after_results_simp
  rw [W9_v1, W9_v3, W9_v28, W9_v31, W9_arg8, h67]
  rfl

end Cert.Gcn.Fold

end
-- ==== Proof.FoldStats2.lean ====
/-
  Between the second column-sum region and the second normalisation region the host forms, per column `q`, the mean
  `S₁ q / N` and the variance `S₂ q / N - (S₁ q / N)²` from the region's two outputs `S₁` (the column sums) and `S₂`
  (the column sums of squares), and lays them, the scale and the shift out as rows `[1, 32]`.
-/
import proofs.«178879_j29317446762855_1_alg».proof.Proof.Gen.KernelIdeal.Frame
import Idealize.ShloMosaic.Lib.ValueIdx
import Idealize.ShloMosaic.Lib.ValueLayout
import Idealize.ShloMosaic.Lib.StableHlo.Run

set_option maxRecDepth 16384

noncomputable section

namespace Cert.Gcn.Fold

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-- The scalar `N = 100000` broadcast to a vector, at an index. -/
theorem bcast_N_apply32 (q : Fin 32) :
    (broadcastInDim S32 ![] bcast_S_S32 (constant (F := Ideal) S_ .f32 0x47C35000#32) : S32.Idx → EReal) (ix1 q)
      = (Ideal.ofBits .f32 0x47C35000#32 : EReal) :=
  broadcastInDim_apply _ bcast_S_S32 _ (ix1 q) ix0 (fun a => a.elim0)

/-- The mean row at column `q`: the column sum over `N`. -/
theorem W12_v97_apply (q : Fin 32) :
    (W12 m ρ c (Proc.devRef .tc main_v97) : S1x32.Idx → EReal) (ix2 (0 : Fin 1) q)
      = Ideal.div ((W11 m ρ c (Proc.devRef .tc main_v88_0) : S1x32.Idx → EReal) (ix2 (0 : Fin 1) q))
          (Ideal.ofBits .f32 0x47C35000#32 : EReal) := by
  show StableHlo.after hostOps5 (W11 m ρ c) (Proc.devRef .tc main_v97) (ix2 (0 : Fin 1) q) = _
  dsimp only [hostOps5]
  after_results_simp
  refine (shapeCast_a_1a_apply (a := 32) _ shapeCasts_S32_S1x32 (0 : Fin 1) q).trans ?_
  exact congrArg₂ Ideal.div
    (shapeCast_1a_a_apply (a := 32) (W11 m ρ c (Proc.devRef .tc main_v88_0)) shapeCasts_S1x32_S32 q) (bcast_N_apply32 q)

/-- The variance row at column `q`: the column sum of squares over `N`, less the squared mean. -/
theorem W12_v98_apply (q : Fin 32) :
    (W12 m ρ c (Proc.devRef .tc main_v98) : S1x32.Idx → EReal) (ix2 (0 : Fin 1) q)
      = Ideal.div ((W11 m ρ c (Proc.devRef .tc main_v88_1) : S1x32.Idx → EReal) (ix2 (0 : Fin 1) q))
            (Ideal.ofBits .f32 0x47C35000#32 : EReal)
        - Ideal.div ((W11 m ρ c (Proc.devRef .tc main_v88_0) : S1x32.Idx → EReal) (ix2 (0 : Fin 1) q))
              (Ideal.ofBits .f32 0x47C35000#32 : EReal)
          * Ideal.div ((W11 m ρ c (Proc.devRef .tc main_v88_0) : S1x32.Idx → EReal) (ix2 (0 : Fin 1) q))
              (Ideal.ofBits .f32 0x47C35000#32 : EReal) := by
  show StableHlo.after hostOps5 (W11 m ρ c) (Proc.devRef .tc main_v98) (ix2 (0 : Fin 1) q) = _
  dsimp only [hostOps5]
  after_results_simp
  refine (shapeCast_a_1a_apply (a := 32) _ shapeCasts_S32_S1x32 (0 : Fin 1) q).trans ?_
  have e0 : Ideal.div (shapeCast (⟨1, ![32]⟩ : Shape) (W11 m ρ c (Proc.devRef .tc main_v88_0)) shapeCasts_S1x32_S32 (ix1 q))
      ((broadcastInDim S32 ![] bcast_S_S32 (constant (F := Ideal) S_ .f32 0x47C35000#32) : S32.Idx → EReal) (ix1 q))
      = Ideal.div ((W11 m ρ c (Proc.devRef .tc main_v88_0) : S1x32.Idx → EReal) (ix2 (0 : Fin 1) q))
          (Ideal.ofBits .f32 0x47C35000#32 : EReal) :=
    congrArg₂ Ideal.div
      (shapeCast_1a_a_apply (a := 32) (W11 m ρ c (Proc.devRef .tc main_v88_0)) shapeCasts_S1x32_S32 q) (bcast_N_apply32 q)
  have e1 : Ideal.div (shapeCast (⟨1, ![32]⟩ : Shape) (W11 m ρ c (Proc.devRef .tc main_v88_1)) shapeCasts_S1x32_S32 (ix1 q))
      ((broadcastInDim S32 ![] bcast_S_S32 (constant (F := Ideal) S_ .f32 0x47C35000#32) : S32.Idx → EReal) (ix1 q))
      = Ideal.div ((W11 m ρ c (Proc.devRef .tc main_v88_1) : S1x32.Idx → EReal) (ix2 (0 : Fin 1) q))
          (Ideal.ofBits .f32 0x47C35000#32 : EReal) :=
    congrArg₂ Ideal.div
      (shapeCast_1a_a_apply (a := 32) (W11 m ρ c (Proc.devRef .tc main_v88_1)) shapeCasts_S1x32_S32 q) (bcast_N_apply32 q)
  exact congrArg₂ (fun a b : EReal => a - b * b) e1 e0

/-- The scale row at column `q`, as the region's entry finds the scale argument. -/
theorem W12_v99_apply (q : Fin 32) :
    (W12 m ρ c (Proc.devRef .tc main_v99) : S1x32.Idx → EReal) (ix2 (0 : Fin 1) q)
      = (W11 m ρ c (Proc.devRef .tc main_arg9) : S32.Idx → EReal) (ix1 q) := by
  show StableHlo.after hostOps5 (W11 m ρ c) (Proc.devRef .tc main_v99) (ix2 (0 : Fin 1) q) = _
  dsimp only [hostOps5]
  after_results_simp
  exact shapeCast_a_1a_apply _ _ _ _

/-- The shift row at column `q`. -/
theorem W12_v100_apply (q : Fin 32) :
    (W12 m ρ c (Proc.devRef .tc main_v100) : S1x32.Idx → EReal) (ix2 (0 : Fin 1) q)
      = (W11 m ρ c (Proc.devRef .tc main_arg10) : S32.Idx → EReal) (ix1 q) := by
  show StableHlo.after hostOps5 (W11 m ρ c) (Proc.devRef .tc main_v100) (ix2 (0 : Fin 1) q) = _
  dsimp only [hostOps5]
  after_results_simp
  exact shapeCast_a_1a_apply _ _ _ _

end Cert.Gcn.Fold

end
-- ==== Proof.RefNorm2.lean ====
/-
  The reference's second batch normalisation and relu, read at an entry.

  With `H` the second graph convolution's output, column `q` has mean `μ = (0 + ∑ₖ H(k,q)) / N` and variance
  `(0 + ∑ₖ (H(k,q) - μ)²) / N`; entry `(p, q)` of the result is
  `max (((H(p,q) - μ) · rsqrt (var + ε)) · g q + β q, 0)`.
-/
import proofs.«178879_j29317446762855_1_alg».proof.Proof.RefStages
import Idealize.ShloMosaic.Lib.ValueIdx

set_option maxRecDepth 16384

noncomputable section

open scoped BigOperators

namespace Cert.Gcn.RefNorm2

open Cert.ReferenceIdeal Cert.ReferenceIdeal.Read Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S1600000, .f32⟩ : BufTy).Contents (Elt Ideal)) (x3 : (⟨S64x64, .f32⟩ : BufTy).Contents (Elt Ideal))
  (x4 x5 x6 : (⟨S64, .f32⟩ : BufTy).Contents (Elt Ideal)) (x7 : (⟨S64x32, .f32⟩ : BufTy).Contents (Elt Ideal))
  (x8 x9 x10 : (⟨S32, .f32⟩ : BufTy).Contents (Elt Ideal))

/-- The column mean of the second convolution's output. -/
def mean2 (q : Fin 32) : EReal :=
  Ideal.div ((Ideal.ofBits .f32 0x00000000#32 : EReal)
      + ∑ k : Fin 100000, val_main_v128 (F := Ideal) x0 x1 x2 x3 x4 x5 x6 x7 x8 (ix2 k q)) (Ideal.ofBits .f32 0x47C35000#32 : EReal)

/-- The column variance of the second convolution's output, as the mean of the squared deviations. -/
def var2 (q : Fin 32) : EReal :=
  Ideal.div ((Ideal.ofBits .f32 0x00000000#32 : EReal)
      + ∑ k : Fin 100000, (val_main_v128 (F := Ideal) x0 x1 x2 x3 x4 x5 x6 x7 x8 (ix2 k q) - mean2 x0 x1 x2 x3 x4 x5 x6 x7 x8 q)
          * (val_main_v128 (F := Ideal) x0 x1 x2 x3 x4 x5 x6 x7 x8 (ix2 k q) - mean2 x0 x1 x2 x3 x4 x5 x6 x7 x8 q))
    (Ideal.ofBits .f32 0x47C35000#32 : EReal)

theorem idxb53 (q : Fin 32) (k : Fin 100000) : idx_main_v129 (ix1 q) k = ix2 k q :=
  funext fun a => Fin.ext (by match a with | ⟨0, _⟩ => rfl | ⟨1, _⟩ => rfl)
theorem idxb60 (q : Fin 32) (k : Fin 100000) : idx_main_v136 (ix1 q) k = ix2 k q :=
  funext fun a => Fin.ext (by match a with | ⟨0, _⟩ => rfl | ⟨1, _⟩ => rfl)
theorem idxb57 (p : Fin 100000) (q : Fin 32) : idx_main_v132 (idx_main_v133 (ix2 p q)) = ix1 q :=
  funext fun a => Fin.ext (by match a with | ⟨0, _⟩ => rfl)
theorem idxb64 (p : Fin 100000) (q : Fin 32) : idx_main_v139 (idx_main_v140 (ix2 p q)) = ix1 q :=
  funext fun a => Fin.ext (by match a with | ⟨0, _⟩ => rfl)
theorem idxb70 (p : Fin 100000) (q : Fin 32) : idx_main_v145 (idx_main_v146 (ix2 p q)) = ix1 q :=
  funext fun a => Fin.ext (by match a with | ⟨0, _⟩ => rfl)
theorem idxb73 (p : Fin 100000) (q : Fin 32) : idx_main_v148 (idx_main_v149 (ix2 p q)) = ix1 q :=
  funext fun a => Fin.ext (by match a with | ⟨0, _⟩ => rfl)
theorem idxb76 (p : Fin 100000) (q : Fin 32) : idx_main_v151 (idx_main_v152 (ix2 p q)) = ix1 q :=
  funext fun a => Fin.ext (by match a with | ⟨0, _⟩ => rfl)

/-- The column mean, as the reference's stage. -/
theorem v131_apply (q : Fin 32) : val_main_v131 (F := Ideal) x0 x1 x2 x3 x4 x5 x6 x7 x8 (ix1 q) = mean2 x0 x1 x2 x3 x4 x5 x6 x7 x8 q := by
  rw [val_main_v131_apply, val_main_v129_apply, val_main_v130_apply, val_main_cst_28_apply, val_main_cst_27_apply,
    Finset.sum_congr rfl (fun k _ => congrArg (val_main_v128 (F := Ideal) x0 x1 x2 x3 x4 x5 x6 x7 x8) (idxb53 q k))]
  rfl

/-- The second convolution's output less its column mean, at an entry. -/
theorem v134_apply (k : Fin 100000) (q : Fin 32) :
    val_main_v134 (F := Ideal) x0 x1 x2 x3 x4 x5 x6 x7 x8 (ix2 k q)
      = val_main_v128 (F := Ideal) x0 x1 x2 x3 x4 x5 x6 x7 x8 (ix2 k q) - mean2 x0 x1 x2 x3 x4 x5 x6 x7 x8 q := by
  rw [val_main_v134_apply, val_main_v133_apply, val_main_v132_apply, idxb57, v131_apply]
  rfl

/-- The squared deviation, at the index the column sum reads. -/
theorem v135_at (q : Fin 32) (k : Fin 100000) :
    val_main_v135 (F := Ideal) x0 x1 x2 x3 x4 x5 x6 x7 x8 (idx_main_v136 (ix1 q) k)
      = (val_main_v128 (F := Ideal) x0 x1 x2 x3 x4 x5 x6 x7 x8 (ix2 k q) - mean2 x0 x1 x2 x3 x4 x5 x6 x7 x8 q)
        * (val_main_v128 (F := Ideal) x0 x1 x2 x3 x4 x5 x6 x7 x8 (ix2 k q) - mean2 x0 x1 x2 x3 x4 x5 x6 x7 x8 q) := by
  rw [idxb60, val_main_v135_apply, v134_apply]
  rfl

/-- The column variance, as the reference's stage. -/
theorem v138_apply (q : Fin 32) : val_main_v138 (F := Ideal) x0 x1 x2 x3 x4 x5 x6 x7 x8 (ix1 q) = var2 x0 x1 x2 x3 x4 x5 x6 x7 x8 q := by
  rw [val_main_v138_apply, val_main_v136_apply, val_main_v137_apply, val_main_cst_30_apply, val_main_cst_29_apply,
    Finset.sum_congr rfl (fun k _ => v135_at x0 x1 x2 x3 x4 x5 x6 x7 x8 q k)]
  rfl

/-- The reference's second normalised, rectified array at an entry. -/
theorem v154_apply (p : Fin 100000) (q : Fin 32) :
    val_main_v154 (F := Ideal) x0 x1 x2 x3 x4 x5 x6 x7 x8 x9 x10 (ix2 p q)
      = max ((((val_main_v128 (F := Ideal) x0 x1 x2 x3 x4 x5 x6 x7 x8 (ix2 p q) - mean2 x0 x1 x2 x3 x4 x5 x6 x7 x8 q)
                * Ideal.rsqrt (var2 x0 x1 x2 x3 x4 x5 x6 x7 x8 q + (Ideal.ofBits .f32 0x3727C5AC#32 : EReal)))
               * x9 (ix1 q)) + x10 (ix1 q))
            (Ideal.ofBits .f32 0x00000000#32 : EReal) := by
  rw [val_main_v154_apply, val_main_v153_apply, val_main_v150_apply, val_main_v147_apply,
    val_main_v141_apply, val_main_v140_apply, val_main_v139_apply, idxb64, v131_apply,
    val_main_v146_apply, val_main_v145_apply, idxb70, val_main_v144_apply, val_main_v143_apply, v138_apply,
    val_main_v142_apply, val_main_cst_31_apply,
    val_main_v149_apply, val_main_v148_apply, idxb73, val_main_v152_apply, val_main_v151_apply, idxb76,
    val_main_call3_v0_apply, val_main_call3_cst_apply]
  simp only [Ideal.addf_def, Ideal.mulf_def, Ideal.subf_def, Ideal.maximumf_def, Ideal.hostUnary_rsqrt_def, Ideal.ofBits_def]

end Cert.Gcn.RefNorm2

end
-- ==== Proof.FoldNorm2.lean ====
/-
  The second normalisation region's output is the reference's second normalised, rectified array.

  The region computes, at entry `(p, q)`, `max (((h - mean q) · rsqrt (var q + ε)) · g q + β q, 0)` from the second
  convolution's output `h` and the rows `mean`, `var`, `g`, `β` the host laid out.  The host took
  `mean q = S₁ q / N` and `var q = S₂ q / N - mean q²` from the column-sum region's outputs, which are the column sums of
  `h` and of `h²`.  The reference's mean is the same quotient (its sum starts from zero) and its variance is the mean of
  the squared deviations: the same number when every entry of `h` is real.
-/
import proofs.«178879_j29317446762855_1_alg».proof.Proof.FoldConv2
import proofs.«178879_j29317446762855_1_alg».proof.Proof.FoldStats2
import proofs.«178879_j29317446762855_1_alg».proof.Proof.SumRegions
import proofs.«178879_j29317446762855_1_alg».proof.Proof.NormRegions
import proofs.«178879_j29317446762855_1_alg».proof.Proof.StatsBridge
import proofs.«178879_j29317446762855_1_alg».proof.Proof.RefNorm2

set_option maxRecDepth 16384

noncomputable section

open scoped BigOperators

namespace Cert.Gcn.Fold

open Cert.KernelIdeal Cert.KernelIdeal.Gen Idealize.ShloMosaic Idealize.ShloMosaic.TcCoe Idealize.SL.Sem
open Idealize.ShloMosaic.ValueIdx
open Cert.ReferenceIdeal.Read

variable (m : (ℓ : Loc nD τ sig) → Buf (Elt Ideal) ℓ) (ρ : Dev nD → PrngReg) (c : Dev nD)

/-- The second convolution's output: the reference's stage of the launch contents. -/
def H2 : S100000x32.Idx → EReal :=
  val_main_v128 (F := Ideal) (A m c main_arg0) (A m c main_arg1) (A m c main_arg2) (A m c main_arg3) (A m c main_arg4) (A m c main_arg5) (A m c main_arg6) (A m c main_arg7) (A m c main_arg8)

/-- The column sums, from the second column-sum region. -/
theorem W11_v88_0_apply (h87 : W10 m ρ c (Proc.devRef .tc main_v87) = H2 m c) (q : Fin 32) :
    (W11 m ρ c (Proc.devRef .tc main_v88_0) : S1x32.Idx → EReal) (ix2 (0 : Fin 1) q)
      = ∑ p : Fin 100000, H2 m c (ix2 p q) :=
  (congrFun (W11_arr m ρ c 1) _).trans (Cert.Gcn.Sums.region4_sum_of (V10 m ρ) c (H2 m c) h87 q)

/-- The column sums of squares, from the second column-sum region. -/
theorem W11_v88_1_apply (h87 : W10 m ρ c (Proc.devRef .tc main_v87) = H2 m c) (q : Fin 32) :
    (W11 m ρ c (Proc.devRef .tc main_v88_1) : S1x32.Idx → EReal) (ix2 (0 : Fin 1) q)
      = ∑ p : Fin 100000, H2 m c (ix2 p q) * H2 m c (ix2 p q) :=
  (congrFun (W11_arr m ρ c 2) _).trans (Cert.Gcn.Sums.region4_sumsq_of (V10 m ρ) c (H2 m c) h87 q)

/-- The second normalisation region's output is the reference's stage. -/
theorem W13_v101 (h87 : W10 m ρ c (Proc.devRef .tc main_v87) = H2 m c)
    (hreal : ∀ i, ∃ r : ℝ, H2 m c i = (r : EReal)) :
    W13 m ρ c (Proc.devRef .tc main_v101) = val_main_v154 (F := Ideal) (A m c main_arg0) (A m c main_arg1) (A m c main_arg2) (A m c main_arg3) (A m c main_arg4) (A m c main_arg5) (A m c main_arg6) (A m c main_arg7) (A m c main_arg8) (A m c main_arg9) (A m c main_arg10) := by
  refine (W13_arr m ρ c 5).trans ?_
  funext j
  obtain ⟨p, q, rfl⟩ : ∃ (p : Fin 100000) (q : Fin 32), j = ix2 p q := ⟨j 0, j 1, eq_ix2 j⟩
  refine (Cert.Gcn.Norm.region5_apply_of (V12 m ρ) c p q (H2 m c)
      (W12 m ρ c (Proc.devRef .tc main_v97)) (W12 m ρ c (Proc.devRef .tc main_v98))
      (W12 m ρ c (Proc.devRef .tc main_v99)) (W12 m ρ c (Proc.devRef .tc main_v100))
      ((W12_v87 m ρ c).trans h87) rfl rfl rfl rfl).trans ?_
  rw [W12_v97_apply, W12_v98_apply, W12_v99_apply, W12_v100_apply, W11_arg9, W11_arg10,
    W11_v88_0_apply m ρ c h87, W11_v88_1_apply m ρ c h87, Cert.Gcn.RefNorm2.v154_apply,
    Cert.Gcn.StatsBridge.var_eq (fun k => H2 m c (ix2 k q)) (fun k => hreal (ix2 k q)),
    Cert.Gcn.StatsBridge.mean_eq (fun k => H2 m c (ix2 k q))]
  rfl

end Cert.Gcn.Fold

end
-- ==== Proof.FoldTail.lean ====
/-
  The third graph convolution, the mean over the nodes and the dense tail: host operations only, the same on both sides,
  on the third matmul region's product.  Three stretches: the convolution, the node mean and the first dense layer with its
  normalisation; the outlined relu; the last dense layer.
-/
import proofs.«178879_j29317446762855_1_alg».proof.Proof.FoldPre
import Idealize.ShloMosaic.Lib.StableHlo.Run

set_option maxRecDepth 16384

noncomputable section

open scoped BigOperators

namespace Cert.Gcn.Fold

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg) (c : Dev nD)

/-! ## Each stretch, from ANY contents `V`, in terms of what it reads -/

section Stretches

/-- The third convolution, the node mean, the first dense layer and its fixed normalisation, from any contents holding
    the edge list's rows, the edge norm, the self coefficient, the third product and the parameters. -/
theorem h7_v135 (V : Valuation τ sig (Elt Ideal)) (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 x5 x6 : (⟨S64, .f32⟩ : BufTy).Contents (Elt Ideal)) (x7 : (⟨S64x32, .f32⟩ : BufTy).Contents (Elt Ideal)) (x8 x9 x10 : (⟨S32, .f32⟩ : BufTy).Contents (Elt Ideal)) (x11 : (⟨S32x1, .f32⟩ : BufTy).Contents (Elt Ideal)) (x12 : (⟨S1, .f32⟩ : BufTy).Contents (Elt Ideal)) (x13 : (⟨S1x1, .f32⟩ : BufTy).Contents (Elt Ideal)) (x14 x15 x16 : (⟨S1, .f32⟩ : BufTy).Contents (Elt Ideal))
    (h1 : V (Proc.devRef .tc main_v1) = val_main_v1 (F := Ideal) x1)
    (h3 : V (Proc.devRef .tc main_v3) = val_main_v3 (F := Ideal) x1)
    (h28 : V (Proc.devRef .tc main_v28) = val_main_v29 (F := Ideal) x1 x2)
    (h31 : V (Proc.devRef .tc main_v31) = val_main_v45 (F := Ideal) x1 x2)
    (h102 : V (Proc.devRef .tc main_v102) = val_main_v155 (F := Ideal) x0 x1 x2 x3 x4 x5 x6 x7 x8 x9 x10 x11)
    (h12 : V (Proc.devRef .tc main_arg12) = x12) (h13 : V (Proc.devRef .tc main_arg13) = x13)
    (h14 : V (Proc.devRef .tc main_arg14) = x14) (h15 : V (Proc.devRef .tc main_arg15) = x15)
    (h16 : V (Proc.devRef .tc main_arg16) = x16) :
    StableHlo.after (hostOps7 (F := Ideal)) V (Proc.devRef .tc main_v135) = val_main_v216 (F := Ideal) x0 x1 x2 x3 x4 x5 x6 x7 x8 x9 x10 x11 x12 x13 x14 x15 x16 := by
  dsimp only [hostOps7]
  after_results_simp
  rw [h1, h3, h28, h31, h102, h12, h13, h14, h15, h16]
  rfl

/-- The outlined relu, from any contents holding its operand. -/
theorem h71_v136 (V : Valuation τ sig (Elt Ideal)) (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 x5 x6 : (⟨S64, .f32⟩ : BufTy).Contents (Elt Ideal)) (x7 : (⟨S64x32, .f32⟩ : BufTy).Contents (Elt Ideal)) (x8 x9 x10 : (⟨S32, .f32⟩ : BufTy).Contents (Elt Ideal)) (x11 : (⟨S32x1, .f32⟩ : BufTy).Contents (Elt Ideal)) (x12 : (⟨S1, .f32⟩ : BufTy).Contents (Elt Ideal)) (x13 : (⟨S1x1, .f32⟩ : BufTy).Contents (Elt Ideal)) (x14 x15 x16 : (⟨S1, .f32⟩ : BufTy).Contents (Elt Ideal))
    (h135 : V (Proc.devRef .tc main_v135) = val_main_v216 (F := Ideal) x0 x1 x2 x3 x4 x5 x6 x7 x8 x9 x10 x11 x12 x13 x14 x15 x16) :
    StableHlo.after (hostOps7_1 (F := Ideal)) V (Proc.devRef .tc main_v136) = val_main_v217 (F := Ideal) x0 x1 x2 x3 x4 x5 x6 x7 x8 x9 x10 x11 x12 x13 x14 x15 x16 := by
  have e : StableHlo.after (hostOps7_1 (F := Ideal)) V (Proc.devRef .tc main_v136)
      = maximumf (V (Proc.devRef .tc main_v135))
          (broadcastInDim S1x1 ![] bcast_S_S1x1 (constant (F := Ideal) S_ .f32 0x00000000#32)) := by
    dsimp only [hostOps7_1]
    after_results_simp
    rfl
  rw [e, h135]
  rfl

/-- The last dense layer, from any contents holding its operand and its two parameters. -/
theorem h72_v139 (V : Valuation τ sig (Elt Ideal)) (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 x5 x6 : (⟨S64, .f32⟩ : BufTy).Contents (Elt Ideal)) (x7 : (⟨S64x32, .f32⟩ : BufTy).Contents (Elt Ideal)) (x8 x9 x10 : (⟨S32, .f32⟩ : BufTy).Contents (Elt Ideal)) (x11 : (⟨S32x1, .f32⟩ : BufTy).Contents (Elt Ideal)) (x12 : (⟨S1, .f32⟩ : BufTy).Contents (Elt Ideal)) (x13 : (⟨S1x1, .f32⟩ : BufTy).Contents (Elt Ideal)) (x14 x15 x16 : (⟨S1, .f32⟩ : BufTy).Contents (Elt Ideal)) (x17 : (⟨S1x1, .f32⟩ : BufTy).Contents (Elt Ideal)) (x18 : (⟨S1, .f32⟩ : BufTy).Contents (Elt Ideal))
    (h136 : V (Proc.devRef .tc main_v136) = val_main_v217 (F := Ideal) x0 x1 x2 x3 x4 x5 x6 x7 x8 x9 x10 x11 x12 x13 x14 x15 x16)
    (h17 : V (Proc.devRef .tc main_arg17) = x17) (h18 : V (Proc.devRef .tc main_arg18) = x18) :
    StableHlo.after (hostOps7_2 (F := Ideal)) V (Proc.devRef .tc main_v139) = val_main_v220 (F := Ideal) x0 x1 x2 x3 x4 x5 x6 x7 x8 x9 x10 x11 x12 x13 x14 x15 x16 x17 x18 := by
  dsimp only [hostOps7_2]
  after_results_simp
  rw [h136, h17, h18]
  rfl

end Stretches

theorem W14_v1 : W14 m ρ c (Proc.devRef .tc main_v1) = val_main_v1 (F := Ideal) (A m c main_arg1) :=
  (W14_v1_eq m ρ c).trans (W3_v1 m ρ c)
theorem W14_v3 : W14 m ρ c (Proc.devRef .tc main_v3) = val_main_v3 (F := Ideal) (A m c main_arg1) :=
  (W14_v3_eq m ρ c).trans (W3_v3 m ρ c)
theorem W14_v28 : W14 m ρ c (Proc.devRef .tc main_v28) = val_main_v29 (F := Ideal) (A m c main_arg1) (A m c main_arg2) :=
  (W14_v28_eq m ρ c).trans (W3_v28 m ρ c)
theorem W14_v31 : W14 m ρ c (Proc.devRef .tc main_v31) = val_main_v45 (F := Ideal) (A m c main_arg1) (A m c main_arg2) :=
  (W14_v31_eq m ρ c).trans (W3_v31 m ρ c)

/-- The first dense layer's normalised output, before the relu. -/
theorem W15_v135
    (h102 : W14 m ρ c (Proc.devRef .tc main_v102) = val_main_v155 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11)) :
    W15 m ρ c (Proc.devRef .tc main_v135) = val_main_v216 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) :=
  h7_v135 (W14 m ρ c) _ _ _ _ _ _ _ _ _ _ _ _ _ _ _ _ _ (W14_v1 m ρ c) (W14_v3 m ρ c) (W14_v28 m ρ c) (W14_v31 m ρ c) h102
    (W14_arg12 m ρ c) (W14_arg13 m ρ c) (W14_arg14 m ρ c) (W14_arg15 m ρ c) (W14_arg16 m ρ c)

theorem W16_arg17 : W16 m ρ c (Proc.devRef .tc main_arg17) = A m c main_arg17 := by
  refine Eq.trans (StableHlo.after_of_forall_not_mem (b := Proc.devRef .tc main_arg17) (hostOps7_1 (F := Ideal)) (W15 m ρ c)
    (List.forall_iff_forall_mem.mp (by not_written hostOps7_1))) ?_
  refine Eq.trans (StableHlo.after_of_forall_not_mem (b := Proc.devRef .tc main_arg17) (hostOps7 (F := Ideal)) (W14 m ρ c)
    (List.forall_iff_forall_mem.mp (by not_written hostOps7))) ?_
  exact W14_arg17 m ρ c
theorem W16_arg18 : W16 m ρ c (Proc.devRef .tc main_arg18) = A m c main_arg18 := by
  refine Eq.trans (StableHlo.after_of_forall_not_mem (b := Proc.devRef .tc main_arg18) (hostOps7_1 (F := Ideal)) (W15 m ρ c)
    (List.forall_iff_forall_mem.mp (by not_written hostOps7_1))) ?_
  refine Eq.trans (StableHlo.after_of_forall_not_mem (b := Proc.devRef .tc main_arg18) (hostOps7 (F := Ideal)) (W14 m ρ c)
    (List.forall_iff_forall_mem.mp (by not_written hostOps7))) ?_
  exact W14_arg18 m ρ c

/-- The program's result is the reference's last stage, given the third matmul region's product. -/
theorem W17_v139
    (h102 : W14 m ρ c (Proc.devRef .tc main_v102) = val_main_v155 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11)) :
    W17 m ρ c (Proc.devRef .tc main_v139) = val_main_v220 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) :=
  h72_v139 (W16 m ρ c) _ _ _ _ _ _ _ _ _ _ _ _ _ _ _ _ _ _ _
    (h71_v136 (W15 m ρ c) _ _ _ _ _ _ _ _ _ _ _ _ _ _ _ _ _ (W15_v135 m ρ c h102))
    (W16_arg17 m ρ c) (W16_arg18 m ρ c)

end Cert.Gcn.Fold

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.MatmulRegions.lean ====
/-
  The three dense-layer regions, each read at an entry as a plain sum.

  Each region multiplies a node-feature matrix of 100000 rows by a small weight matrix.  The grid has 20 points;
  point t loads rows 5000·t … 5000·t + 4999 of the left matrix and the whole right matrix, forms their product by one
  matrix-unit product into a zero accumulator, and writes it back as rows 5000·t … of the result.  A block of a
  product of matrices is the product of the left factor's row block with the right factor, so what every point
  writes back is its block of ONE whole-array function: entry (p, q) is the sum over k of left (p, k) · right (k, q).
  The 20 row blocks tile the result (row r lies in block r / 5000), so the result array ends holding that function.
-/
import proofs.«178879_j29317446762855_1_alg».proof.Proof.Gen.KernelIdeal.Frame
import proofs.«178879_j29317446762855_1_alg».proof.Proof.LibDense
import Idealize.ShloMosaic.Lib.Pipeline.Value
import Idealize.ShloMosaic.Lib.ValueIdx
import Idealize.ShloMosaic.PureOps.Ideal.Laws

noncomputable section

open scoped BigOperators

namespace Cert.Gcn.Matmul

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-! ## Region 0: rows of `main_arg0` against columns of `main_arg3` -/

/-- The product the region computes, as one whole-array function: entry (p, q) is row p of the left matrix against
    column q of the right one. -/
def prod0 (A : S100000x64.Idx → EReal) (B : S64x64.Idx → EReal) : S100000x64.Idx → EReal :=
  fun i => ∑ k : Fin 64, A (ix2 (i 0) k) * B (ix2 k (i 1))

theorem prod0_apply (A : S100000x64.Idx → EReal) (B : S64x64.Idx → EReal) (p : Fin 100000) (q : Fin 64) :
    prod0 A B (ix2 p q) = ∑ k : Fin 64, A (ix2 p k) * B (ix2 k q) := rfl

/-! The dimension numbers contract the left block's columns against the right block's rows. -/

theorem dot0_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dot0_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dot0_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dot0_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's stored value at entry (r, q) of its block: the left block's row r against the right block's column q. -/
theorem pay0_apply (x0 : Vec Ideal S5000x64 .f32) (x1 : Vec Ideal S64x64 .f32) (r : Fin 5000) (q : Fin 64) :
    (k0_pay1 (F := Ideal) x0 x1 : S5000x64.Idx → EReal) (ix2 r q) = ∑ k : Fin 64, (x0 (ix2 r k) : EReal) * x1 (ix2 k q) := by
  unfold k0_pay1
  exact Cert.LibDense.matmul_zero_apply dot_S5000x64_S64x64_S5000x64_1_0_0_1_n_n rfl rfl dot0_l0 dot0_l1 dot0_r0 dot0_r1 none x0 x1 r q

/-- A block of the product from blocks of its factors: when the left block is rows `5000·b …` of `A` and the right block
    is all of `B`, the body's stored value at a block entry is the product's entry `5000·b` rows further down. -/
theorem blk0_entry (A : S100000x64.Idx → EReal) (B : S64x64.Idx → EReal)
    (x0 : Vec Ideal S5000x64 .f32) (x1 : Vec Ideal S64x64 .f32) (b : ℕ)
    (h0 : ∀ (y : S5000x64.Idx) (i : S100000x64.Idx), (i 0).val = b * 5000 + (y 0).val → (i 1).val = (y 1).val → x0 y = A i)
    (h1 : x1 = B)
    (j : S5000x64.Idx) (i : S100000x64.Idx) (hi0 : (i 0).val = b * 5000 + (j 0).val) (hi1 : (i 1).val = (j 1).val) :
    (k0_pay1 (F := Ideal) x0 x1 : S5000x64.Idx → EReal) j = prod0 A B i := by
  obtain ⟨r, q, rfl⟩ : ∃ (r : Fin 5000) (q : Fin 64), j = ix2 r q := ⟨j 0, j 1, eq_ix2 j⟩
  obtain ⟨p, q', rfl⟩ : ∃ (p : Fin 100000) (q' : Fin 64), i = ix2 p q' := ⟨i 0, i 1, eq_ix2 i⟩
  obtain rfl : q' = q := Fin.ext hi1
  rw [pay0_apply, prod0_apply, h1]
  exact Finset.sum_congr rfl fun k _ => by rw [h0 (ix2 r k) (ix2 p k) hi0 rfl]

/-! Blocks: point `t` of the grid works on rows `5000·t … 5000·t + 4999` of the left matrix and of the result, and on
    the whole right matrix. -/

/-- The printed index maps over the grid: the row-blocked windows sit at block `(t, 0)`, the right matrix at `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- The left window's block at point `t` is rows `5000·t …` of its array. -/
theorem iblk0_left (t : Fin cfg0.N) (y : S5000x64.Idx) (i : S100000x64.Idx)
    (h0 : (i 0).val = t.val * 5000 + (y 0).val) (h1 : (i 1).val = (y 1).val) :
    (iblk0 (F := Ideal) V c 0 t : Vec Ideal S5000x64 .f32) y = (V c main_arg0 : S100000x64.Idx → EReal) i := by
  obtain ⟨e00, e01, -⟩ := idx_facts0 t
  unfold iblk0
  rw [View.read_apply]
  show V c main_arg0 _ = V c main_arg0 _
  congr 1
  funext a
  apply Fin.ext
  match a with
  | ⟨0, _⟩ => show win0_0.index t 0 * 5000 + 1 * (y 0).val = (i 0).val; omega
  | ⟨1, _⟩ => show win0_0.index t 1 * 64 + 1 * (y 1).val = (i 1).val; omega

/-- The right window's block at every point is its whole array. -/
theorem iblk0_right (t : Fin cfg0.N) :
    (iblk0 (F := Ideal) V c 1 t : Vec Ideal S64x64 .f32) = (V c main_arg3 : S64x64.Idx → EReal) := by
  obtain ⟨-, -, e10, e11, -⟩ := idx_facts0 t
  funext y
  unfold iblk0
  rw [View.read_apply]
  show V c main_arg3 _ = V c main_arg3 _
  congr 1
  funext a
  apply Fin.ext
  match a with
  | ⟨0, _⟩ => show win0_1.index t 0 * 64 + 1 * (y 0).val = (y 0).val; omega
  | ⟨1, _⟩ => show win0_1.index t 1 * 64 + 1 * (y 1).val = (y 1).val; omega

/-- What point `t` writes back is block `t` of the product of the two arrays as the region finds them. -/
theorem flushed0_eq (t : Fin cfg0.N) :
    (dat0 (F := Ideal) V c).flushed 2 t
      = ((cfg0.win 2).blk t).view.read (Elt Ideal) (prod0 (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S64x64) hz]
  obtain ⟨-, -, -, -, e20, e21⟩ := idx_facts0 t
  funext j
  refine blk0_entry (V c main_arg0) (V c main_arg3) (iblk0 V c 0 t) (iblk0 V c 1 t) t.val
    (iblk0_left V c t) (iblk0_right V c t) j _ ?_ ?_
  · show win0_2.index t 0 * 5000 + 1 * (j 0).val = t.val * 5000 + (j 0).val; omega
  · show win0_2.index t 1 * 64 + 1 * (j 1).val = (j 1).val; omega

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row of the result is in the block of the point `row / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e20, e21⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the result array holds the product of the two arrays the region found. -/
theorem final0 : (dat0 (F := Ideal) V c).arrAt 2 cfg0.N = prod0 (V c main_arg0) (V c main_arg3) :=
  (dat0 (F := Ideal) V c).arrAt_eq_of_cover 2 (prod0 (V c main_arg0) (V c main_arg3)) (fun t _ => flushed0_eq V c t) cover0

/-- The result array after the region, at entry (p, q): row p of the left array against column q of the right one,
    `A` and `B` naming the two arrays the region found at their literal types. -/
theorem region0_apply_of (A : S100000x64.Idx → EReal) (B : S64x64.Idx → EReal) (hA : V c main_arg0 = A) (hB : V c main_arg3 = B)
    (p : Fin 100000) (q : Fin 64) :
    (dat0 (F := Ideal) V c).arrAt 2 cfg0.N (ix2 p q) = ∑ k : Fin 64, A (ix2 p k) * B (ix2 k q) := by
  subst hA hB
  rw [final0]; rfl

/-- The same with the two arrays written in place (the identity only fixes the type they are read at). -/
theorem region0_apply (p : Fin 100000) (q : Fin 64) :
    ((dat0 (F := Ideal) V c).arrAt 2 cfg0.N : S100000x64.Idx → EReal) (ix2 p q)
      = ∑ k : Fin 64, (id (V c main_arg0) : S100000x64.Idx → EReal) (ix2 p k) * (id (V c main_arg3) : S64x64.Idx → EReal) (ix2 k q) := by
  rw [final0]; rfl
end

/-! ## Region 3: rows of `main_v66` against columns of `main_arg7` -/

/-- The product the region computes, as one whole-array function: entry (p, q) is row p of the left matrix against
    column q of the right one. -/
def prod3 (A : S100000x64.Idx → EReal) (B : S64x32.Idx → EReal) : S100000x32.Idx → EReal :=
  fun i => ∑ k : Fin 64, A (ix2 (i 0) k) * B (ix2 k (i 1))

theorem prod3_apply (A : S100000x64.Idx → EReal) (B : S64x32.Idx → EReal) (p : Fin 100000) (q : Fin 32) :
    prod3 A B (ix2 p q) = ∑ k : Fin 64, A (ix2 p k) * B (ix2 k q) := rfl

/-! The dimension numbers contract the left block's columns against the right block's rows. -/

theorem dot3_l0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem dot3_l1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem dot3_r0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem dot3_r1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The body's stored value at entry (r, q) of its block: the left block's row r against the right block's column q. -/
theorem pay3_apply (x0 : Vec Ideal S5000x64 .f32) (x1 : Vec Ideal S64x32 .f32) (r : Fin 5000) (q : Fin 32) :
    (k3_pay1 (F := Ideal) x0 x1 : S5000x32.Idx → EReal) (ix2 r q) = ∑ k : Fin 64, (x0 (ix2 r k) : EReal) * x1 (ix2 k q) := by
  unfold k3_pay1
  rw [shapeCast_self]
  exact Cert.LibDense.matmul_zero_apply dot_S5000x64_S64x32_S5000x32_1_0_0_1_n_n rfl rfl dot3_l0 dot3_l1 dot3_r0 dot3_r1 none x0 x1 r q

/-- A block of the product from blocks of its factors: when the left block is rows `5000·b …` of `A` and the right block
    is all of `B`, the body's stored value at a block entry is the product's entry `5000·b` rows further down. -/
theorem blk3_entry (A : S100000x64.Idx → EReal) (B : S64x32.Idx → EReal)
    (x0 : Vec Ideal S5000x64 .f32) (x1 : Vec Ideal S64x32 .f32) (b : ℕ)
    (h0 : ∀ (y : S5000x64.Idx) (i : S100000x64.Idx), (i 0).val = b * 5000 + (y 0).val → (i 1).val = (y 1).val → x0 y = A i)
    (h1 : x1 = B)
    (j : S5000x32.Idx) (i : S100000x32.Idx) (hi0 : (i 0).val = b * 5000 + (j 0).val) (hi1 : (i 1).val = (j 1).val) :
    (k3_pay1 (F := Ideal) x0 x1 : S5000x32.Idx → EReal) j = prod3 A B i := by
  obtain ⟨r, q, rfl⟩ : ∃ (r : Fin 5000) (q : Fin 32), j = ix2 r q := ⟨j 0, j 1, eq_ix2 j⟩
  obtain ⟨p, q', rfl⟩ : ∃ (p : Fin 100000) (q' : Fin 32), i = ix2 p q' := ⟨i 0, i 1, eq_ix2 i⟩
  obtain rfl : q' = q := Fin.ext hi1
  rw [pay3_apply, prod3_apply, h1]
  exact Finset.sum_congr rfl fun k _ => by rw [h0 (ix2 r k) (ix2 p k) hi0 rfl]

/-! Blocks: point `t` of the grid works on rows `5000·t … 5000·t + 4999` of the left matrix and of the result, and on
    the whole right matrix. -/

/-- The printed index maps over the grid: the row-blocked windows sit at block `(t, 0)`, the right matrix at `(0, 0)`. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b)) (c : Dev nD)

/-- The left window's block at point `t` is rows `5000·t …` of its array. -/
theorem iblk3_left (t : Fin cfg3.N) (y : S5000x64.Idx) (i : S100000x64.Idx)
    (h0 : (i 0).val = t.val * 5000 + (y 0).val) (h1 : (i 1).val = (y 1).val) :
    (iblk3 (F := Ideal) V c 0 t : Vec Ideal S5000x64 .f32) y = (V c main_v66 : S100000x64.Idx → EReal) i := by
  obtain ⟨e00, e01, -⟩ := idx_facts3 t
  unfold iblk3
  rw [View.read_apply]
  show V c main_v66 _ = V c main_v66 _
  congr 1
  funext a
  apply Fin.ext
  match a with
  | ⟨0, _⟩ => show win3_0.index t 0 * 5000 + 1 * (y 0).val = (i 0).val; omega
  | ⟨1, _⟩ => show win3_0.index t 1 * 64 + 1 * (y 1).val = (i 1).val; omega

/-- The right window's block at every point is its whole array. -/
theorem iblk3_right (t : Fin cfg3.N) :
    (iblk3 (F := Ideal) V c 1 t : Vec Ideal S64x32 .f32) = (V c main_arg7 : S64x32.Idx → EReal) := by
  obtain ⟨-, -, e10, e11, -⟩ := idx_facts3 t
  funext y
  unfold iblk3
  rw [View.read_apply]
  show V c main_arg7 _ = V c main_arg7 _
  congr 1
  funext a
  apply Fin.ext
  match a with
  | ⟨0, _⟩ => show win3_1.index t 0 * 64 + 1 * (y 0).val = (y 0).val; omega
  | ⟨1, _⟩ => show win3_1.index t 1 * 32 + 1 * (y 1).val = (y 1).val; omega

/-- What point `t` writes back is block `t` of the product of the two arrays as the region finds them. -/
theorem flushed3_eq (t : Fin cfg3.N) :
    (dat3 (F := Ideal) V c).flushed 2 t
      = ((cfg3.win 2).blk t).view.read (Elt Ideal) (prod3 (V c main_v66) (V c main_arg7)) := by
  show (cfg3.win 2).cut (grid3.coords t) ((dat3 (F := Ideal) V c).after 2 t) = _
  rw [after3_2]
  unfold out3_2
  rw [View.canon_unit_zero hz]
  simp only [View.ld_unit_zero (S := S5000x64) hz, View.ld_unit_zero (S := S64x32) hz]
  obtain ⟨-, -, -, -, e20, e21⟩ := idx_facts3 t
  funext j
  refine blk3_entry (V c main_v66) (V c main_arg7) (iblk3 V c 0 t) (iblk3 V c 1 t) t.val
    (iblk3_left V c t) (iblk3_right V c t) j _ ?_ ?_
  · show win3_2.index t 0 * 5000 + 1 * (j 0).val = t.val * 5000 + (j 0).val; omega
  · show win3_2.index t 1 * 32 + 1 * (j 1).val = (j 1).val; omega

/-- An index of the result array is in point `t`'s block iff each coordinate is in the block's range on its axis. -/
theorem mem_blk3 (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v67).slice (win3_2.rect t)).set ↔ _
  rw [View.set_slice_whole, Rect.mem_set_unit]
  exact Iff.rfl

/-- Every row of the result is in the block of the point `row / 5000`. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  let t : Fin cfg3.N := ⟨(i 0).val / 5000, by rw [hN]; omega⟩
  obtain ⟨-, -, -, -, e20, e21⟩ := idx_facts3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- After the region the result array holds the product of the two arrays the region found. -/
theorem final3 : (dat3 (F := Ideal) V c).arrAt 2 cfg3.N = prod3 (V c main_v66) (V c main_arg7) :=
  (dat3 (F := Ideal) V c).arrAt_eq_of_cover 2 (prod3 (V c main_v66) (V c main_arg7)) (fun t _ => flushed3_eq V c t) cover3

/-- The result array after the region, at entry (p, q): row p of the left array against column q of the right one,
    `A` and `B` naming the two arrays the region found at their literal types. -/
theorem region3_apply_of (A : S100000x64.Idx → EReal) (B : S64x32.Idx → EReal) (hA : V c main_v66 = A) (hB : V c main_arg7 = B)
    (p : Fin 100000) (q : Fin 32) :
    (dat3 (F := Ideal) V c).arrAt 2 cfg3.N (ix2 p q) = ∑ k : Fin 64, A (ix2 p k) * B (ix2 k q) := by
  subst hA hB
  rw [final3]; rfl

/-- The same with the two arrays written in place (the identity only fixes the type they are read at). -/
theorem region3_apply (p : Fin 100000) (q : Fin 32) :
    ((dat3 (F := Ideal) V c).arrAt 2 cfg3.N : S100000x32.Idx → EReal) (ix2 p q)
      = ∑ k : Fin 64, (id (V c main_v66) : S100000x64.Idx → EReal) (ix2 p k) * (id (V c main_arg7) : S64x32.Idx → EReal) (ix2 k q) := by
  rw [final3]; rfl
end

/-! ## Region 6: rows of `main_v101` against columns of `main_arg11` -/

/-- The product the region computes, as one whole-array function: entry (p, q) is row p of the left matrix against
    column q of the right one. -/
def prod6 (A : S100000x32.Idx → EReal) (B : S32x1.Idx → EReal) : S100000x1.Idx → EReal :=
  fun i => ∑ k : Fin 32, A (ix2 (i 0) k) * B (ix2 k (i 1))

theorem prod6_apply (A : S100000x32.Idx → EReal) (B : S32x1.Idx → EReal) (p : Fin 100000) (q : Fin 1) :
    prod6 A B (ix2 p q) = ∑ k : Fin 32, A (ix2 p k) * B (ix2 k q) := rfl

/-! The dimension numbers contract the left block's columns against the right block's rows. -/

theorem dot6_l0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem dot6_l1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem dot6_r0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem dot6_r1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- The body's stored value at entry (r, q) of its block: the left block's row r against the right block's column q. -/
theorem pay6_apply (x0 : Vec Ideal S5000x32 .f32) (x1 : Vec Ideal S32x1 .f32) (r : Fin 5000) (q : Fin 1) :
    (k6_pay1 (F := Ideal) x0 x1 : S5000x1.Idx → EReal) (ix2 r q) = ∑ k : Fin 32, (x0 (ix2 r k) : EReal) * x1 (ix2 k q) := by
  unfold k6_pay1
  rw [shapeCast_self]
  exact Cert.LibDense.matmul_zero_apply dot_S5000x32_S32x1_S5000x1_1_0_0_1_n_n rfl rfl dot6_l0 dot6_l1 dot6_r0 dot6_r1 none x0 x1 r q

/-- A block of the product from blocks of its factors: when the left block is rows `5000·b …` of `A` and the right block
    is all of `B`, the body's stored value at a block entry is the product's entry `5000·b` rows further down. -/
theorem blk6_entry (A : S100000x32.Idx → EReal) (B : S32x1.Idx → EReal)
    (x0 : Vec Ideal S5000x32 .f32) (x1 : Vec Ideal S32x1 .f32) (b : ℕ)
    (h0 : ∀ (y : S5000x32.Idx) (i : S100000x32.Idx), (i 0).val = b * 5000 + (y 0).val → (i 1).val = (y 1).val → x0 y = A i)
    (h1 : x1 = B)
    (j : S5000x1.Idx) (i : S100000x1.Idx) (hi0 : (i 0).val = b * 5000 + (j 0).val) (hi1 : (i 1).val = (j 1).val) :
    (k6_pay1 (F := Ideal) x0 x1 : S5000x1.Idx → EReal) j = prod6 A B i := by
  obtain ⟨r, q, rfl⟩ : ∃ (r : Fin 5000) (q : Fin 1), j = ix2 r q := ⟨j 0, j 1, eq_ix2 j⟩
  obtain ⟨p, q', rfl⟩ : ∃ (p : Fin 100000) (q' : Fin 1), i = ix2 p q' := ⟨i 0, i 1, eq_ix2 i⟩
  obtain rfl : q' = q := Fin.ext hi1
  rw [pay6_apply, prod6_apply, h1]
  exact Finset.sum_congr rfl fun k _ => by rw [h0 (ix2 r k) (ix2 p k) hi0 rfl]

/-! Blocks: point `t` of the grid works on rows `5000·t … 5000·t + 4999` of the left matrix and of the result, and on
    the whole right matrix. -/

/-- The printed index maps over the grid: the row-blocked windows sit at block `(t, 0)`, the right matrix at `(0, 0)`. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

section
variable (V : (c : Dev nD) → (b : Ref sig .tc) → Buf (Elt Ideal) ((c : Thread nD τ).loc b)) (c : Dev nD)

/-- The left window's block at point `t` is rows `5000·t …` of its array. -/
theorem iblk6_left (t : Fin cfg6.N) (y : S5000x32.Idx) (i : S100000x32.Idx)
    (h0 : (i 0).val = t.val * 5000 + (y 0).val) (h1 : (i 1).val = (y 1).val) :
    (iblk6 (F := Ideal) V c 0 t : Vec Ideal S5000x32 .f32) y = (V c main_v101 : S100000x32.Idx → EReal) i := by
  obtain ⟨e00, e01, -⟩ := idx_facts6 t
  unfold iblk6
  rw [View.read_apply]
  show V c main_v101 _ = V c main_v101 _
  congr 1
  funext a
  apply Fin.ext
  match a with
  | ⟨0, _⟩ => show win6_0.index t 0 * 5000 + 1 * (y 0).val = (i 0).val; omega
  | ⟨1, _⟩ => show win6_0.index t 1 * 32 + 1 * (y 1).val = (i 1).val; omega

/-- The right window's block at every point is its whole array. -/
theorem iblk6_right (t : Fin cfg6.N) :
    (iblk6 (F := Ideal) V c 1 t : Vec Ideal S32x1 .f32) = (V c main_arg11 : S32x1.Idx → EReal) := by
  obtain ⟨-, -, e10, e11, -⟩ := idx_facts6 t
  funext y
  unfold iblk6
  rw [View.read_apply]
  show V c main_arg11 _ = V c main_arg11 _
  congr 1
  funext a
  apply Fin.ext
  match a with
  | ⟨0, _⟩ => show win6_1.index t 0 * 32 + 1 * (y 0).val = (y 0).val; omega
  | ⟨1, _⟩ => show win6_1.index t 1 * 1 + 1 * (y 1).val = (y 1).val; omega

/-- What point `t` writes back is block `t` of the product of the two arrays as the region finds them. -/
theorem flushed6_eq (t : Fin cfg6.N) :
    (dat6 (F := Ideal) V c).flushed 2 t
      = ((cfg6.win 2).blk t).view.read (Elt Ideal) (prod6 (V c main_v101) (V c main_arg11)) := by
  show (cfg6.win 2).cut (grid6.coords t) ((dat6 (F := Ideal) V c).after 2 t) = _
  rw [after6_2]
  unfold out6_2
  rw [View.canon_unit_zero hz]
  simp only [View.ld_unit_zero (S := S5000x32) hz, View.ld_unit_zero (S := S32x1) hz]
  obtain ⟨-, -, -, -, e20, e21⟩ := idx_facts6 t
  funext j
  refine blk6_entry (V c main_v101) (V c main_arg11) (iblk6 V c 0 t) (iblk6 V c 1 t) t.val
    (iblk6_left V c t) (iblk6_right V c t) j _ ?_ ?_
  · show win6_2.index t 0 * 5000 + 1 * (j 0).val = t.val * 5000 + (j 0).val; omega
  · show win6_2.index t 1 * 1 + 1 * (j 1).val = (j 1).val; omega

/-- An index of the result array is in point `t`'s block iff each coordinate is in the block's range on its axis. -/
theorem mem_blk6 (t : Fin cfg6.N) (i : S100000x1.Idx) :
    i ∈ ((cfg6.win 2).blk t).view.set ↔ ∀ a : Fin 2, win6_2.index t a * S5000x1.size a ≤ (i a).val ∧ (i a).val < win6_2.index t a * S5000x1.size a + S5000x1.size a := by
  show i ∈ ((View.whole main_v102).slice (win6_2.rect t)).set ↔ _
  rw [View.set_slice_whole, Rect.mem_set_unit]
  exact Iff.rfl

/-- Every row of the result is in the block of the point `row / 5000`. -/
theorem cover6 (i : S100000x1.Idx) :
    ∃ t : Fin cfg6.N, (cfg6.win 2).flush t = true ∧ i ∈ ((cfg6.win 2).blk t).view.set := by
  have hi0 : (i 0).val < 100000 := (i 0).isLt
  have hi1 : (i 1).val < 1 := (i 1).isLt
  have hN : cfg6.N = 20 := N_6
  let t : Fin cfg6.N := ⟨(i 0).val / 5000, by rw [hN]; omega⟩
  obtain ⟨-, -, -, -, e20, e21⟩ := idx_facts6 t
  have ht : t.val = (i 0).val / 5000 := rfl
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 1 ≤ (i 1).val ∧ (i 1).val < win6_2.index t (1 : Fin 2) * 1 + 1; omega

/-- After the region the result array holds the product of the two arrays the region found. -/
theorem final6 : (dat6 (F := Ideal) V c).arrAt 2 cfg6.N = prod6 (V c main_v101) (V c main_arg11) :=
  (dat6 (F := Ideal) V c).arrAt_eq_of_cover 2 (prod6 (V c main_v101) (V c main_arg11)) (fun t _ => flushed6_eq V c t) cover6

/-- The result array after the region, at entry (p, q): row p of the left array against column q of the right one,
    `A` and `B` naming the two arrays the region found at their literal types. -/
theorem region6_apply_of (A : S100000x32.Idx → EReal) (B : S32x1.Idx → EReal) (hA : V c main_v101 = A) (hB : V c main_arg11 = B)
    (p : Fin 100000) (q : Fin 1) :
    (dat6 (F := Ideal) V c).arrAt 2 cfg6.N (ix2 p q) = ∑ k : Fin 32, A (ix2 p k) * B (ix2 k q) := by
  subst hA hB
  rw [final6]; rfl

/-- The same with the two arrays written in place (the identity only fixes the type they are read at). -/
theorem region6_apply (p : Fin 100000) (q : Fin 1) :
    ((dat6 (F := Ideal) V c).arrAt 2 cfg6.N : S100000x1.Idx → EReal) (ix2 p q)
      = ∑ k : Fin 32, (id (V c main_v101) : S100000x32.Idx → EReal) (ix2 p k) * (id (V c main_arg11) : S32x1.Idx → EReal) (ix2 k q) := by
  rw [final6]; rfl
end

end Cert.Gcn.Matmul

end
-- ==== Proof.RefDots.lean ====
/-
  The reference's three dense layers, each read at an entry as a plain sum.

  Each layer multiplies a node-feature matrix (one row per node) by a weight matrix.  Entry (p, q) of the
  product is the sum over the inner coordinate k of the feature matrix at (p, k) times the weight matrix at
  (k, q); the exact extended reals make the host's product exactly this sum.
-/
import proofs.«178879_j29317446762855_1_alg».proof.Proof.RefRead
import proofs.«178879_j29317446762855_1_alg».proof.Proof.LibDense

noncomputable section

open scoped BigOperators

namespace Cert.Gcn.RefDots

open Cert.ReferenceIdeal Cert.ReferenceIdeal.Read Idealize.ShloMosaic Idealize.ShloMosaic.ValueIdx

/-- The first layer's product at entry (p, q): the input features' row p against the weights' column q. -/
theorem ref_v4_apply (x0 : (⟨S100000x64, .f32⟩ : BufTy).Contents (Elt Ideal)) (x3 : (⟨S64x64, .f32⟩ : BufTy).Contents (Elt Ideal))
    (p : Fin 100000) (q : Fin 64) :
    val_main_v4 (F := Ideal) x0 x3 (ix2 p q) = ∑ k : Fin 64, x0 (ix2 p k) * x3 (ix2 k q) := by
  rw [val_main_v4_apply]
  refine Finset.sum_congr rfl fun k _ => ?_
  have el : lidx_main_v4 (ix2 p q) k = ix2 p k := funext fun a => Fin.ext (by
    match a with
    | ⟨0, _⟩ => rfl
    | ⟨1, _⟩ => rfl)
  have er : ridx_main_v4 (ix2 p q) k = ix2 k q := funext fun a => Fin.ext (by
    match a with
    | ⟨0, _⟩ => rfl
    | ⟨1, _⟩ => rfl)
  rw [el, er]

/-- The second layer's product at entry (p, q): the first layer's output row p against the weights' column q. -/
theorem ref_v80_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 x5 x6 : (⟨S64, .f32⟩ : BufTy).Contents (Elt Ideal)) (x7 : (⟨S64x32, .f32⟩ : BufTy).Contents (Elt Ideal))
    (p : Fin 100000) (q : Fin 32) :
    val_main_v80 (F := Ideal) x0 x1 x2 x3 x4 x5 x6 x7 (ix2 p q)
      = ∑ k : Fin 64, val_main_v79 (F := Ideal) x0 x1 x2 x3 x4 x5 x6 (ix2 p k) * x7 (ix2 k q) := by
  rw [val_main_v80_apply]
  refine Finset.sum_congr rfl fun k _ => ?_
  have el : lidx_main_v80 (ix2 p q) k = ix2 p k := funext fun a => Fin.ext (by
    match a with
    | ⟨0, _⟩ => rfl
    | ⟨1, _⟩ => rfl)
  have er : ridx_main_v80 (ix2 p q) k = ix2 k q := funext fun a => Fin.ext (by
    match a with
    | ⟨0, _⟩ => rfl
    | ⟨1, _⟩ => rfl)
  rw [el, er]

/-- The third layer's product at entry (p, q): the second layer's output row p against the weights' one column. -/
theorem ref_v155_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 x5 x6 : (⟨S64, .f32⟩ : BufTy).Contents (Elt Ideal)) (x7 : (⟨S64x32, .f32⟩ : BufTy).Contents (Elt Ideal)) (x8 x9 x10 : (⟨S32, .f32⟩ : BufTy).Contents (Elt Ideal)) (x11 : (⟨S32x1, .f32⟩ : BufTy).Contents (Elt Ideal))
    (p : Fin 100000) (q : Fin 1) :
    val_main_v155 (F := Ideal) x0 x1 x2 x3 x4 x5 x6 x7 x8 x9 x10 x11 (ix2 p q)
      = ∑ k : Fin 32, val_main_v154 (F := Ideal) x0 x1 x2 x3 x4 x5 x6 x7 x8 x9 x10 (ix2 p k) * x11 (ix2 k q) := by
  rw [val_main_v155_apply]
  refine Finset.sum_congr rfl fun k _ => ?_
  have el : lidx_main_v155 (ix2 p q) k = ix2 p k := funext fun a => Fin.ext (by
    match a with
    | ⟨0, _⟩ => rfl
    | ⟨1, _⟩ => rfl)
  have er : ridx_main_v155 (ix2 p q) k = ix2 k q := funext fun a => Fin.ext (by
    match a with
    | ⟨0, _⟩ => rfl
    | ⟨1, _⟩ => rfl)
  rw [el, er]

end Cert.Gcn.RefDots

end
-- ==== Proof.Finite.lean ====
import proofs.«178879_j29317446762855_1_alg».proof.Proof.RefRead
import Idealize.ShloMosaic.PureOps.Ideal.Laws
import Idealize.ShloMosaic.Lib.ValueIdx

noncomputable section

namespace Cert.Gcn.Finite

open Cert.ReferenceIdeal Cert.ReferenceIdeal.Gen Cert.ReferenceIdeal.Read Idealize.ShloMosaic Idealize.ShloMosaic.TcCoe Idealize.SL.Sem

/-! ## Scalars: an extended real that is a real number -/

/-- `x` is (the embedding of) a real number. -/
def RealVal (x : EReal) : Prop := ∃ r : ℝ, x = (r : EReal)

theorem RealVal.zero : RealVal 0 := ⟨0, rfl⟩

theorem RealVal.add {x y : EReal} (hx : RealVal x) (hy : RealVal y) : RealVal (x + y) := by
  obtain ⟨a, rfl⟩ := hx; obtain ⟨b, rfl⟩ := hy
  exact ⟨a + b, (EReal.coe_add a b).symm⟩

theorem RealVal.mul {x y : EReal} (hx : RealVal x) (hy : RealVal y) : RealVal (x * y) := by
  obtain ⟨a, rfl⟩ := hx; obtain ⟨b, rfl⟩ := hy
  exact ⟨a * b, (EReal.coe_mul a b).symm⟩

/-- A finite sum of reals is a real. -/
theorem RealVal.sum {ι : Type} (s : Finset ι) (f : ι → EReal) (h : ∀ i ∈ s, RealVal (f i)) : RealVal (∑ i ∈ s, f i) := by
  classical
  induction s using Finset.induction_on with
  | empty => rw [Finset.sum_empty]; exact RealVal.zero
  | insert a s ha ih =>
    rw [Finset.sum_insert ha]
    exact (h a (Finset.mem_insert_self _ _)).add (ih fun i hi => h i (Finset.mem_insert_of_mem hi))

/-- The guarded inverse square root `if 0 < x then 1/√x else 0` of a real is a real: on the branch taken
    the argument is a positive real, whose inverse square root is the real `(√x)⁻¹`. -/
theorem RealVal.guardedRsqrt {x : EReal} (hx : RealVal x) : RealVal (Scalar.select (Ideal.cmp .ogt x 0) (Ideal.rsqrt x) 0) := by
  obtain ⟨a, rfl⟩ := hx
  unfold Scalar.select Ideal.cmp
  by_cases h : (0 : ℝ) < a
  · have h' : (0 : EReal) < (a : EReal) := by exact_mod_cast h
    rw [decide_eq_true h', BitVec.ofBool_true, if_pos rfl, Ideal.rsqrt_coe, if_neg (not_lt.mpr h.le), if_neg h.ne']
    exact ⟨_, rfl⟩
  · have h' : ¬ (0 : EReal) < (a : EReal) := by exact_mod_cast h
    rw [decide_eq_false h', BitVec.ofBool_false, if_neg (by decide)]
    exact RealVal.zero

/-- The float word `0x40000000` (the literal `2.0`) denotes a real number. -/
theorem RealVal.two : RealVal (Ideal.ofBits .f32 0x40000000#32) := by
  simp [Ideal.ofBits, Ideal.ieee]
  exact RealVal.mul ⟨_, rfl⟩ ⟨_, rfl⟩

/-- A real is the embedding of its own real part. -/
theorem RealVal.coe_toReal {x : EReal} (h : RealVal x) : ((x.toReal : ℝ) : EReal) = x := by
  obtain ⟨r, rfl⟩ := h
  rw [EReal.toReal_coe]

theorem RealVal.ne_top {x : EReal} (h : RealVal x) : x ≠ ⊤ := by
  obtain ⟨r, rfl⟩ := h
  exact EReal.coe_ne_top r

theorem RealVal.ne_bot {x : EReal} (h : RealVal x) : x ≠ ⊥ := by
  obtain ⟨r, rfl⟩ := h
  exact EReal.coe_ne_bot r

/-! ## Arrays: every entry a real number -/

/-- Every entry of the array is a real number. -/
def IsReal {S : Shape} (a : S.Idx → EReal) : Prop := ∀ i, ∃ r : ℝ, a i = (r : EReal)

theorem IsReal.addf {S : Shape} {a b : S.Idx → EReal} (ha : IsReal a) (hb : IsReal b) :
    IsReal (addf (F := Ideal) (φ := .f32) a b) := fun i => RealVal.add (ha i) (hb i)

theorem IsReal.mulf {S : Shape} {a b : S.Idx → EReal} (ha : IsReal a) (hb : IsReal b) :
    IsReal (mulf (F := Ideal) (φ := .f32) a b) := fun i => RealVal.mul (ha i) (hb i)

/-- A splat of a word that denotes a real. -/
theorem IsReal.constant (S : Shape) {b : BitVec 32} (hb : RealVal (Ideal.ofBits .f32 b)) :
    IsReal (constant (F := Ideal) S .f32 b) := fun _ => hb

/-- Every entry of a broadcast is an entry of its operand. -/
theorem IsReal.broadcastInDim {S T : Shape} (dims : Fin S.rank → Fin T.rank) (h : S.BroadcastsInDim T dims)
    {a : S.Idx → EReal} (ha : IsReal a) : IsReal (broadcastInDim T dims h a) := fun _ => ha _

/-- Every entry of a gather is an entry of its operand (the start index is clamped into range). -/
theorem IsReal.gather {S SI T : Shape} {w : Nat} (d : GatherDims S SI T) {a : S.Idx → EReal} (idx : IVec SI w)
    (ha : IsReal a) : IsReal (Host.gather d a idx) := fun _ => ha _

/-- A scatter-add: each entry is the operand's plus a finite sum of update entries. -/
theorem IsReal.scatterAdd {S SI U : Shape} {w : Nat} (d : ScatterDims S SI U) {a : S.Idx → EReal} (idx : IVec SI w)
    {u : U.Idx → EReal} (ha : IsReal a) (hu : IsReal u) :
    IsReal (Host.scatterAdd (F := Ideal) (φ := .f32) d a idx u) := fun i =>
  RealVal.add (ha i) (RealVal.sum _ _ fun j _ => hu j)

/-- A product of two matrices of reals: each entry is a finite sum of products. -/
theorem IsReal.dotGeneral {SL SR SO : Shape} (d : DotDims SL SR SO) (prec : Option ContractPrecision)
    {a : SL.Idx → EReal} {b : SR.Idx → EReal} (ha : IsReal a) (hb : IsReal b) :
    IsReal (Host.dotGeneral (F := Ideal) (φ₁ := .f32) (φ₂ := .f32) d prec a b) := fun j => by
  show RealVal (FloatOps.dotGeneral (F := Ideal) (φ₁ := .f32) (φ₂ := .f32) d prec .single a b j)
  rw [Ideal.dotGeneral_apply]
  exact RealVal.sum _ _ fun k _ => RealVal.mul (ha _) (hb _)

/-- The guarded inverse square root of an array of reals (compared with, and defaulting to, arrays that are
    zero everywhere). -/
theorem IsReal.guardedRsqrt {S : Shape} {a z z' : S.Idx → EReal} (ha : IsReal a) (hz : ∀ i, z i = 0)
    (hz' : ∀ i, z' i = 0) :
    IsReal (select (cmpf (F := Ideal) (φ := .f32) .ogt a z) (Host.rsqrt (F := Ideal) (φ := .f32) a) z') := fun i => by
  show RealVal (Scalar.select (Ideal.cmp .ogt (a i) (z i)) (Ideal.rsqrt (a i)) (z' i))
  rw [hz i, hz' i]
  exact RealVal.guardedRsqrt (ha i)

/-- Read at an index: the entry is the embedding of its own real part. -/
theorem IsReal.coe_toReal {S : Shape} {a : S.Idx → EReal} (h : IsReal a) (i : S.Idx) :
    (((a i).toReal : ℝ) : EReal) = a i := RealVal.coe_toReal (h i)

/-! ## The literals -/

theorem RealVal.zeroWord : RealVal (Ideal.ofBits .f32 0x00000000#32) := ⟨0, Ideal.ofBits_zero_f32⟩

/-! ## The first graph convolution, one operation at a time -/

/-- The dense product of the node features with the first weight matrix. -/
theorem real_v4 (x0 : (⟨S100000x64, .f32⟩ : BufTy).Contents (Elt Ideal)) (x3 : (⟨S64x64, .f32⟩ : BufTy).Contents (Elt Ideal)) (h0 : IsReal x0) (h3 : IsReal x3) :
    IsReal (val_main_v4 (F := Ideal) x0 x3) :=
  IsReal.dotGeneral _ _ h0 h3
theorem real_v5  :
    IsReal (val_main_v5 (F := Ideal)) :=
  IsReal.broadcastInDim _ _ (IsReal.constant _ RealVal.zeroWord)
/-- The weighted in-degree: the edge weights summed at their target nodes. -/
theorem real_v7 (x1 : (⟨S2x1600000, .i32⟩ : BufTy).Contents (Elt Ideal)) (x2 : (⟨S1600000, .f32⟩ : BufTy).Contents (Elt Ideal)) (h2 : IsReal x2) :
    IsReal (val_main_v7 (F := Ideal) x1 x2) :=
  IsReal.scatterAdd _ _ real_v5 h2
theorem real_v8  :
    IsReal (val_main_v8 (F := Ideal)) :=
  IsReal.broadcastInDim _ _ (IsReal.constant _ RealVal.two)
theorem real_v9 (x1 : (⟨S2x1600000, .i32⟩ : BufTy).Contents (Elt Ideal)) (x2 : (⟨S1600000, .f32⟩ : BufTy).Contents (Elt Ideal)) (h2 : IsReal x2) :
    IsReal (val_main_v9 (F := Ideal) x1 x2) :=
  IsReal.addf (real_v7 x1 x2 h2) real_v8
theorem zero_v10 (i : S100000.Idx) : val_main_v10 (F := Ideal) i = 0 := Ideal.ofBits_zero_f32
theorem zero_call0_v1 (i : S100000.Idx) : val_main_call0_v1 (F := Ideal) i = 0 := Ideal.ofBits_zero_f32
/-- The inverse square-root degree, `0` where the degree is not positive: a real at every node. -/
theorem real_v13 (x1 : (⟨S2x1600000, .i32⟩ : BufTy).Contents (Elt Ideal)) (x2 : (⟨S1600000, .f32⟩ : BufTy).Contents (Elt Ideal)) (h2 : IsReal x2) :
    IsReal (val_main_v13 (F := Ideal) x1 x2) :=
  IsReal.guardedRsqrt (real_v9 x1 x2 h2) zero_v10 zero_call0_v1
theorem real_v20 (x1 : (⟨S2x1600000, .i32⟩ : BufTy).Contents (Elt Ideal)) (x2 : (⟨S1600000, .f32⟩ : BufTy).Contents (Elt Ideal)) (h2 : IsReal x2) :
    IsReal (val_main_v20 (F := Ideal) x1 x2) :=
  IsReal.gather _ _ (real_v13 x1 x2 h2)
theorem real_v21 (x1 : (⟨S2x1600000, .i32⟩ : BufTy).Contents (Elt Ideal)) (x2 : (⟨S1600000, .f32⟩ : BufTy).Contents (Elt Ideal)) (h2 : IsReal x2) :
    IsReal (val_main_v21 (F := Ideal) x1 x2) :=
  IsReal.mulf (real_v20 x1 x2 h2) h2
theorem real_v28 (x1 : (⟨S2x1600000, .i32⟩ : BufTy).Contents (Elt Ideal)) (x2 : (⟨S1600000, .f32⟩ : BufTy).Contents (Elt Ideal)) (h2 : IsReal x2) :
    IsReal (val_main_v28 (F := Ideal) x1 x2) :=
  IsReal.gather _ _ (real_v13 x1 x2 h2)
/-- The edge normalisation: source factor times weight times target factor. -/
theorem real_v29 (x1 : (⟨S2x1600000, .i32⟩ : BufTy).Contents (Elt Ideal)) (x2 : (⟨S1600000, .f32⟩ : BufTy).Contents (Elt Ideal)) (h2 : IsReal x2) :
    IsReal (val_main_v29 (F := Ideal) x1 x2) :=
  IsReal.mulf (real_v21 x1 x2 h2) (real_v28 x1 x2 h2)
theorem real_v30 (x1 : (⟨S2x1600000, .i32⟩ : BufTy).Contents (Elt Ideal)) (x2 : (⟨S1600000, .f32⟩ : BufTy).Contents (Elt Ideal)) (h2 : IsReal x2) :
    IsReal (val_main_v30 (F := Ideal) x1 x2) :=
  IsReal.broadcastInDim _ _ (real_v29 x1 x2 h2)
theorem real_v37 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (h0 : IsReal x0) (h3 : IsReal x3) :
    IsReal (val_main_v37 (F := Ideal) x0 x1 x3) :=
  IsReal.gather _ _ (real_v4 x0 x3 h0 h3)
theorem real_v38 (x1 : (⟨S2x1600000, .i32⟩ : BufTy).Contents (Elt Ideal)) (x2 : (⟨S1600000, .f32⟩ : BufTy).Contents (Elt Ideal)) (h2 : IsReal x2) :
    IsReal (val_main_v38 (F := Ideal) x1 x2) :=
  IsReal.broadcastInDim _ _ (real_v30 x1 x2 h2)
theorem real_v39 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (h0 : IsReal x0) (h2 : IsReal x2) (h3 : IsReal x3) :
    IsReal (val_main_v39 (F := Ideal) x0 x1 x2 x3) :=
  IsReal.mulf (real_v38 x1 x2 h2) (real_v37 x0 x1 x3 h0 h3)
theorem real_v40  :
    IsReal (val_main_v40 (F := Ideal)) :=
  IsReal.broadcastInDim _ _ (IsReal.constant _ RealVal.zeroWord)
/-- The messages summed at their target nodes. -/
theorem real_v42 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (h0 : IsReal x0) (h2 : IsReal x2) (h3 : IsReal x3) :
    IsReal (val_main_v42 (F := Ideal) x0 x1 x2 x3) :=
  IsReal.scatterAdd _ _ real_v40 (real_v39 x0 x1 x2 x3 h0 h2 h3)
theorem real_v43  :
    IsReal (val_main_v43 (F := Ideal)) :=
  IsReal.broadcastInDim _ _ (IsReal.constant _ RealVal.two)
theorem real_v44 (x1 : (⟨S2x1600000, .i32⟩ : BufTy).Contents (Elt Ideal)) (x2 : (⟨S1600000, .f32⟩ : BufTy).Contents (Elt Ideal)) (h2 : IsReal x2) :
    IsReal (val_main_v44 (F := Ideal) x1 x2) :=
  IsReal.mulf real_v43 (real_v13 x1 x2 h2)
theorem real_v45 (x1 : (⟨S2x1600000, .i32⟩ : BufTy).Contents (Elt Ideal)) (x2 : (⟨S1600000, .f32⟩ : BufTy).Contents (Elt Ideal)) (h2 : IsReal x2) :
    IsReal (val_main_v45 (F := Ideal) x1 x2) :=
  IsReal.mulf (real_v44 x1 x2 h2) (real_v13 x1 x2 h2)
theorem real_v46 (x1 : (⟨S2x1600000, .i32⟩ : BufTy).Contents (Elt Ideal)) (x2 : (⟨S1600000, .f32⟩ : BufTy).Contents (Elt Ideal)) (h2 : IsReal x2) :
    IsReal (val_main_v46 (F := Ideal) x1 x2) :=
  IsReal.broadcastInDim _ _ (real_v45 x1 x2 h2)
theorem real_v47 (x1 : (⟨S2x1600000, .i32⟩ : BufTy).Contents (Elt Ideal)) (x2 : (⟨S1600000, .f32⟩ : BufTy).Contents (Elt Ideal)) (h2 : IsReal x2) :
    IsReal (val_main_v47 (F := Ideal) x1 x2) :=
  IsReal.broadcastInDim _ _ (real_v46 x1 x2 h2)
theorem real_v48 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (h0 : IsReal x0) (h2 : IsReal x2) (h3 : IsReal x3) :
    IsReal (val_main_v48 (F := Ideal) x0 x1 x2 x3) :=
  IsReal.mulf (real_v47 x1 x2 h2) (real_v4 x0 x3 h0 h3)
theorem real_v49 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (h0 : IsReal x0) (h2 : IsReal x2) (h3 : IsReal x3) :
    IsReal (val_main_v49 (F := Ideal) x0 x1 x2 x3) :=
  IsReal.addf (real_v42 x0 x1 x2 x3 h0 h2 h3) (real_v48 x0 x1 x2 x3 h0 h2 h3)
theorem real_v50 (x4 : (⟨S64, .f32⟩ : BufTy).Contents (Elt Ideal)) (h4 : IsReal x4) :
    IsReal (val_main_v50 (F := Ideal) x4) :=
  IsReal.broadcastInDim _ _ h4
theorem real_v51 (x4 : (⟨S64, .f32⟩ : BufTy).Contents (Elt Ideal)) (h4 : IsReal x4) :
    IsReal (val_main_v51 (F := Ideal) x4) :=
  IsReal.broadcastInDim _ _ (real_v50 x4 h4)
/-- Every entry of the first graph convolution's output (bias added) is a real number when the node features, the edge weights, the weight matrix and the bias are. -/
theorem real_v52 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (h0 : IsReal x0) (h2 : IsReal x2) (h3 : IsReal x3) (h4 : IsReal x4) :
    IsReal (val_main_v52 (F := Ideal) x0 x1 x2 x3 x4) :=
  IsReal.addf (real_v49 x0 x1 x2 x3 h0 h2 h3) (real_v51 x4 h4)

/-! ## The second graph convolution: the same chain over the first layer's output -/

/-- The dense product of the first layer's output with the second weight matrix. -/
theorem real_v80 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x32, .f32⟩ : BufTy).Contents (Elt Ideal)) (h79 : IsReal (val_main_v79 (F := Ideal) x0 x1 x2 x3 x4 x5 x6)) (h7 : IsReal x7) :
    IsReal (val_main_v80 (F := Ideal) x0 x1 x2 x3 x4 x5 x6 x7) :=
  IsReal.dotGeneral _ _ h79 h7
theorem real_v81  :
    IsReal (val_main_v81 (F := Ideal)) :=
  IsReal.broadcastInDim _ _ (IsReal.constant _ RealVal.zeroWord)
theorem real_v83 (x1 : (⟨S2x1600000, .i32⟩ : BufTy).Contents (Elt Ideal)) (x2 : (⟨S1600000, .f32⟩ : BufTy).Contents (Elt Ideal)) (h2 : IsReal x2) :
    IsReal (val_main_v83 (F := Ideal) x1 x2) :=
  IsReal.scatterAdd _ _ real_v81 h2
theorem real_v84  :
    IsReal (val_main_v84 (F := Ideal)) :=
  IsReal.broadcastInDim _ _ (IsReal.constant _ RealVal.two)
theorem real_v85 (x1 : (⟨S2x1600000, .i32⟩ : BufTy).Contents (Elt Ideal)) (x2 : (⟨S1600000, .f32⟩ : BufTy).Contents (Elt Ideal)) (h2 : IsReal x2) :
    IsReal (val_main_v85 (F := Ideal) x1 x2) :=
  IsReal.addf (real_v83 x1 x2 h2) real_v84
theorem zero_v86 (i : S100000.Idx) : val_main_v86 (F := Ideal) i = 0 := Ideal.ofBits_zero_f32
theorem zero_call2_v1 (i : S100000.Idx) : val_main_call2_v1 (F := Ideal) i = 0 := Ideal.ofBits_zero_f32
theorem real_v89 (x1 : (⟨S2x1600000, .i32⟩ : BufTy).Contents (Elt Ideal)) (x2 : (⟨S1600000, .f32⟩ : BufTy).Contents (Elt Ideal)) (h2 : IsReal x2) :
    IsReal (val_main_v89 (F := Ideal) x1 x2) :=
  IsReal.guardedRsqrt (real_v85 x1 x2 h2) zero_v86 zero_call2_v1
theorem real_v96 (x1 : (⟨S2x1600000, .i32⟩ : BufTy).Contents (Elt Ideal)) (x2 : (⟨S1600000, .f32⟩ : BufTy).Contents (Elt Ideal)) (h2 : IsReal x2) :
    IsReal (val_main_v96 (F := Ideal) x1 x2) :=
  IsReal.gather _ _ (real_v89 x1 x2 h2)
theorem real_v97 (x1 : (⟨S2x1600000, .i32⟩ : BufTy).Contents (Elt Ideal)) (x2 : (⟨S1600000, .f32⟩ : BufTy).Contents (Elt Ideal)) (h2 : IsReal x2) :
    IsReal (val_main_v97 (F := Ideal) x1 x2) :=
  IsReal.mulf (real_v96 x1 x2 h2) h2
theorem real_v104 (x1 : (⟨S2x1600000, .i32⟩ : BufTy).Contents (Elt Ideal)) (x2 : (⟨S1600000, .f32⟩ : BufTy).Contents (Elt Ideal)) (h2 : IsReal x2) :
    IsReal (val_main_v104 (F := Ideal) x1 x2) :=
  IsReal.gather _ _ (real_v89 x1 x2 h2)
theorem real_v105 (x1 : (⟨S2x1600000, .i32⟩ : BufTy).Contents (Elt Ideal)) (x2 : (⟨S1600000, .f32⟩ : BufTy).Contents (Elt Ideal)) (h2 : IsReal x2) :
    IsReal (val_main_v105 (F := Ideal) x1 x2) :=
  IsReal.mulf (real_v97 x1 x2 h2) (real_v104 x1 x2 h2)
theorem real_v106 (x1 : (⟨S2x1600000, .i32⟩ : BufTy).Contents (Elt Ideal)) (x2 : (⟨S1600000, .f32⟩ : BufTy).Contents (Elt Ideal)) (h2 : IsReal x2) :
    IsReal (val_main_v106 (F := Ideal) x1 x2) :=
  IsReal.broadcastInDim _ _ (real_v105 x1 x2 h2)
theorem real_v113 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x32, .f32⟩ : BufTy).Contents (Elt Ideal)) (h79 : IsReal (val_main_v79 (F := Ideal) x0 x1 x2 x3 x4 x5 x6)) (h7 : IsReal x7) :
    IsReal (val_main_v113 (F := Ideal) x0 x1 x2 x3 x4 x5 x6 x7) :=
  IsReal.gather _ _ (real_v80 x0 x1 x2 x3 x4 x5 x6 x7 h79 h7)
theorem real_v114 (x1 : (⟨S2x1600000, .i32⟩ : BufTy).Contents (Elt Ideal)) (x2 : (⟨S1600000, .f32⟩ : BufTy).Contents (Elt Ideal)) (h2 : IsReal x2) :
    IsReal (val_main_v114 (F := Ideal) x1 x2) :=
  IsReal.broadcastInDim _ _ (real_v106 x1 x2 h2)
theorem real_v115 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x32, .f32⟩ : BufTy).Contents (Elt Ideal)) (h79 : IsReal (val_main_v79 (F := Ideal) x0 x1 x2 x3 x4 x5 x6)) (h2 : IsReal x2) (h7 : IsReal x7) :
    IsReal (val_main_v115 (F := Ideal) x0 x1 x2 x3 x4 x5 x6 x7) :=
  IsReal.mulf (real_v114 x1 x2 h2) (real_v113 x0 x1 x2 x3 x4 x5 x6 x7 h79 h7)
theorem real_v116  :
    IsReal (val_main_v116 (F := Ideal)) :=
  IsReal.broadcastInDim _ _ (IsReal.constant _ RealVal.zeroWord)
theorem real_v118 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x32, .f32⟩ : BufTy).Contents (Elt Ideal)) (h79 : IsReal (val_main_v79 (F := Ideal) x0 x1 x2 x3 x4 x5 x6)) (h2 : IsReal x2) (h7 : IsReal x7) :
    IsReal (val_main_v118 (F := Ideal) x0 x1 x2 x3 x4 x5 x6 x7) :=
  IsReal.scatterAdd _ _ real_v116 (real_v115 x0 x1 x2 x3 x4 x5 x6 x7 h79 h2 h7)
theorem real_v119  :
    IsReal (val_main_v119 (F := Ideal)) :=
  IsReal.broadcastInDim _ _ (IsReal.constant _ RealVal.two)
theorem real_v120 (x1 : (⟨S2x1600000, .i32⟩ : BufTy).Contents (Elt Ideal)) (x2 : (⟨S1600000, .f32⟩ : BufTy).Contents (Elt Ideal)) (h2 : IsReal x2) :
    IsReal (val_main_v120 (F := Ideal) x1 x2) :=
  IsReal.mulf real_v119 (real_v89 x1 x2 h2)
theorem real_v121 (x1 : (⟨S2x1600000, .i32⟩ : BufTy).Contents (Elt Ideal)) (x2 : (⟨S1600000, .f32⟩ : BufTy).Contents (Elt Ideal)) (h2 : IsReal x2) :
    IsReal (val_main_v121 (F := Ideal) x1 x2) :=
  IsReal.mulf (real_v120 x1 x2 h2) (real_v89 x1 x2 h2)
theorem real_v122 (x1 : (⟨S2x1600000, .i32⟩ : BufTy).Contents (Elt Ideal)) (x2 : (⟨S1600000, .f32⟩ : BufTy).Contents (Elt Ideal)) (h2 : IsReal x2) :
    IsReal (val_main_v122 (F := Ideal) x1 x2) :=
  IsReal.broadcastInDim _ _ (real_v121 x1 x2 h2)
theorem real_v123 (x1 : (⟨S2x1600000, .i32⟩ : BufTy).Contents (Elt Ideal)) (x2 : (⟨S1600000, .f32⟩ : BufTy).Contents (Elt Ideal)) (h2 : IsReal x2) :
    IsReal (val_main_v123 (F := Ideal) x1 x2) :=
  IsReal.broadcastInDim _ _ (real_v122 x1 x2 h2)
theorem real_v124 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x32, .f32⟩ : BufTy).Contents (Elt Ideal)) (h79 : IsReal (val_main_v79 (F := Ideal) x0 x1 x2 x3 x4 x5 x6)) (h2 : IsReal x2) (h7 : IsReal x7) :
    IsReal (val_main_v124 (F := Ideal) x0 x1 x2 x3 x4 x5 x6 x7) :=
  IsReal.mulf (real_v123 x1 x2 h2) (real_v80 x0 x1 x2 x3 x4 x5 x6 x7 h79 h7)
theorem real_v125 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x32, .f32⟩ : BufTy).Contents (Elt Ideal)) (h79 : IsReal (val_main_v79 (F := Ideal) x0 x1 x2 x3 x4 x5 x6)) (h2 : IsReal x2) (h7 : IsReal x7) :
    IsReal (val_main_v125 (F := Ideal) x0 x1 x2 x3 x4 x5 x6 x7) :=
  IsReal.addf (real_v118 x0 x1 x2 x3 x4 x5 x6 x7 h79 h2 h7) (real_v124 x0 x1 x2 x3 x4 x5 x6 x7 h79 h2 h7)
theorem real_v126 (x8 : (⟨S32, .f32⟩ : BufTy).Contents (Elt Ideal)) (h8 : IsReal x8) :
    IsReal (val_main_v126 (F := Ideal) x8) :=
  IsReal.broadcastInDim _ _ h8
theorem real_v127 (x8 : (⟨S32, .f32⟩ : BufTy).Contents (Elt Ideal)) (h8 : IsReal x8) :
    IsReal (val_main_v127 (F := Ideal) x8) :=
  IsReal.broadcastInDim _ _ (real_v126 x8 h8)
/-- Every entry of the second graph convolution's output (bias added) is a real number when the first layer's output, the edge weights, the weight matrix and the bias are. -/
theorem real_v128 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (h79 : IsReal (val_main_v79 (F := Ideal) x0 x1 x2 x3 x4 x5 x6)) (h2 : IsReal x2) (h7 : IsReal x7) (h8 : IsReal x8) :
    IsReal (val_main_v128 (F := Ideal) x0 x1 x2 x3 x4 x5 x6 x7 x8) :=
  IsReal.addf (real_v125 x0 x1 x2 x3 x4 x5 x6 x7 h79 h2 h7) (real_v127 x8 h8)

end Cert.Gcn.Finite

end
-- ==== Proof.NormReal.lean ====
/- The reference's batch normalisation, relu and residual give a real array when their input is real. Over a
   column a_1 … a_n of reals the mean (sum a)/n is a real; the deviations a_k - mean are reals, their squares
   are reals that are not negative, so the variance (sum of squares)/n is a real that is not negative; adding a
   positive real gives a positive real, whose reciprocal square root is a real; the remaining operations
   (difference, products with real scale entries, sum with a real shift, maximum with zero, sum with a real
   residual) keep reals real. -/
import proofs.«178879_j29317446762855_1_alg».proof.Proof.RefRead
import proofs.«178879_j29317446762855_1_alg».proof.Proof.Consts

noncomputable section

namespace Cert.Gcn.NormReal

open Cert.ReferenceIdeal Cert.ReferenceIdeal.Gen Cert.ReferenceIdeal.Read Idealize.ShloMosaic Idealize.SL.Sem

/-! ### Reals inside the extended reals -/

theorem real_zero : ∃ r : ℝ, (0 : EReal) = (r : EReal) := ⟨0, rfl⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- A real times itself is a real that is not negative. -/
theorem nonneg_sq {x : EReal} (hx : ∃ r : ℝ, x = (r : EReal)) : ∃ r : ℝ, 0 ≤ r ∧ x * x = (r : EReal) := by
  obtain ⟨a, rfl⟩ := hx; exact ⟨a * a, mul_self_nonneg a, (EReal.coe_mul a a).symm⟩

/-- A finite sum of reals, taken in the extended reals, is the real sum. -/
theorem sum_coe {ι : Type} (s : Finset ι) (g : ι → ℝ) : ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

theorem real_sum {ι : Type} [Fintype ι] (f : ι → EReal) (hf : ∀ k, ∃ r : ℝ, f k = (r : EReal)) :
    ∃ r : ℝ, ∑ k, f k = (r : EReal) := by
  choose g hg using hf
  exact ⟨∑ k, g k, by simp only [hg]; exact sum_coe _ g⟩

theorem nonneg_sum {ι : Type} [Fintype ι] (f : ι → EReal) (hf : ∀ k, ∃ r : ℝ, 0 ≤ r ∧ f k = (r : EReal)) :
    ∃ r : ℝ, 0 ≤ r ∧ ∑ k, f k = (r : EReal) := by
  choose g hg0 hg using hf
  exact ⟨∑ k, g k, Finset.sum_nonneg fun k _ => hg0 k, by simp only [hg]; exact sum_coe _ g⟩

/-- A real divided by a real that is not zero is a real. -/
theorem real_div {x : EReal} {y : ℝ} (hx : ∃ r : ℝ, x = (r : EReal)) (hy : y ≠ 0) :
    ∃ r : ℝ, Ideal.div x (y : EReal) = (r : EReal) := by
  obtain ⟨a, rfl⟩ := hx
  rw [Ideal.div_coe hy, ← EReal.coe_mul]; exact ⟨_, rfl⟩

/-- A real that is not negative divided by a positive real is a real that is not negative. -/
theorem nonneg_div {x : EReal} {y : ℝ} (hx : ∃ r : ℝ, 0 ≤ r ∧ x = (r : EReal)) (hy : 0 < y) :
    ∃ r : ℝ, 0 ≤ r ∧ Ideal.div x (y : EReal) = (r : EReal) := by
  obtain ⟨a, ha, rfl⟩ := hx
  rw [Ideal.div_coe (ne_of_gt hy), ← EReal.coe_mul]
  exact ⟨_, mul_nonneg ha (by positivity), rfl⟩

/-- The reciprocal square root of (a real that is not negative) + (a positive real) is a real: the argument is a
    positive real, so neither the negative branch nor the zero branch of the reciprocal square root is taken. -/
theorem real_rsqrt {x : EReal} {e : ℝ} (hx : ∃ r : ℝ, 0 ≤ r ∧ x = (r : EReal)) (he : 0 < e) :
    ∃ r : ℝ, Ideal.rsqrt (x + (e : EReal)) = (r : EReal) := by
  obtain ⟨a, ha, rfl⟩ := hx
  have hpos : 0 < a + e := by linarith
  rw [← EReal.coe_add, Ideal.rsqrt_coe, if_neg (not_lt.2 hpos.le), if_neg (ne_of_gt hpos)]
  exact ⟨_, rfl⟩

/-! ### The first layer's normalisation, 64 columns, with the residual -/

section Layer1
variable (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 x5 x6 : (⟨S64, .f32⟩ : BufTy).Contents (Elt Ideal))

/-- The column means are reals: a sum of reals divided by 100000. -/
theorem real_v55 (h52 : ∀ i, ∃ r : ℝ, val_main_v52 (F := Ideal) x0 x1 x2 x3 x4 i = (r : EReal)) (j : S64.Idx) :
    ∃ r : ℝ, val_main_v55 (F := Ideal) x0 x1 x2 x3 x4 j = (r : EReal) := by
  rw [val_main_v55_apply, val_main_v53_apply, val_main_v54_apply, val_main_cst_11_apply, val_main_cst_10_apply]
  simp only [Ideal.hostDivf_def, Ideal.ofBits_def, Ideal.ofBits_zero_f32, Consts.ofBits_1e5, zero_add]
  exact real_div (real_sum _ (fun k => h52 _)) (by norm_num)

/-- The deviations from the column mean are reals. -/
theorem real_v58 (h52 : ∀ i, ∃ r : ℝ, val_main_v52 (F := Ideal) x0 x1 x2 x3 x4 i = (r : EReal)) (i : S100000x64.Idx) :
    ∃ r : ℝ, val_main_v58 (F := Ideal) x0 x1 x2 x3 x4 i = (r : EReal) := by
  rw [val_main_v58_apply, val_main_v57_apply, val_main_v56_apply]
  simp only [Ideal.subf_def]
  exact real_sub (h52 i) (real_v55 x0 x1 x2 x3 x4 h52 _)

/-- The column variances are reals that are not negative: a sum of squares of reals divided by 100000. -/
theorem nonneg_v62 (h52 : ∀ i, ∃ r : ℝ, val_main_v52 (F := Ideal) x0 x1 x2 x3 x4 i = (r : EReal)) (j : S64.Idx) :
    ∃ r : ℝ, 0 ≤ r ∧ val_main_v62 (F := Ideal) x0 x1 x2 x3 x4 j = (r : EReal) := by
  rw [val_main_v62_apply, val_main_v60_apply, val_main_v61_apply, val_main_cst_13_apply, val_main_cst_12_apply]
  simp only [Ideal.hostDivf_def, Ideal.ofBits_def, Ideal.ofBits_zero_f32, Consts.ofBits_1e5, zero_add]
  refine nonneg_div (nonneg_sum _ (fun k => ?_)) (by norm_num)
  rw [val_main_v59_apply]
  simp only [Ideal.mulf_def]
  exact nonneg_sq (real_v58 x0 x1 x2 x3 x4 h52 _)

/-- The reciprocal square root of variance + the positive literal is a real. -/
theorem real_v68 (h52 : ∀ i, ∃ r : ℝ, val_main_v52 (F := Ideal) x0 x1 x2 x3 x4 i = (r : EReal)) (j : S64.Idx) :
    ∃ r : ℝ, val_main_v68 (F := Ideal) x0 x1 x2 x3 x4 j = (r : EReal) := by
  obtain ⟨e, he, hE⟩ := Consts.ofBits_eps
  rw [val_main_v68_apply, val_main_v67_apply, val_main_v66_apply, val_main_cst_14_apply]
  simp only [Ideal.hostUnary_rsqrt_def, Ideal.addf_def, Ideal.ofBits_def, hE]
  exact real_rsqrt (nonneg_v62 x0 x1 x2 x3 x4 h52 j) he

/-- The normalised entries (deviation times reciprocal square root) are reals. -/
theorem real_v71 (h52 : ∀ i, ∃ r : ℝ, val_main_v52 (F := Ideal) x0 x1 x2 x3 x4 i = (r : EReal)) (i : S100000x64.Idx) :
    ∃ r : ℝ, val_main_v71 (F := Ideal) x0 x1 x2 x3 x4 i = (r : EReal) := by
  rw [val_main_v71_apply, val_main_v65_apply, val_main_v64_apply, val_main_v63_apply, val_main_v70_apply, val_main_v69_apply]
  simp only [Ideal.mulf_def, Ideal.subf_def]
  exact real_mul (real_sub (h52 i) (real_v55 x0 x1 x2 x3 x4 h52 _)) (real_v68 x0 x1 x2 x3 x4 h52 _)

/-- Scaled by a real row, shifted by a real row, cut below at zero, plus the real residual: real. -/
theorem real_v79 (h52 : ∀ i, ∃ r : ℝ, val_main_v52 (F := Ideal) x0 x1 x2 x3 x4 i = (r : EReal)) (h0 : ∀ i, ∃ r : ℝ, x0 i = (r : EReal))
    (h5 : ∀ i, ∃ r : ℝ, x5 i = (r : EReal)) (h6 : ∀ i, ∃ r : ℝ, x6 i = (r : EReal)) :
    ∀ i, ∃ r : ℝ, val_main_v79 (F := Ideal) x0 x1 x2 x3 x4 x5 x6 i = (r : EReal) := by
  intro i
  rw [val_main_v79_apply, val_main_v78_apply, val_main_v77_apply, val_main_v74_apply, val_main_v73_apply, val_main_v72_apply, val_main_v76_apply, val_main_v75_apply,
    val_main_call1_v0_apply, val_main_call1_cst_apply]
  simp only [Ideal.addf_def, Ideal.maximumf_def, Ideal.mulf_def, Ideal.ofBits_def, Ideal.ofBits_zero_f32]
  exact real_add (real_max (real_add (real_mul (real_v71 x0 x1 x2 x3 x4 h52 i) (h5 _)) (h6 _)) real_zero) (h0 i)

end Layer1

/-! ### The second layer's normalisation, 32 columns, no residual -/

section Layer2
variable (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 x5 x6 : (⟨S64, .f32⟩ : BufTy).Contents (Elt Ideal)) (x7 : (⟨S64x32, .f32⟩ : BufTy).Contents (Elt Ideal)) (x8 x9 x10 : (⟨S32, .f32⟩ : BufTy).Contents (Elt Ideal))

/-- The column means are reals: a sum of reals divided by 100000. -/
theorem real_v131 (h128 : ∀ i, ∃ r : ℝ, val_main_v128 (F := Ideal) x0 x1 x2 x3 x4 x5 x6 x7 x8 i = (r : EReal)) (j : S32.Idx) :
    ∃ r : ℝ, val_main_v131 (F := Ideal) x0 x1 x2 x3 x4 x5 x6 x7 x8 j = (r : EReal) := by
  rw [val_main_v131_apply, val_main_v129_apply, val_main_v130_apply, val_main_cst_28_apply, val_main_cst_27_apply]
  simp only [Ideal.hostDivf_def, Ideal.ofBits_def, Ideal.ofBits_zero_f32, Consts.ofBits_1e5, zero_add]
  exact real_div (real_sum _ (fun k => h128 _)) (by norm_num)

/-- The deviations from the column mean are reals. -/
theorem real_v134 (h128 : ∀ i, ∃ r : ℝ, val_main_v128 (F := Ideal) x0 x1 x2 x3 x4 x5 x6 x7 x8 i = (r : EReal)) (i : S100000x32.Idx) :
    ∃ r : ℝ, val_main_v134 (F := Ideal) x0 x1 x2 x3 x4 x5 x6 x7 x8 i = (r : EReal) := by
  rw [val_main_v134_apply, val_main_v133_apply, val_main_v132_apply]
  simp only [Ideal.subf_def]
  exact real_sub (h128 i) (real_v131 x0 x1 x2 x3 x4 x5 x6 x7 x8 h128 _)

/-- The column variances are reals that are not negative: a sum of squares of reals divided by 100000. -/
theorem nonneg_v138 (h128 : ∀ i, ∃ r : ℝ, val_main_v128 (F := Ideal) x0 x1 x2 x3 x4 x5 x6 x7 x8 i = (r : EReal)) (j : S32.Idx) :
    ∃ r : ℝ, 0 ≤ r ∧ val_main_v138 (F := Ideal) x0 x1 x2 x3 x4 x5 x6 x7 x8 j = (r : EReal) := by
  rw [val_main_v138_apply, val_main_v136_apply, val_main_v137_apply, val_main_cst_30_apply, val_main_cst_29_apply]
  simp only [Ideal.hostDivf_def, Ideal.ofBits_def, Ideal.ofBits_zero_f32, Consts.ofBits_1e5, zero_add]
  refine nonneg_div (nonneg_sum _ (fun k => ?_)) (by norm_num)
  rw [val_main_v135_apply]
  simp only [Ideal.mulf_def]
  exact nonneg_sq (real_v134 x0 x1 x2 x3 x4 x5 x6 x7 x8 h128 _)

/-- The reciprocal square root of variance + the positive literal is a real. -/
theorem real_v144 (h128 : ∀ i, ∃ r : ℝ, val_main_v128 (F := Ideal) x0 x1 x2 x3 x4 x5 x6 x7 x8 i = (r : EReal)) (j : S32.Idx) :
    ∃ r : ℝ, val_main_v144 (F := Ideal) x0 x1 x2 x3 x4 x5 x6 x7 x8 j = (r : EReal) := by
  obtain ⟨e, he, hE⟩ := Consts.ofBits_eps
  rw [val_main_v144_apply, val_main_v143_apply, val_main_v142_apply, val_main_cst_31_apply]
  simp only [Ideal.hostUnary_rsqrt_def, Ideal.addf_def, Ideal.ofBits_def, hE]
  exact real_rsqrt (nonneg_v138 x0 x1 x2 x3 x4 x5 x6 x7 x8 h128 j) he

/-- The normalised entries (deviation times reciprocal square root) are reals. -/
theorem real_v147 (h128 : ∀ i, ∃ r : ℝ, val_main_v128 (F := Ideal) x0 x1 x2 x3 x4 x5 x6 x7 x8 i = (r : EReal)) (i : S100000x32.Idx) :
    ∃ r : ℝ, val_main_v147 (F := Ideal) x0 x1 x2 x3 x4 x5 x6 x7 x8 i = (r : EReal) := by
  rw [val_main_v147_apply, val_main_v141_apply, val_main_v140_apply, val_main_v139_apply, val_main_v146_apply, val_main_v145_apply]
  simp only [Ideal.mulf_def, Ideal.subf_def]
  exact real_mul (real_sub (h128 i) (real_v131 x0 x1 x2 x3 x4 x5 x6 x7 x8 h128 _)) (real_v144 x0 x1 x2 x3 x4 x5 x6 x7 x8 h128 _)

/-- Scaled by a real row, shifted by a real row, cut below at zero: real. -/
theorem real_v154 (h128 : ∀ i, ∃ r : ℝ, val_main_v128 (F := Ideal) x0 x1 x2 x3 x4 x5 x6 x7 x8 i = (r : EReal))
    (h9 : ∀ i, ∃ r : ℝ, x9 i = (r : EReal)) (h10 : ∀ i, ∃ r : ℝ, x10 i = (r : EReal)) :
    ∀ i, ∃ r : ℝ, val_main_v154 (F := Ideal) x0 x1 x2 x3 x4 x5 x6 x7 x8 x9 x10 i = (r : EReal) := by
  intro i
  rw [val_main_v154_apply, val_main_v153_apply, val_main_v150_apply, val_main_v149_apply, val_main_v148_apply, val_main_v152_apply, val_main_v151_apply,
    val_main_call3_v0_apply, val_main_call3_cst_apply]
  simp only [Ideal.addf_def, Ideal.maximumf_def, Ideal.mulf_def, Ideal.ofBits_def, Ideal.ofBits_zero_f32]
  exact real_max (real_add (real_mul (real_v147 x0 x1 x2 x3 x4 x5 x6 x7 x8 h128 i) (h9 _)) (h10 _)) real_zero

end Layer2

end Cert.Gcn.NormReal

end
-- ==== Proof.FoldLink.lean ====
/-
  The whole fold.

  Region by region and stretch by stretch, each buffer the next segment reads is the reference's stage of the same
  meaning applied to the launch contents of the arguments: the three row-blocked products are the reference's three
  matrix products (a blocked product is the product, entry by entry a sum over the inner axis); the two normalisation
  regions are the reference's normalisations because the convolution outputs they normalise are arrays of reals — which
  follows, layer by layer, from the finiteness of the float inputs; the host stretches are the reference's own
  operations.  So the result buffer after the last segment holds the reference's last stage.
-/
import proofs.«178879_j29317446762855_1_alg».proof.Proof.FoldNorm1
import proofs.«178879_j29317446762855_1_alg».proof.Proof.FoldNorm2
import proofs.«178879_j29317446762855_1_alg».proof.Proof.FoldTail
import proofs.«178879_j29317446762855_1_alg».proof.Proof.MatmulRegions
import proofs.«178879_j29317446762855_1_alg».proof.Proof.RefDots
import proofs.«178879_j29317446762855_1_alg».proof.Proof.Finite
import proofs.«178879_j29317446762855_1_alg».proof.Proof.NormReal
import Idealize.ShloMosaic.Lib.StableHlo.Run

set_option maxRecDepth 16384

noncomputable section

open scoped BigOperators

namespace Cert.Gcn.Fold

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg) (c : Dev nD)

/-- The first matmul region's output is the reference's first product. -/
theorem W4_v32 : W4 m ρ c (Proc.devRef .tc main_v32) = val_main_v4 (F := Ideal) (A m c main_arg0) (A m c main_arg3) := by
  refine (W4_arr m ρ c 2).trans ?_
  funext j
  obtain ⟨p, q, rfl⟩ : ∃ (p : Fin 100000) (q : Fin 64), j = ix2 p q := ⟨j 0, j 1, eq_ix2 j⟩
  exact (Cert.Gcn.Matmul.region0_apply_of (V3 m ρ) c (A m c main_arg0) (A m c main_arg3) (W3_arg0 m ρ c) (W3_arg3 m ρ c) p q).trans
    (Cert.Gcn.RefDots.ref_v4_apply (A m c main_arg0) (A m c main_arg3) p q).symm

/-- The second matmul region's output is the reference's second product, given the first normalisation's output. -/
theorem W9_v67 (h66 : W8 m ρ c (Proc.devRef .tc main_v66) = val_main_v79 (F := Ideal) (A m c main_arg0) (A m c main_arg1) (A m c main_arg2) (A m c main_arg3) (A m c main_arg4) (A m c main_arg5) (A m c main_arg6)) :
    W9 m ρ c (Proc.devRef .tc main_v67) = val_main_v80 (F := Ideal) (A m c main_arg0) (A m c main_arg1) (A m c main_arg2) (A m c main_arg3) (A m c main_arg4) (A m c main_arg5) (A m c main_arg6) (A m c main_arg7) := by
  refine (W9_arr m ρ c 2).trans ?_
  funext j
  obtain ⟨p, q, rfl⟩ : ∃ (p : Fin 100000) (q : Fin 32), j = ix2 p q := ⟨j 0, j 1, eq_ix2 j⟩
  exact (Cert.Gcn.Matmul.region3_apply_of (V8 m ρ) c (val_main_v79 (F := Ideal) (A m c main_arg0) (A m c main_arg1) (A m c main_arg2) (A m c main_arg3) (A m c main_arg4) (A m c main_arg5) (A m c main_arg6)) (A m c main_arg7) h66 (W8_arg7 m ρ c) p q).trans
    (Cert.Gcn.RefDots.ref_v80_apply (A m c main_arg0) (A m c main_arg1) (A m c main_arg2) (A m c main_arg3) (A m c main_arg4) (A m c main_arg5) (A m c main_arg6) (A m c main_arg7) p q).symm

/-- The third matmul region's output is the reference's third product, given the second normalisation's output. -/
theorem W14_v102 (h101 : W13 m ρ c (Proc.devRef .tc main_v101) = val_main_v154 (F := Ideal) (A m c main_arg0) (A m c main_arg1) (A m c main_arg2) (A m c main_arg3) (A m c main_arg4) (A m c main_arg5) (A m c main_arg6) (A m c main_arg7) (A m c main_arg8) (A m c main_arg9) (A m c main_arg10)) :
    W14 m ρ c (Proc.devRef .tc main_v102) = val_main_v155 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) := by
  refine (W14_arr m ρ c 2).trans ?_
  funext j
  obtain ⟨p, q, rfl⟩ : ∃ (p : Fin 100000) (q : Fin 1), j = ix2 p q := ⟨j 0, j 1, eq_ix2 j⟩
  exact (Cert.Gcn.Matmul.region6_apply_of (V13 m ρ) c (val_main_v154 (F := Ideal) (A m c main_arg0) (A m c main_arg1) (A m c main_arg2) (A m c main_arg3) (A m c main_arg4) (A m c main_arg5) (A m c main_arg6) (A m c main_arg7) (A m c main_arg8) (A m c main_arg9) (A m c main_arg10)) (A m c main_arg11) h101 (W13_arg11 m ρ c) p q).trans
    (Cert.Gcn.RefDots.ref_v155_apply (A m c main_arg0) (A m c main_arg1) (A m c main_arg2) (A m c main_arg3) (A m c main_arg4) (A m c main_arg5) (A m c main_arg6) (A m c main_arg7) (A m c main_arg8) (A m c main_arg9) (A m c main_arg10) (A m c main_arg11) p q).symm

/-- The program's result buffer after the last segment holds the reference's last stage of the launch contents, when
    every float argument is an array of reals. -/
theorem result
    (r0 : ∀ i, ∃ r : ℝ, A m c main_arg0 i = (r : EReal)) (r2 : ∀ i, ∃ r : ℝ, A m c main_arg2 i = (r : EReal))
    (r3 : ∀ i, ∃ r : ℝ, A m c main_arg3 i = (r : EReal)) (r4 : ∀ i, ∃ r : ℝ, A m c main_arg4 i = (r : EReal))
    (r5 : ∀ i, ∃ r : ℝ, A m c main_arg5 i = (r : EReal)) (r6 : ∀ i, ∃ r : ℝ, A m c main_arg6 i = (r : EReal))
    (r7 : ∀ i, ∃ r : ℝ, A m c main_arg7 i = (r : EReal)) (r8 : ∀ i, ∃ r : ℝ, A m c main_arg8 i = (r : EReal))
    (r9 : ∀ i, ∃ r : ℝ, A m c main_arg9 i = (r : EReal)) (r10 : ∀ i, ∃ r : ℝ, A m c main_arg10 i = (r : EReal)) :
    W17 m ρ c (Proc.devRef .tc main_v139) = val_main_v220 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) := by
  have h52 := W5_v52 m ρ c (W4_v32 m ρ c)
  have hr52 : ∀ i, ∃ r : ℝ, H1 m c i = (r : EReal) :=
    Cert.Gcn.Finite.real_v52 (A m c main_arg0) (A m c main_arg1) (A m c main_arg2) (A m c main_arg3) (A m c main_arg4) r0 r2 r3 r4
  have h66 := W8_v66 m ρ c h52 hr52
  have h87 := W10_v87 m ρ c (W9_v67 m ρ c h66)
  have hr79 := Cert.Gcn.NormReal.real_v79 (A m c main_arg0) (A m c main_arg1) (A m c main_arg2) (A m c main_arg3) (A m c main_arg4) (A m c main_arg5) (A m c main_arg6) hr52 r0 r5 r6
  have hr128 : ∀ i, ∃ r : ℝ, H2 m c i = (r : EReal) :=
    Cert.Gcn.Finite.real_v128 (A m c main_arg0) (A m c main_arg1) (A m c main_arg2) (A m c main_arg3) (A m c main_arg4) (A m c main_arg5) (A m c main_arg6) (A m c main_arg7) (A m c main_arg8) hr79 r2 r7 r8
  have h101 := W13_v101 m ρ c h87 hr128
  exact W17_v139 m ρ c (W14_v102 m ρ c h101)

end Cert.Gcn.Fold

end
-- ==== Proof.lean ====
/-
  Kernel against reference for a three-layer graph convolution network with batch normalisation.

  Both programs compute, from node features `x`, an edge list with weights and the layers' parameters: the symmetric
  edge norm from the weighted degrees; three graph convolutions `h ↦ scatter-add (norm · (h·W)[source]) at target
  + self · (h·W) + b`; after the first two a batch normalisation over the nodes, a relu (and, after the first, the
  residual `+ x`); then the mean over the nodes and a small dense tail.  The kernel computes the three products
  `h·W` in row blocks, the column sums and sums of squares in an accumulating region, and the normalisation in a
  pointwise region that takes the variance as `mean of squares - squared mean`; the reference uses one product, and
  the variance as the mean of the squared deviations.  At the exact extended reals a blocked product is the product and
  a blocked sum is the sum; the two variances agree when every entry of the normalised array is a real number, which
  follows from the precondition that every float input is finite.  Everything else is the same operations in the same
  order on equal arrays.
-/
import proofs.«178879_j29317446762855_1_alg».proof.Defs
import proofs.«178879_j29317446762855_1_alg».proof.Proof.Gen.Kernel
import proofs.«178879_j29317446762855_1_alg».proof.Proof.Gen.Kernel.Skeleton
import proofs.«178879_j29317446762855_1_alg».proof.Proof.Gen.Kernel.Launch
import proofs.«178879_j29317446762855_1_alg».proof.Proof.Gen.Kernel.Points
import proofs.«178879_j29317446762855_1_alg».proof.Proof.Gen.Kernel.Frame
import proofs.«178879_j29317446762855_1_alg».proof.Proof.Gen.KernelIdeal
import proofs.«178879_j29317446762855_1_alg».proof.Proof.Gen.KernelIdeal.Skeleton
import proofs.«178879_j29317446762855_1_alg».proof.Proof.Gen.KernelIdeal.Launch
import proofs.«178879_j29317446762855_1_alg».proof.Proof.Gen.KernelIdeal.Points
import proofs.«178879_j29317446762855_1_alg».proof.Proof.Gen.KernelIdeal.Frame
import proofs.«178879_j29317446762855_1_alg».proof.Proof.Gen.ReferenceIdeal
import proofs.«178879_j29317446762855_1_alg».proof.Proof.Gen.Pre_finite_inputs
import proofs.«178879_j29317446762855_1_alg».proof.Proof.KernelRun
import proofs.«178879_j29317446762855_1_alg».proof.Proof.RefRun
import proofs.«178879_j29317446762855_1_alg».proof.Proof.RefResult
import proofs.«178879_j29317446762855_1_alg».proof.Proof.PreReal
import proofs.«178879_j29317446762855_1_alg».proof.Proof.FoldLink
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealized kernel's result array ends at the fold's value at the result buffer; the reference's at its last
    stage of its arguments; the arguments agree, and — every float argument being an array of reals — the fold's
    value is that stage of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W17 m ρ c (Proc.devRef .tc Cert.KernelIdeal.main_v139),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.Gcn.RefResult.res_eq]
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]
  obtain ⟨r0, r2, r3, r4, r5, r6, r7, r8, r9, r10, -⟩ := Cert.Gcn.PreReal.real_of_preKernelIdeal m hpre c
  exact (Cert.Gcn.Fold.result m ρ c r0 r2 r3 r4 r5 r6 r7 r8 r9 r10).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
